-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S512x1024 .f32
  ∧ IdealRules.sign_bit.Statement Cert.KernelIdeal.S512x1024 .f32
  ∧ IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S16384x1024 : Shape := ⟨2, ![16384, 1024]⟩
abbrev S1024x784 : Shape := ⟨2, ![1024, 784]⟩
abbrev S1024x1024 : Shape := ⟨2, ![1024, 1024]⟩
abbrev S10x1024 : Shape := ⟨2, ![10, 1024]⟩
abbrev S1024 : Shape := ⟨1, ![1024]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x784 : S_.BroadcastsInDim S1024x784 (![] : Fin 0 → Fin S1024x784.rank)
  reducesTo_S1024x784_S_d0_1 : S1024x784.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024x1024 .f32) (main_arg5 : FVec F S1024x1024 .f32) (main_arg6 : FVec F S10x1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_v13 : IVec S_ 1) (main_v16 : IVec S1024x784 1) : IVec S_ 1 :=
  let main_c_5 : IVec S_ 1 := constantI S_ 1 1#1
  let main_v17 : IVec S_ 1 := (fun x v => Host.reduce IntOp.andi x v reducesTo_S1024x784_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S10x1024 .f32 := Host.absf main_arg6
  let main_cst_10 : FVec F S_ .f32 := constant S_ .f32 0x7F800000#32
  let main_v30 : FVec F S10x1024 .f32 := broadcastInDim S10x1024 ![] bcast_S_S10x1024 main_cst_10
  let main_v31 : IVec S10x1024 1 := cmpf .olt main_v29 main_v30
  let main_c_11 : IVec S_ 1 := constantI S_ 1 1#1
  let main_v32 : IVec S_ 1 := (fun x v => Host.reduce IntOp.andi x v reducesTo_S10x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x784 .f32) (main_arg1 : FVec F S16384x1024 .f32) (main_arg2 : FVec F S16384x1024 .f32) (main_arg3 : FVec F S1024x784 .f32) (main_arg4 : FVec F S1024x1024 .f32) (main_arg5 : FVec F S1024x1024 .f32) (main_arg6 : FVec F S10x1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x784 .f32 := Host.absf main_arg3
  let main_cst_4 : FVec F S_ .f32 := constant S_ .f32 0x7F800000#32
  let main_v15 : FVec F S1024x784 .f32 := broadcastInDim S1024x784 ![] bcast_S_S1024x784 main_cst_4
  let main_v16 : IVec S1024x784 1 := cmpf .olt main_v14 main_v15
  fn_part1 (F := F) main_arg4 main_arg5 main_arg6 main_arg7 main_arg8 main_arg9 main_arg10 main_arg11 main_arg12 main_v13 main_v16
-- ==== Kernel.lean ====
abbrev S16384x784 : Shape := ⟨2, ![16384, 784]⟩
abbrev S16384x1024 : Shape := ⟨2, ![16384, 1024]⟩
abbrev S1024x784 : Shape := ⟨2, ![1024, 784]⟩
abbrev S1024x1024 : Shape := ⟨2, ![1024, 1024]⟩
abbrev S10x1024 : Shape := ⟨2, ![10, 1024]⟩
abbrev S1024 : Shape := ⟨1, ![1024]⟩
abbrev S1x1024 : Shape := ⟨2, ![1, 1024]⟩
abbrev S16x1024 : Shape := ⟨2, ![16, 1024]⟩
abbrev S512x784 : Shape := ⟨2, ![512, 784]⟩
abbrev S512x1024 : Shape := ⟨2, ![512, 1024]⟩
abbrev S8x1024 : Shape := ⟨2, ![8, 1024]⟩
abbrev S_ : Shape := ⟨0, ![]⟩
abbrev S16384x10 : Shape := ⟨2, ![16384, 10]⟩
abbrev S512x10 : Shape := ⟨2, ![512, 10]⟩

abbrev nBuf : Space → Nat
  | .hbm => 69
  | .vmem => 44
  | .smem => 0
  | _ => 0

abbrev bufTy : (tb : Table) → Fin (tcTables nBuf tb) → BufTy
  | .hbm, ⟨0, _⟩ => ⟨S16384x784, .f32⟩
  | .hbm, ⟨1, _⟩ => ⟨S16384x1024, .f32⟩
  | .hbm, ⟨2, _⟩ => ⟨S16384x1024, .f32⟩
  | .hbm, ⟨3, _⟩ => ⟨S1024x784, .f32⟩
  | .hbm, ⟨4, _⟩ => ⟨S1024x1024, .f32⟩
  | .hbm, ⟨5, _⟩ => ⟨S1024x1024, .f32⟩
  | .hbm, ⟨6, _⟩ => ⟨S10x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x784, .f32⟩
  | .hbm, ⟨20, _⟩ => ⟨S1024x784, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S10x1024, .f32⟩
  | .hbm, ⟨26, _⟩ => ⟨S10x1024, .bf16⟩
  | .hbm, ⟨27, _⟩ => ⟨S16384x1024, .f32⟩
  | .hbm, ⟨28, _⟩ => ⟨S16x1024, .f32⟩
  | .hbm, ⟨29, _⟩ => ⟨S16x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S16384x1024, .bf16⟩
  | .hbm, ⟨45, _⟩ => ⟨S16x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S16384x1024, .bf16⟩
  | .hbm, ⟨57, _⟩ => ⟨S16x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S16384x10, .f32⟩
  | .local _ .vmem, ⟨0, _⟩ => ⟨S512x784, .f32⟩
  | .local _ .vmem, ⟨1, _⟩ => ⟨S512x784, .f32⟩
  | .local _ .vmem, ⟨2, _⟩ => ⟨S1024x784, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S8x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S8x1024, .f32⟩
  | .local _ .vmem, ⟨35, _⟩ => ⟨S512x1024, .bf16⟩
  | .local _ .vmem, ⟨36, _⟩ => ⟨S512x1024, .bf16⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S10x1024, .bf16⟩
  | .local _ .vmem, ⟨42, _⟩ => ⟨S512x10, .f32⟩
  | .local _ .vmem, ⟨43, _⟩ => ⟨S512x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [BitOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S8x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x10 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S1024_S1x1024 : S1024.ShapeCasts S1x1024
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  inb_S512x784_S512x784_0_0 : ∀ a, (![0, 0] : Fin 2 → Nat) a + S512x784.size a ≤ S512x784.size a
  h_S512x784 : 0 < S512x784.numel
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S8x1024_S8x1024 : S8x1024.ShapeCasts S8x1024
  shapeCasts_S1x1024_S1x1024 : S1x1024.ShapeCasts S1x1024
  broadcasts_S1x1024_S8x1024 : S1x1024.Broadcasts S8x1024
  slices_S16x1024_S1x1024_0_0 : S16x1024.Slices ![0, 0] S1x1024
  slices_S16x1024_S1x1024_8_0 : S16x1024.Slices ![8, 0] S1x1024
  bcast_S_S1x1024 : S_.BroadcastsInDim S1x1024 (![] : Fin 0 → Fin S1x1024.rank)
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S512x10_S512x10_0_0 : ∀ a, (![0, 0] : Fin 2 → Nat) a + S512x10.size a ≤ S512x10.size a
  h_S512x10 : 0 < S512x10.numel
  dot_S512x784_S1024x784_S512x1024_1_1_0_0_n_n_wf : DotDims.WF S512x784 S1024x784 S512x1024 [1] [1] [0] [0] [] []
  dot_S512x1024_S1024x1024_S512x1024_1_1_0_0_n_n_wf : DotDims.WF S512x1024 S1024x1024 S512x1024 [1] [1] [0] [0] [] []
  dot_S512x1024_S10x1024_S512x10_1_1_0_0_n_n_wf : DotDims.WF S512x1024 S10x1024 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .f32 = 32 ∨ (Rect.block (s := S16384x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S1024x784.size a
  hwx0_1 : ∀ i : grid0.Coords, EltTy.bits .bf16 = 32 ∨ (Rect.block (s := S1024x784) S1024x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S16384x1024.size a
  hwx1_6 : ∀ i : grid1.Coords, EltTy.bits .f32 = 32 ∨ (Rect.block (s := S16384x1024) S512x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S16384x1024.size a
  hwx1_7 : ∀ i : grid1.Coords, EltTy.bits .bf16 = 32 ∨ (Rect.block (s := S16384x1024) S512x1024.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x1024.size a ≤ S16x1024.size a
  hwx1_8 : ∀ i : grid1.Coords, EltTy.bits .f32 = 32 ∨ (Rect.block (s := S16x1024) S8x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S16384x1024.size a
  hwx2_6 : ∀ i : grid2.Coords, EltTy.bits .f32 = 32 ∨ (Rect.block (s := S16384x1024) S512x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S16384x1024.size a
  hwx2_7 : ∀ i : grid2.Coords, EltTy.bits .bf16 = 32 ∨ (Rect.block (s := S16384x1024) S512x1024.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x1024.size a ≤ S16x1024.size a
  hwx2_8 : ∀ i : grid2.Coords, EltTy.bits .f32 = 32 ∨ (Rect.block (s := S16x1024) S8x1024.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S16384x1024.size a
  hwx3_0 : ∀ i : grid3.Coords, EltTy.bits .bf16 = 32 ∨ (Rect.block (s := S16384x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10x1024.size a ≤ S10x1024.size a
  hwx3_5 : ∀ i : grid3.Coords, EltTy.bits .bf16 = 32 ∨ (Rect.block (s := S10x1024) S10x1024.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x10.size a ≤ S16384x10.size a
  hwx3_6 : ∀ i : grid3.Coords, EltTy.bits .f32 = 32 ∨ (Rect.block (s := S16384x10) S512x10.size (cc3_transform_6 i) (hinb3_6 i)).WholeWords (EltTy.packing .f32)

variable [Facts₀]

def dot_S512x784_S1024x784_S512x1024_1_1_0_0_n_n : DotDims S512x784 S1024x784 S512x1024 where
  lhsContracting := [1]
  rhsContracting := [1]
  lhsNonContracting := [0]
  rhsNonContracting := [0]
  lhsBatch := []
  rhsBatch := []
  wf := dot_S512x784_S1024x784_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S10x1024_S512x10_1_1_0_0_n_n : DotDims S512x1024 S10x1024 S512x10 where
  lhsContracting := [1]
  rhsContracting := [1]
  lhsNonContracting := [0]
  rhsNonContracting := [0]
  lhsBatch := []
  rhsBatch := []
  wf := dot_S512x1024_S10x1024_S512x10_1_1_0_0_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S512x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S512x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S8x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v27_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg2) S512x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v36_0) S512x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v36_1) S8x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v36_0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S10x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S512x10.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16384x784 : Shape := ⟨2, ![16384, 784]⟩
abbrev S16384x1024 : Shape := ⟨2, ![16384, 1024]⟩
abbrev S1024x784 : Shape := ⟨2, ![1024, 784]⟩
abbrev S1024x1024 : Shape := ⟨2, ![1024, 1024]⟩
abbrev S10x1024 : Shape := ⟨2, ![10, 1024]⟩
abbrev S1024 : Shape := ⟨1, ![1024]⟩
abbrev S784x1024 : Shape := ⟨2, ![784, 1024]⟩
abbrev S_ : Shape := ⟨0, ![]⟩
abbrev S1x1024 : Shape := ⟨2, ![1, 1024]⟩
abbrev S1024x10 : Shape := ⟨2, ![1024, 10]⟩
abbrev S16384x10 : Shape := ⟨2, ![16384, 10]⟩

abbrev nBuf : Space → Nat
  | .hbm => 216
  | .vmem => 0
  | .smem => 0
  | _ => 0

abbrev hbmTy0_0 (i : Nat) : BufTy := match i % 128 with
  | 0 => ⟨S16384x784, .f32⟩
  | 1 => ⟨S16384x1024, .f32⟩
  | 2 => ⟨S16384x1024, .f32⟩
  | 3 => ⟨S1024x784, .f32⟩
  | 4 => ⟨S1024x1024, .f32⟩
  | 5 => ⟨S1024x1024, .f32⟩
  | 6 => ⟨S10x1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024x784, .f32⟩
  | 14 => ⟨S784x1024, .f32⟩
  | 15 => ⟨S16384x1024, .f32⟩
  | 16 => ⟨S_, .f32⟩
  | 17 => ⟨S1024, .f32⟩
  | 18 => ⟨S_, .f32⟩
  | 19 => ⟨S1024, .f32⟩
  | 20 => ⟨S1024, .f32⟩
  | 21 => ⟨S_, .i32⟩
  | 22 => ⟨S_, .f32⟩
  | 23 => ⟨S1024, .f32⟩
  | 24 => ⟨S1x1024, .f32⟩
  | 25 => ⟨S_, .f32⟩
  | 26 => ⟨S1x1024, .f32⟩
  | 27 => ⟨S1x1024, .f32⟩
  | 28 => ⟨S16384x1024, .f32⟩
  | 29 => ⟨S16384x1024, .f32⟩
  | 30 => ⟨S16384x1024, .f32⟩
  | 31 => ⟨S_, .f32⟩
  | 32 => ⟨S_, .f32⟩
  | 33 => ⟨S_, .f32⟩
  | 34 => ⟨S_, .f32⟩
  | 35 => ⟨S1024, .f32⟩
  | 36 => ⟨S1024, .f32⟩
  | 37 => ⟨S1024, .f32⟩
  | 38 => ⟨S_, .f32⟩
  | 39 => ⟨S_, .i1⟩
  | 40 => ⟨S_, .f32⟩
  | 41 => ⟨S_, .f32⟩
  | 42 => ⟨S1024, .f32⟩
  | 43 => ⟨S1024, .f32⟩
  | 44 => ⟨S1x1024, .f32⟩
  | 45 => ⟨S16384x1024, .f32⟩
  | 46 => ⟨S16384x1024, .f32⟩
  | 47 => ⟨S_, .f32⟩
  | 48 => ⟨S1024, .f32⟩
  | 49 => ⟨S1024, .f32⟩
  | 50 => ⟨S1024, .f32⟩
  | 51 => ⟨S1x1024, .f32⟩
  | 52 => ⟨S16384x1024, .f32⟩
  | 53 => ⟨S16384x1024, .f32⟩
  | 54 => ⟨S1x1024, .f32⟩
  | 55 => ⟨S16384x1024, .f32⟩
  | 56 => ⟨S16384x1024, .f32⟩
  | 57 => ⟨S1x1024, .f32⟩
  | 58 => ⟨S16384x1024, .f32⟩
  | 59 => ⟨S16384x1024, .f32⟩
  | 60 => ⟨S16384x1024, .f32⟩
  | 61 => ⟨S1024x1024, .f32⟩
  | 62 => ⟨S1024x1024, .f32⟩
  | 63 => ⟨S16384x1024, .f32⟩
  | 64 => ⟨S_, .f32⟩
  | 65 => ⟨S16384x1024, .f32⟩
  | 66 => ⟨S16384x1024, .i1⟩
  | 67 => ⟨S_, .f32⟩
  | 68 => ⟨S_, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S16384x1024, .i1⟩
  | 82 => ⟨S16384x1024, .f32⟩
  | 83 => ⟨S_, .f32⟩
  | 84 => ⟨S16384x1024, .f32⟩
  | 85 => ⟨S16384x1024, .i1⟩
  | 86 => ⟨S16384x1024, .i1⟩
  | 87 => ⟨S16384x1024, .f32⟩
  | 88 => ⟨S16384x1024, .f32⟩
  | 89 => ⟨S16384x1024, .f32⟩
  | 90 => ⟨S_, .f32⟩
  | 91 => ⟨S1024, .f32⟩
  | 92 => ⟨S_, .f32⟩
  | 93 => ⟨S1024, .f32⟩
  | 94 => ⟨S1024, .f32⟩
  | 95 => ⟨S_, .i32⟩
  | 96 => ⟨S16384x1024, .f32⟩
  | 97 => ⟨S_, .f32⟩
  | 98 => ⟨S1024, .f32⟩
  | 99 => ⟨S1x1024, .f32⟩
  | 100 => ⟨S_, .f32⟩
  | 101 => ⟨S1x1024, .f32⟩
  | 102 => ⟨S1x1024, .f32⟩
  | 103 => ⟨S16384x1024, .f32⟩
  | 104 => ⟨S16384x1024, .f32⟩
  | 105 => ⟨S16384x1024, .f32⟩
  | 106 => ⟨S_, .f32⟩
  | 107 => ⟨S_, .f32⟩
  | 108 => ⟨S_, .f32⟩
  | 109 => ⟨S_, .f32⟩
  | 110 => ⟨S1024, .f32⟩
  | 111 => ⟨S1024, .f32⟩
  | 112 => ⟨S1024, .f32⟩
  | 113 => ⟨S_, .f32⟩
  | 114 => ⟨S_, .i1⟩
  | 115 => ⟨S_, .f32⟩
  | 116 => ⟨S_, .f32⟩
  | 117 => ⟨S1024, .f32⟩
  | 118 => ⟨S1024, .f32⟩
  | 119 => ⟨S16384x1024, .f32⟩
  | 120 => ⟨S1x1024, .f32⟩
  | 121 => ⟨S16384x1024, .f32⟩
  | 122 => ⟨S16384x1024, .f32⟩
  | 123 => ⟨S_, .f32⟩
  | 124 => ⟨S1024, .f32⟩
  | 125 => ⟨S1024, .f32⟩
  | 126 => ⟨S1024, .f32⟩
  | 127 => ⟨S1x1024, .f32⟩
  | _ => ⟨S16384x784, .f32⟩

abbrev hbmTy0_1 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S1x1024, .f32⟩
  | 6 => ⟨S16384x1024, .f32⟩
  | 7 => ⟨S16384x1024, .f32⟩
  | 8 => ⟨S16384x1024, .f32⟩
  | 9 => ⟨S1024x1024, .f32⟩
  | 10 => ⟨S1024x1024, .f32⟩
  | 11 => ⟨S16384x1024, .f32⟩
  | 12 => ⟨S_, .f32⟩
  | 13 => ⟨S16384x1024, .f32⟩
  | 14 => ⟨S16384x1024, .i1⟩
  | 15 => ⟨S_, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .i1⟩
  | 30 => ⟨S16384x1024, .f32⟩
  | 31 => ⟨S_, .f32⟩
  | 32 => ⟨S16384x1024, .f32⟩
  | 33 => ⟨S16384x1024, .i1⟩
  | 34 => ⟨S16384x1024, .i1⟩
  | 35 => ⟨S16384x1024, .f32⟩
  | 36 => ⟨S16384x1024, .f32⟩
  | 37 => ⟨S16384x1024, .f32⟩
  | 38 => ⟨S_, .f32⟩
  | 39 => ⟨S1024, .f32⟩
  | 40 => ⟨S_, .f32⟩
  | 41 => ⟨S1024, .f32⟩
  | 42 => ⟨S1024, .f32⟩
  | 43 => ⟨S_, .i32⟩
  | 44 => ⟨S16384x1024, .f32⟩
  | 45 => ⟨S_, .f32⟩
  | 46 => ⟨S1024, .f32⟩
  | 47 => ⟨S1x1024, .f32⟩
  | 48 => ⟨S_, .f32⟩
  | 49 => ⟨S1x1024, .f32⟩
  | 50 => ⟨S1x1024, .f32⟩
  | 51 => ⟨S16384x1024, .f32⟩
  | 52 => ⟨S16384x1024, .f32⟩
  | 53 => ⟨S16384x1024, .f32⟩
  | 54 => ⟨S_, .f32⟩
  | 55 => ⟨S_, .f32⟩
  | 56 => ⟨S_, .f32⟩
  | 57 => ⟨S_, .f32⟩
  | 58 => ⟨S1024, .f32⟩
  | 59 => ⟨S1024, .f32⟩
  | 60 => ⟨S1024, .f32⟩
  | 61 => ⟨S_, .f32⟩
  | 62 => ⟨S_, .i1⟩
  | 63 => ⟨S_, .f32⟩
  | 64 => ⟨S_, .f32⟩
  | 65 => ⟨S1024, .f32⟩
  | 66 => ⟨S1024, .f32⟩
  | 67 => ⟨S16384x1024, .f32⟩
  | 68 => ⟨S1x1024, .f32⟩
  | 69 => ⟨S16384x1024, .f32⟩
  | 70 => ⟨S16384x1024, .f32⟩
  | 71 => ⟨S_, .f32⟩
  | 72 => ⟨S1024, .f32⟩
  | 73 => ⟨S1024, .f32⟩
  | 74 => ⟨S1024, .f32⟩
  | 75 => ⟨S1x1024, .f32⟩
  | 76 => ⟨S16384x1024, .f32⟩
  | 77 => ⟨S16384x1024, .f32⟩
  | 78 => ⟨S1x1024, .f32⟩
  | 79 => ⟨S16384x1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S10x1024, .f32⟩
  | 86 => ⟨S1024x10, .f32⟩
  | 87 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_v27 : Ref sig .tc := ⟨.hbm, 66, rfl⟩
abbrev main_cst_3 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_5 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_cst_9 : Ref sig .tc := ⟨.hbm, 92, rfl⟩
abbrev main_v45 : Ref sig .tc := ⟨.hbm, 93, rfl⟩
abbrev main_v46 : Ref sig .tc := ⟨.hbm, 94, rfl⟩
abbrev main_c_10 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_call3_cst_0 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_cst_1 : Ref sig .tc := ⟨.hbm, 107, rfl⟩
abbrev main_call3_v9 : Ref sig .tc := ⟨.hbm, 108, rfl⟩
abbrev main_call3_cst_2 : Ref sig .tc := ⟨.hbm, 109, rfl⟩
abbrev main_call3_v10 : Ref sig .tc := ⟨.hbm, 110, rfl⟩
abbrev main_call3_v11 : Ref sig .tc := ⟨.hbm, 111, rfl⟩
abbrev main_call3_v12 : Ref sig .tc := ⟨.hbm, 112, rfl⟩
abbrev main_call3_cst_3 : Ref sig .tc := ⟨.hbm, 113, rfl⟩
abbrev main_call3_v13 : Ref sig .tc := ⟨.hbm, 114, rfl⟩
abbrev main_call3_cst_4 : Ref sig .tc := ⟨.hbm, 115, rfl⟩
abbrev main_call3_call0_v0 : Ref sig .tc := ⟨.hbm, 116, rfl⟩
abbrev main_call3_call0_v1 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_cst_11 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_cst_12 : Ref sig .tc := ⟨.hbm, 140, rfl⟩
abbrev main_v68 : Ref sig .tc := ⟨.hbm, 141, rfl⟩
abbrev main_v69 : Ref sig .tc := ⟨.hbm, 142, rfl⟩
abbrev main_cst_13 : Ref sig .tc := ⟨.hbm, 143, rfl⟩
abbrev main_cst_14 : Ref sig .tc := ⟨.hbm, 144, rfl⟩
abbrev main_call4_v0 : Ref sig .tc := ⟨.hbm, 145, rfl⟩
abbrev main_call4_v1 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_15 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_cst_16 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_17 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_18 : Ref sig .tc := ⟨.hbm, 166, rfl⟩
abbrev main_v86 : Ref sig .tc := ⟨.hbm, 167, rfl⟩
abbrev main_cst_19 : Ref sig .tc := ⟨.hbm, 168, rfl⟩
abbrev main_v87 : Ref sig .tc := ⟨.hbm, 169, rfl⟩
abbrev main_v88 : Ref sig .tc := ⟨.hbm, 170, rfl⟩
abbrev main_c_20 : Ref sig .tc := ⟨.hbm, 171, rfl⟩
abbrev main_call6_v0 : Ref sig .tc := ⟨.hbm, 172, rfl⟩
abbrev main_call6_cst : Ref sig .tc := ⟨.hbm, 173, rfl⟩
abbrev main_call6_v1 : Ref sig .tc := ⟨.hbm, 174, rfl⟩
abbrev main_call6_v2 : Ref sig .tc := ⟨.hbm, 175, rfl⟩
abbrev main_call6_cst_0 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_cst_1 : Ref sig .tc := ⟨.hbm, 183, rfl⟩
abbrev main_call6_v9 : Ref sig .tc := ⟨.hbm, 184, rfl⟩
abbrev main_call6_cst_2 : Ref sig .tc := ⟨.hbm, 185, rfl⟩
abbrev main_call6_v10 : Ref sig .tc := ⟨.hbm, 186, rfl⟩
abbrev main_call6_v11 : Ref sig .tc := ⟨.hbm, 187, rfl⟩
abbrev main_call6_v12 : Ref sig .tc := ⟨.hbm, 188, rfl⟩
abbrev main_call6_cst_3 : Ref sig .tc := ⟨.hbm, 189, rfl⟩
abbrev main_call6_v13 : Ref sig .tc := ⟨.hbm, 190, rfl⟩
abbrev main_call6_cst_4 : Ref sig .tc := ⟨.hbm, 191, rfl⟩
abbrev main_call6_call0_v0 : Ref sig .tc := ⟨.hbm, 192, rfl⟩
abbrev main_call6_call0_v1 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_cst_21 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩

abbrev nD : Nat := 1
abbrev τ : Topo := Topo.v7x

variable {F : FTy → Type} [FloatOps F]

class Facts₀ : Prop where
  transposes_S1024x784_S784x1024_1_0 : S1024x784.Transposes [1, 0] S784x1024
  reducesTo_S16384x1024_S1024_d0 : S16384x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)
  transposes_S1024x1024_S1024x1024_1_0 : S1024x1024.Transposes [1, 0] S1024x1024
  bcast_S_S16384x1024 : S_.BroadcastsInDim S16384x1024 (![] : Fin 0 → Fin S16384x1024.rank)
  transposes_S10x1024_S1024x10_1_0 : S10x1024.Transposes [1, 0] S1024x10
  dot_S16384x784_S784x1024_S16384x1024_1_0_0_1_n_n_wf : DotDims.WF S16384x784 S784x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x784_S784x1024_S16384x1024_1_0_0_1_n_n : DotDims S16384x784 S784x1024 S16384x1024 where
  lhsContracting := [1]
  rhsContracting := [0]
  lhsNonContracting := [0]
  rhsNonContracting := [1]
  lhsBatch := []
  rhsBatch := []
  wf := dot_S16384x784_S784x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.KRun.lean ====
/- The kernel program's run with its result named: every weakly fair execution of @main terminates without a
   fault, and in every final state the result buffer holds the last fold value (the contents the fourth region's
   write-backs leave) while each argument array is as launched. -/
import proofs.«171548_j65360812310623_2_alg».proof.Proof.Gen.KernelIdeal.Frame
import Idealize.ShloMosaic.PureOps.Ideal

set_option maxRecDepth 16384

noncomputable section

namespace Cert.BNN.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch lemma's implicit arguments are found by unifying its conclusion with this one, which takes unfolding
-- plain definitions in a metavariable's type
set_option backward.isDefEq.respectTransparency.types false in
/-- The run of @main at the exact instance: it terminates, nothing faulting, and every final state has the result
    buffer at the last boundary's contents `W8` and the thirteen argument arrays as launched. The last thread state
    (every unscoped buffer at `W8`'s contents) is read against the final state at the result buffer and at each
    argument; an argument's fold value walks back to the launch memory. -/
theorem run_result : θ_run (defs (F := Ideal)) (onTc (τ := τ) (main (F := Ideal))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.BNN.Chain

end
-- ==== Proof.RefTerm.lean ====
/-
  The reference network as one pure function of its thirteen argument arrays, at the ideal instance
  (every float an extended real, every operation exact).  It is written as a short chain of stages, each
  a function of arrays composed of exactly the operations the reference performs, in its order:

    h1Of    x · sign(W1)ᵀ                                   the first matrix product
    colMean the column sums of an activation array over its 16384 rows, divided by 16384
    varOf / varOf2   the column variance with `ddof` passed as an integer (the two spellings the
            reference contains differ by one conversion that is the identity): the mean of the squared
            deviations over `16384 - ddof` rows, selected against a NaN constant on `16384 - ddof > 0`
    bnSign  sign((h - mean) · rsqrt(var + ε) · g + b), mean / var / g / b spread over the rows
    hpre    s · sign(W)ᵀ for a 1024 × 1024 weight
    noisy   the noisy binarization of hpre with a uniform array u
    outOf   s · sign(W4)ᵀ, the last matrix product
-/
import proofs.«171548_j65360812310623_2_alg».proof.ReferenceIdeal
import Idealize.ShloMosaic.PureOps.Ideal

noncomputable section

namespace Cert.ReferenceIdeal.RefValue

open Cert.ReferenceIdeal Idealize.ShloMosaic
open Facts₀ Facts

variable [Facts]

/-- An activation array: 16384 rows of 1024 columns. -/
abbrev Act : Type := FVec Ideal S16384x1024 .f32
/-- One value per column. -/
abbrev Col : Type := FVec Ideal S1024 .f32
/-- A mask over the activations. -/
abbrev Mask : Type := IVec S16384x1024 1

/-- A per-column vector repeated on every row (through the 1 × 1024 array, as the reference does). -/
def rows (v : Col) : Act :=
  broadcastInDim S16384x1024 ![0, 1] bcast_S1x1024_S16384x1024_0_1
    (broadcastInDim S1x1024 ![1] bcast_S1024_S1x1024_1 v)

/-- A scalar constant at every entry of an activation array. -/
def splat (b : BitVec 32) : Act :=
  broadcastInDim S16384x1024 ![] bcast_S_S16384x1024 (constant (F := Ideal) S_ .f32 b)

/-- A scalar constant at every column. -/
def splatCol (b : BitVec 32) : Col :=
  broadcastInDim S1024 ![] bcast_S_S1024 (constant (F := Ideal) S_ .f32 b)

/-- The first layer's matrix product x · sign(W1)ᵀ. -/
def h1Of (x : FVec Ideal S16384x784 .f32) (W1 : FVec Ideal S1024x784 .f32) : Act :=
  Host.dotGeneral (F := Ideal) dot_S16384x784_S784x1024_S16384x1024_1_0_0_1_n_n none x
    (transpose S784x1024 [1, 0] (Host.sign (F := Ideal) W1) transposes_S1024x784_S784x1024_1_0)

/-- The column sums over the rows (from the zero constant). -/
def colSum (h : Act) : Col :=
  Host.reduceAdd (F := Ideal) h (constant (F := Ideal) S_ .f32 0x00000000#32) reducesTo_S16384x1024_S1024_d0 h_S_

/-- The column means: the column sums divided by 16384. -/
def colMean (h : Act) : Col :=
  Host.divf (F := Ideal) (colSum h) (splatCol 0x46800000#32)

/-- The squared deviations from the column means, the means formed through the 1 × 1024 array. -/
def sqDev (h : Act) : Act :=
  mulf
    (subf h (broadcastInDim S16384x1024 ![0, 1] bcast_S1x1024_S16384x1024_0_1
      (Host.divf (F := Ideal) (broadcastInDim S1x1024 ![1] bcast_S1024_S1x1024_1 (colSum h))
        (broadcastInDim S1x1024 ![] bcast_S_S1x1024 (constant (F := Ideal) S_ .f32 0x46800000#32)))))
    (subf h (broadcastInDim S16384x1024 ![0, 1] bcast_S1x1024_S16384x1024_0_1
      (Host.divf (F := Ideal) (broadcastInDim S1x1024 ![1] bcast_S1024_S1x1024_1 (colSum h))
        (broadcastInDim S1x1024 ![] bcast_S_S1x1024 (constant (F := Ideal) S_ .f32 0x46800000#32)))))

/-- The number of rows less `ddof`, as a scalar: 16384 − float(ddof). -/
def dofOf (ddof : IVec S_ 32) : FVec Ideal S_ .f32 :=
  subf (constant (F := Ideal) S_ .f32 0x46800000#32) (sitofp (F := Ideal) .f32 ddof)

/-- The variance with `ddof` given: the column sums of the squared deviations over `16384 − ddof`, kept where
    `16384 − ddof > 0` and a NaN constant otherwise (the select is left as the reference has it). -/
def varWith (h : Act) (ddof : IVec S_ 32) : Col :=
  select
    (broadcastInDim S1024 ![] bcast_S_S1024 (cmpf .ogt (dofOf ddof) (constant (F := Ideal) S_ .f32 0x00000000#32)))
    (Host.divf (F := Ideal) (colSum (sqDev h)) (broadcastInDim S1024 ![] bcast_S_S1024 (dofOf ddof)))
    (broadcastInDim S1024 ![] bcast_S_S1024 (id (constant (F := Ideal) S_ .f32 0x7FC00000#32)))

/-- The first layer's variance: `ddof` the integer constant 0. -/
def varOf (h : Act) : Col := varWith h (constantI S_ 32 0#32)

/-- The later layers' variance: the same after a conversion that is the identity. -/
def varOf2 (h : Act) : Col := varWith (id h) (constantI S_ 32 0#32)

/-- sign((h − mean) · rsqrt(var + ε) · g + b), the per-column vectors repeated on every row. -/
def bnSign (h : Act) (mean var g b : Col) : Act :=
  Host.sign (F := Ideal)
    (addf
      (mulf
        (mulf (subf h (rows mean)) (rows (Host.rsqrt (F := Ideal) (addf var (splatCol 0x3727C5AC#32)))))
        (rows g))
      (rows b))

/-- s · sign(W)ᵀ for a 1024 × 1024 weight. -/
def hpre (s : Act) (W : FVec Ideal S1024x1024 .f32) : Act :=
  Host.dotGeneral (F := Ideal) dot_S16384x1024_S1024x1024_S16384x1024_1_0_0_1_n_n none s
    (transpose S1024x1024 [1, 0] (Host.sign (F := Ideal) W) transposes_S1024x1024_S1024x1024_1_0)

/-- +1 where the entry is positive, −1 elsewhere. -/
def pm (p : Act) : Act :=
  select (cmpf .ogt p (splat 0x00000000#32)) (splat 0x3F800000#32) (splat 0xBF800000#32)

/-- Where the flip happens: u < ½ · exp(−p² / 50) and |p| ≤ 50. -/
def flip (p u : Act) : Mask :=
  andi
    (cmpf .olt u (mulf (splat 0x3F000000#32)
      (Host.exp (F := Ideal) (Host.divf (F := Ideal) (Host.negf (F := Ideal) (mulf p p)) (splat 0x42480000#32)))))
    (cmpf .ole (Host.absf (F := Ideal) p) (splat 0x42480000#32))

/-- The noisy binarization: the sign ±1 of p, negated where the flip happens. -/
def noisy (p u : Act) : Act :=
  select (flip p u) (Host.negf (F := Ideal) (pm p)) (pm p)

/-- The last matrix product s · sign(W4)ᵀ. -/
def outOf (s : Act) (W4 : FVec Ideal S10x1024 .f32) : FVec Ideal S16384x10 .f32 :=
  Host.dotGeneral (F := Ideal) dot_S16384x1024_S1024x10_S16384x10_1_0_0_1_n_n none s
    (transpose S1024x10 [1, 0] (Host.sign (F := Ideal) W4) transposes_S10x1024_S1024x10_1_0)

/-- The first layer's binarized activations. -/
def act1 (x : FVec Ideal S16384x784 .f32) (W1 : FVec Ideal S1024x784 .f32) (g1 b1 : Col) : Act :=
  bnSign (h1Of x W1) (colMean (h1Of x W1)) (varOf (h1Of x W1)) g1 b1

/-- A middle layer's noisy pre-activations from the previous layer's signs. -/
def nbOf (s : Act) (W : FVec Ideal S1024x1024 .f32) (u : Act) : Act := noisy (hpre s W) u

/-- A later layer's binarized activations from its noisy pre-activations. -/
def actOf (nb : Act) (g b : Col) : Act :=
  bnSign (id nb) (colMean (id nb)) (varOf2 nb) g b

/-- The reference's result as a function of its thirteen arguments. -/
def refOut (x : FVec Ideal S16384x784 .f32) (u2 u3 : FVec Ideal S16384x1024 .f32) (W1 : FVec Ideal S1024x784 .f32)
    (W2 W3 : FVec Ideal S1024x1024 .f32) (W4 : FVec Ideal S10x1024 .f32) (g1 b1 g2 b2 g3 b3 : FVec Ideal S1024 .f32) :
    FVec Ideal S16384x10 .f32 :=
  outOf (actOf (nbOf (actOf (nbOf (act1 x W1 g1 b1) W2 u2) g2 b2) W3 u3) g3 b3) W4

end Cert.ReferenceIdeal.RefValue

end
-- ==== Proof.KPointwise.lean ====
import Idealize.ShloMosaic.PureOps.Ideal
import Idealize.ShloMosaic.Lib.ValueIdx

/-!
The two scalar functions the middle layers apply to one element, over the extended reals.

* `bnv h mu v g b` is the batch normalization of one activation `h` by the column's mean `mu`,
  variance `v`, scale `g` and shift `b`: `(h - mu) * rsqrt (v + eps) * g + b`, in that order of
  operations, `eps` the single-precision word nearest `1e-5`.
* `noisy hp u` is the noisy binarization of one pre-activation `hp` by one uniform draw `u`: the
  sign `sg` of `hp` (`1` above zero, `-1` otherwise) is flipped exactly when
  `u < 0.5 * exp (-(hp * hp) / 50)` and `|hp| ≤ 50`.

Every literal stays the word it is written as; nothing here evaluates one.
-/

noncomputable section

namespace Cert.BNN.K

open Idealize.ShloMosaic

/-- Batch normalization of one element: `(h - mu) * rsqrt (v + eps) * g + b`. -/
def bnv (h mu v g b : EReal) : EReal :=
  (h - mu) * Ideal.rsqrt (v + Ideal.ofBits .f32 0x3727C5AC#32) * g + b

/-- Noisy binarization of one element: the sign of `hp` (as `1` or `-1`), negated when the draw `u`
    is below `0.5 * exp ((0 - hp * hp) / 50)` and `|hp| ≤ 50`. -/
def noisy (hp u : EReal) : EReal :=
  Scalar.select
    (IntOp.andi
      (Ideal.cmp .olt u
        (Ideal.ofBits .f32 0x3F000000#32
          * Ideal.exp (Ideal.div (Ideal.ofBits .f32 0x00000000#32 - hp * hp) (Ideal.ofBits .f32 0x42480000#32))))
      (Ideal.cmp .ole (max hp (-hp)) (Ideal.ofBits .f32 0x42480000#32)))
    (Ideal.ofBits .f32 0x00000000#32
      - Scalar.select (Ideal.cmp .ogt hp (Ideal.ofBits .f32 0x00000000#32))
          (Ideal.ofBits .f32 0x3F800000#32) (Ideal.ofBits .f32 0xBF800000#32))
    (Scalar.select (Ideal.cmp .ogt hp (Ideal.ofBits .f32 0x00000000#32))
      (Ideal.ofBits .f32 0x3F800000#32) (Ideal.ofBits .f32 0xBF800000#32))

end Cert.BNN.K

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.LibVariance.lean ====
/-
  The arithmetic that joins the two programs.

  A column's variance is computed in two ways.  One program takes the mean of the squared deviations,
  (1/N) Σ (h_p − μ)², with μ = (1/N) Σ h_p.  The other takes the mean of the squares minus the squared mean,
  (1/N) Σ h_p² − μ², and, where every entry is +1 or −1, simply 1 − μ².  Over the real numbers the three agree:
  Σ (h_p − μ)² = Σ h_p² − 2 μ Σ h_p + N μ² = Σ h_p² − N μ², and Σ h_p² = N when every h_p² = 1.  Over the
  extended reals the expansion uses the distributive law, which fails at the infinities, so the identities are
  stated for columns whose entries are real numbers.
-/
import Idealize.ShloMosaic.PureOps.Ideal
import proofs.«171548_j65360812310623_2_alg».proof.Proof.LibRealValued

noncomputable section

namespace Cert.BNN.Laws

open Idealize.ShloMosaic Cert.RealValued

/-- The f32 word of `16384.0` denotes the real number 16384. -/
theorem ofBits_16384 : Ideal.ofBits .f32 0x46800000#32 = ((16384 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = ((1 : ℝ) : EReal) := by
  simp [Ideal.ofBits, Ideal.ieee, -EReal.coe_mul]; norm_num

/-- The word of `-1.0` denotes −1. -/
theorem ofBits_neg_one : Ideal.ofBits .f32 0xBF800000#32 = ((-1 : ℝ) : EReal) := by
  simp [Ideal.ofBits, Ideal.ieee, -EReal.coe_mul]; norm_num

/-- Over the reals: the mean of the squares minus the squared mean is the mean of the squared deviations. -/
theorem var_real {ι : Type} [Fintype ι] (f : ι → ℝ) (N : ℝ) (hN : N ≠ 0) (hc : (Fintype.card ι : ℝ) = N) :
    (∑ i, f i * f i) * (1 / N) - (∑ i, f i) * (1 / N) * ((∑ i, f i) * (1 / N))
      = (∑ i, (f i - (∑ i, f i) * (1 / N)) * (f i - (∑ i, f i) * (1 / N))) * (1 / N) := by
  set μ : ℝ := (∑ i, f i) * (1 / N) with hμ
  have hS : ∑ i, f i = N * μ := by rw [hμ]; field_simp
  have h1 : ∑ i, (f i - μ) * (f i - μ) = ∑ i, f i * f i - 2 * μ * ∑ i, f i + N * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hc]
    ring
  rw [h1, hS]; field_simp; ring

/-- Over the reals, for entries that are +1 or −1: one minus the squared mean is the mean of the squared deviations. -/
theorem var_real_pm1 {ι : Type} [Fintype ι] (f : ι → ℝ) (N : ℝ) (hN : N ≠ 0) (hc : (Fintype.card ι : ℝ) = N)
    (hf : ∀ i, f i = 1 ∨ f i = -1) :
    1 - (∑ i, f i) * (1 / N) * ((∑ i, f i) * (1 / N))
      = (∑ i, (f i - (∑ i, f i) * (1 / N)) * (f i - (∑ i, f i) * (1 / N))) * (1 / N) := by
  rw [← var_real f N hN hc]
  have : ∑ i, f i * f i = N := by
    have : ∀ i, f i * f i = 1 := fun i => by rcases hf i with h | h <;> rw [h] <;> norm_num
    simp only [this, Finset.sum_const, Finset.card_univ, nsmul_eq_mul, mul_one, hc]
  rw [this, mul_one_div_cancel hN]

/-- The same over the extended reals, for a column of real entries: the quotient of the sum of squares by `N` minus
    the squared mean is the quotient of the sum of squared deviations by `N`. -/
theorem var_law {ι : Type} [Fintype ι] (h : ι → EReal) (hr : ∀ i, IsReal (h i)) (N : ℝ) (hN : N ≠ 0)
    (hc : (Fintype.card ι : ℝ) = N) :
    Ideal.div (∑ i, h i * h i) (N : EReal) - Ideal.div (∑ i, h i) (N : EReal) * Ideal.div (∑ i, h i) (N : EReal)
      = Ideal.div (∑ i, (h i - Ideal.div (∑ i, h i) (N : EReal)) * (h i - Ideal.div (∑ i, h i) (N : EReal))) (N : EReal) := by
  choose f hf using hr
  obtain rfl : h = fun i => (f i : EReal) := funext hf
  simp only [Ideal.div_coe hN, ← EReal.coe_mul, ← coe_sum, ← EReal.coe_sub]
  exact congrArg _ (var_real f N hN hc)

/-- For a column whose entries are +1 or −1: one minus the squared mean is the quotient of the sum of squared
    deviations by `N`. -/
theorem var_law_pm1 {ι : Type} [Fintype ι] (h : ι → EReal) (hpm : ∀ i, h i = ((1 : ℝ) : EReal) ∨ h i = ((-1 : ℝ) : EReal))
    (N : ℝ) (hN : N ≠ 0) (hc : (Fintype.card ι : ℝ) = N) :
    ((1 : ℝ) : EReal) - Ideal.div (∑ i, h i) (N : EReal) * Ideal.div (∑ i, h i) (N : EReal)
      = Ideal.div (∑ i, (h i - Ideal.div (∑ i, h i) (N : EReal)) * (h i - Ideal.div (∑ i, h i) (N : EReal))) (N : EReal) := by
  have hr : ∀ i, IsReal (h i) := fun i => by rcases hpm i with e | e <;> exact ⟨_, e⟩
  choose f hf using hr
  have hf' : ∀ i, f i = 1 ∨ f i = -1 := fun i => by
    rcases hpm i with e | e
    · left; exact_mod_cast (hf i).symm.trans e
    · right; exact_mod_cast (hf i).symm.trans e
  obtain rfl : h = fun i => (f i : EReal) := funext hf
  simp only [Ideal.div_coe hN, ← EReal.coe_mul, ← coe_sum, ← EReal.coe_sub]
  exact congrArg _ (var_real_pm1 f N hN hc hf')

end Cert.BNN.Laws

end
-- ==== Proof.LibBlocks.lean ====
/-
  A sum over the index type `Fin (G * R)` taken in `G` consecutive blocks of `R` indices each.
-/
import Mathlib.Algebra.BigOperators.Fin
import Mathlib.Logic.Equiv.Fin.Basic

namespace Cert.Lib

open Finset BigOperators

/-- The position `R * t + r` of the `r`-th index of the `t`-th block of length `R` lies below `G * R`. -/
theorem block_index_lt {G R : ℕ} (t : Fin G) (r : Fin R) : R * t.val + r.val < G * R := by
  have ht : t.val + 1 ≤ G := t.isLt
  have hr : r.val < R := r.isLt
  calc R * t.val + r.val < R * t.val + R := Nat.add_lt_add_left hr _
    _ = R * (t.val + 1) := by rw [Nat.mul_succ]
    _ ≤ R * G := Nat.mul_le_mul_left R ht
    _ = G * R := Nat.mul_comm R G

/-- A sum over `Fin (G * R)` is the sum over the `G` blocks of the sums over the `R` consecutive indices
`R * t + 0, …, R * t + (R - 1)` of block `t`. Valid in every additive commutative monoid. -/
theorem sum_univ_blocks {M : Type*} [AddCommMonoid M] (G R : ℕ) (f : Fin (G * R) → M) :
    ∑ i, f i = ∑ t : Fin G, ∑ r : Fin R, f ⟨R * t.val + r.val, block_index_lt t r⟩ := by
  rw [← Fintype.sum_prod_type' (f := fun (t : Fin G) (r : Fin R) => f ⟨R * t.val + r.val, block_index_lt t r⟩)]
  rw [← Equiv.sum_comp (finProdFinEquiv (m := G) (n := R)) f]
  refine Finset.sum_congr rfl ?_
  rintro ⟨t, r⟩ -
  congr 1
  apply Fin.ext
  simp [finProdFinEquiv, Nat.add_comm]

end Cert.Lib
-- ==== Proof.Net.lean ====
/-
  The network both programs compute, as one chain of functions of the thirteen input arrays over the extended reals.

  A layer multiplies its input rows by the signs of a weight matrix, lin X W (p, q) = Σ_k X(p,k) · sign W(q,k).
  Between layers a column q of a [16384, ·] array H is normalized with its mean  μ(q) = (Σ_p H(p,q)) / 16384  and its
  variance  v(q) = (Σ_p (H(p,q) − μ(q))²) / 16384, an affine map with the learned scale and shift is applied, and the
  sign is taken; layers two and three first replace the pre-activation by a randomly flipped sign, which is +1 or −1.

  Two facts carry the comparison of the programs.  The 16384 rows split into 2 × 16 × 512, so a sum over the rows is
  the sum of two per-core totals, each accumulated over sixteen blocks of 512 rows.  And the variance above equals the
  mean of the squares minus the squared mean when the column's entries are real numbers, and equals one minus the
  squared mean when they are all +1 or −1.
-/
import Idealize.ShloMosaic.PureOps.Ideal
import Idealize.ShloMosaic.Lib.ValueIdx
import proofs.«171548_j65360812310623_2_alg».proof.Proof.KPointwise
import proofs.«171548_j65360812310623_2_alg».proof.Proof.LibVariance
import proofs.«171548_j65360812310623_2_alg».proof.Proof.LibBlocks
import proofs.«171548_j65360812310623_2_alg».proof.Proof.LibRealValued

noncomputable section

namespace Cert.BNN.Net

open Idealize.ShloMosaic Idealize.ShloMosaic.ValueIdx Cert.RealValued

abbrev Arr2 (a b : ℕ) := (⟨2, ![a, b]⟩ : Shape).Idx → EReal
abbrev Arr1 (a : ℕ) := (⟨1, ![a]⟩ : Shape).Idx → EReal
abbrev Mat := Fin 16384 → Fin 1024 → EReal

/-- The number of rows, as the f32 word the programs divide by. -/
def D : EReal := Ideal.ofBits .f32 0x46800000#32

theorem D_eq : D = ((16384 : ℝ) : EReal) := Laws.ofBits_16384

/-- A layer: rows against the signs of the weights. -/
def lin {B K N : ℕ} (X : Fin B → Fin K → EReal) (W : Arr2 N K) (p : Fin B) (q : Fin N) : EReal :=
  ∑ k : Fin K, X p k * Ideal.sign (W (ix2 q k))

/-- A column's mean. -/
def mean (H : Mat) (q : Fin 1024) : EReal := Ideal.div (∑ p, H p q) D

/-- A column's variance: the mean of the squared deviations. -/
def var (H : Mat) (q : Fin 1024) : EReal := Ideal.div (∑ p, (H p q - mean H q) * (H p q - mean H q)) D

/-- Normalize, scale, shift, take the sign. -/
def act (H : Mat) (g b : Arr1 1024) (p : Fin 16384) (k : Fin 1024) : EReal :=
  Ideal.sign (K.bnv (H p k) (mean H k) (var H k) (g (ix1 k)) (b (ix1 k)))

/-- The randomly flipped sign of a pre-activation, entry by entry. -/
def flip (HP : Mat) (u : Arr2 16384 1024) (p : Fin 16384) (q : Fin 1024) : EReal := K.noisy (HP p q) (u (ix2 p q))

section chain
variable (x : Arr2 16384 784) (u2 u3 : Arr2 16384 1024) (W1 : Arr2 1024 784) (W2 W3 : Arr2 1024 1024) (W4 : Arr2 10 1024)
  (g1 b1 g2 b2 g3 b3 : Arr1 1024)

def h1 : Mat := lin (fun p j => x (ix2 p j)) W1
def s1 : Mat := act (h1 x W1) g1 b1
def nb2 : Mat := flip (lin (s1 x W1 g1 b1) W2) u2
def s2 : Mat := act (nb2 x u2 W1 W2 g1 b1) g2 b2
def nb3 : Mat := flip (lin (s2 x u2 W1 W2 g1 b1 g2 b2) W3) u3
def s3 : Mat := act (nb3 x u2 u3 W1 W2 W3 g1 b1 g2 b2) g3 b3
/-- The network's output. -/
def out (p : Fin 16384) (o : Fin 10) : EReal := lin (s3 x u2 u3 W1 W2 W3 g1 b1 g2 b2 g3 b3) W4 p o
end chain

/-! ## Rows in two cores of sixteen blocks of 512 -/

/-- A sum over the 16384 rows is the sum over the two cores, the sixteen blocks of a core and the 512 rows of a block. -/
theorem sum_rows (H : Fin 16384 → EReal) :
    (∑ c : Fin 2, ∑ i : Fin 16, ∑ r : Fin 512, H ⟨(c.val * 16 + i.val) * 512 + r.val, by omega⟩) = ∑ p, H p := by
  have h32 : ∀ g : Fin 16384 → EReal, ∑ p, g p = ∑ t : Fin 32, ∑ r : Fin 512, g ⟨512 * t.val + r.val, by omega⟩ :=
    fun g => Cert.Lib.sum_univ_blocks 32 512 g
  have h2 : ∀ g : Fin 32 → EReal, ∑ t, g t = ∑ c : Fin 2, ∑ i : Fin 16, g ⟨16 * c.val + i.val, by omega⟩ :=
    fun g => Cert.Lib.sum_univ_blocks 2 16 g
  rw [h32 H, h2]
  refine Finset.sum_congr rfl fun c _ => Finset.sum_congr rfl fun i _ => Finset.sum_congr rfl fun r _ => ?_
  congr 1
  apply Fin.ext
  show (c.val * 16 + i.val) * 512 + r.val = 512 * (16 * c.val + i.val) + r.val
  omega

/-- The two cores' totals add up to the sum over all rows. -/
theorem two_cores (H : Fin 16384 → EReal) :
    (∑ i : Fin 16, ∑ r : Fin 512, H ⟨(0 * 16 + i.val) * 512 + r.val, by omega⟩)
      + (∑ i : Fin 16, ∑ r : Fin 512, H ⟨(1 * 16 + i.val) * 512 + r.val, by omega⟩) = ∑ p, H p := by
  rw [← sum_rows H, Fin.sum_univ_two]
  rfl

/-! ## Values that are real numbers, and values that are signs -/

theorem isReal_sign (x : EReal) : IsReal (Ideal.sign x) := by
  induction x with
  | bot => exact ⟨-1, by rw [Ideal.sign_bot, EReal.coe_neg, EReal.coe_one]⟩
  | top => exact ⟨1, by rw [Ideal.sign_top, EReal.coe_one]⟩
  | coe r => exact ⟨_, rfl⟩

theorem isReal_lin {B K N : ℕ} (X : Fin B → Fin K → EReal) (W : Arr2 N K) (hX : ∀ p k, IsReal (X p k)) (p : Fin B) (q : Fin N) :
    IsReal (lin X W p q) :=
  isReal_sum _ _ fun k _ => (hX p k).mul (isReal_sign _)

/-- The randomly flipped sign is +1 or −1. -/
theorem noisy_pm1 (hp u : EReal) : K.noisy hp u = ((1 : ℝ) : EReal) ∨ K.noisy hp u = ((-1 : ℝ) : EReal) := by
  unfold K.noisy Scalar.select
  rw [Laws.ofBits_zero, Laws.ofBits_one, Laws.ofBits_neg_one]
  split_ifs <;> simp

/-! ## The variance, the other two ways -/

/-- For a column of real entries: the mean of the squares minus the squared mean. -/
theorem var_of_real (H : Mat) (q : Fin 1024) (hr : ∀ p, IsReal (H p q)) :
    Ideal.div (∑ p, H p q * H p q) D - mean H q * mean H q = var H q := by
  unfold var mean
  rw [D_eq]
  exact Laws.var_law (fun p => H p q) hr 16384 (by norm_num) (by simp)

/-- For a column of entries +1 or −1: one minus the squared mean. -/
theorem var_of_pm1 (H : Mat) (q : Fin 1024) (hpm : ∀ p, H p q = ((1 : ℝ) : EReal) ∨ H p q = ((-1 : ℝ) : EReal)) :
    Ideal.ofBits .f32 0x3F800000#32 - mean H q * mean H q = var H q := by
  unfold var mean
  rw [D_eq, Laws.ofBits_one]
  exact Laws.var_law_pm1 (fun p => H p q) hpm 16384 (by norm_num) (by simp)

end Cert.BNN.Net

end
-- ==== Proof.RefRead.lean ====
/-
  The reference network read one entry at a time.

  The reference's result is a composition of whole-array operations: matrix products with sign-binarized weights,
  column means and variances over the 16384 rows, a batch normalization followed by a sign, and a noisy binarization.
  Here every stage is read at an index (p, q): a matrix product is a finite sum of products, a column mean is a finite
  sum divided by the row count, a per-column vector spread over the rows reads the column's entry, and the pointwise
  stages are scalar functions of the entries.  Stage by stage the reads are the network's chain of tables
  (h1, s1, nb2, s2, nb3, s3), and the last theorem reads the reference's result at (p, o) as the network's output.

  Three things are resolved on the way.  The zero initial value of a column sum is dropped (0 + s = s).  The
  variance's divisor, printed as 16384 minus the integer 0 converted to a float, is 16384 (x - 0 = x), which is
  above zero, so the guarded quotient is the quotient and the guard's other branch is never read.  And a negation,
  which the reference writes as such, is the difference from zero (0 - x = -x).
-/
import proofs.«171548_j65360812310623_2_alg».proof.Proof.RefTerm
import proofs.«171548_j65360812310623_2_alg».proof.Proof.Net
import Idealize.ShloMosaic.Lib.ValueIdx
import Idealize.ShloMosaic.Lib.ValueLayout
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

namespace Cert.BNN.Ref

open Idealize.ShloMosaic Idealize.ShloMosaic.ValueIdx Cert.ReferenceIdeal Cert.BNN
open Facts₀ Facts
open scoped BigOperators

variable [Facts]

/-! ## Layout and reduction at an index -/

/-- The host's sum of a [16384,1024] array over its rows, at column q: the initial value plus the column's sum. -/
theorem reduce_rows_apply (h : FVec Ideal S16384x1024 .f32) (init : S_.Idx → Ideal .f32)
    (hR : S16384x1024.ReducesTo [0] S1024) (hS : 0 < S_.numel) (q : Fin 1024) :
    Host.reduceAdd h init hR hS (ix1 q) = init (Shape.Idx.first hS) + ∑ p : Fin 16384, h (ix2 p q) := by
  have hR' : S16384x1024.Reduces [0] S1024 := by decide
  rw [hostReduceAdd_apply, Ideal.hostReduceAdd_single hR hR']
  refine congrArg (init (Shape.Idx.first hS) + ·) (Finset.sum_congr rfl fun p _ => congrArg h ?_)
  funext a; match a with | ⟨0, _⟩ => rfl | ⟨1, _⟩ => rfl

/-- A vector laid as the one row of a [1,1024] array. -/
theorem bcast_row_apply {α : Type} (hb : S1024.BroadcastsInDim S1x1024 (![1] : Fin 1 → Fin S1x1024.rank))
    (v : S1024.Idx → α) (r : Fin 1) (q : Fin 1024) :
    broadcastInDim S1x1024 ![1] hb v (ix2 r q) = v (ix1 q) := by
  refine broadcastInDim_apply ![1] hb v (ix2 r q) (ix1 q) ?_
  intro a
  match a with
  | ⟨0, _⟩ => show q.val = if (1024 : ℕ) = 1 then 0 else q.val; simp

/-- A one-row array repeated on all 16384 rows. -/
theorem bcast_rows_apply {α : Type} (hb : S1x1024.BroadcastsInDim S16384x1024 (![0, 1] : Fin 2 → Fin S16384x1024.rank))
    (y : S1x1024.Idx → α) (p : Fin 16384) (q : Fin 1024) :
    broadcastInDim S16384x1024 ![0, 1] hb y (ix2 p q) = y (ix2 (0 : Fin 1) q) :=
  broadcastInDim_oneRow_apply hb y p q

/-- A per-column vector repeated on every row reads the column's entry. -/
theorem rows_apply (v : RefValue.Col) (p : Fin 16384) (q : Fin 1024) : RefValue.rows v (ix2 p q) = v (ix1 q) := by
  unfold RefValue.rows
  rw [bcast_rows_apply, bcast_row_apply]

/-- A constant spread over an activation array reads the constant. -/
theorem splat_apply (w : BitVec 32) (i : S16384x1024.Idx) : RefValue.splat w i = Ideal.ofBits .f32 w := rfl

/-- A constant spread over the columns reads the constant. -/
theorem splatCol_apply (w : BitVec 32) (i : S1024.Idx) : RefValue.splatCol w i = Ideal.ofBits .f32 w := rfl

/-! ## The stages at an index -/

/-- A column sum: the zero initial value is dropped. -/
theorem colSum_apply (h : RefValue.Act) (q : Fin 1024) :
    (RefValue.colSum h (ix1 q) : EReal) = ∑ p : Fin 16384, (h (ix2 p q) : EReal) := by
  unfold RefValue.colSum
  rw [reduce_rows_apply]
  show Ideal.ofBits .f32 0x00000000#32 + (∑ p : Fin 16384, (h (ix2 p q) : EReal)) = _
  rw [Ideal.ofBits_zero_f32, zero_add]

/-- The column mean of an array whose entries are the table H. -/
theorem colMean_read (h : RefValue.Act) (H : Net.Mat) (hH : ∀ p q, h (ix2 p q) = H p q) (q : Fin 1024) :
    RefValue.colMean h (ix1 q) = Net.mean H q := by
  unfold RefValue.colMean Net.mean Net.D
  rw [hostDivf_apply, colSum_apply, splatCol_apply]
  have e : (∑ p : Fin 16384, (h (ix2 p q) : EReal)) = ∑ p : Fin 16384, H p q := Finset.sum_congr rfl fun p _ => hH p q
  rw [e]

/-- The squared deviation from the column mean, the mean formed through the one-row array. -/
theorem sqDev_read (h : RefValue.Act) (H : Net.Mat) (hH : ∀ p q, h (ix2 p q) = H p q) (p : Fin 16384) (q : Fin 1024) :
    RefValue.sqDev h (ix2 p q) = (H p q - Net.mean H q) * (H p q - Net.mean H q) := by
  unfold RefValue.sqDev
  rw [mulf_apply, subf_apply, bcast_rows_apply, hostDivf_apply, bcast_row_apply, colSum_apply, hH p q]
  have e : (∑ p : Fin 16384, (h (ix2 p q) : EReal)) = ∑ p : Fin 16384, H p q := Finset.sum_congr rfl fun p _ => hH p q
  rw [e]
  rfl

/-- The integer 0 converted to a float is 0. -/
theorem sitofp_zero_word : ((((0#32 : BitVec 32).toInt : ℝ)) : EReal) = 0 := by simp

/-- The variance's divisor with ddof the integer 0: the row count itself. -/
theorem dofOf_zero (i : S_.Idx) : RefValue.dofOf (constantI S_ 32 0#32) i = Net.D := by
  show Ideal.ofBits .f32 0x46800000#32 - ((((0#32 : BitVec 32).toInt : ℝ)) : EReal) = Net.D
  rw [sitofp_zero_word, sub_zero]
  rfl

/-- "Greater than" on a pair in that order is the bit 1. -/
theorem cmp_ogt_of_lt {a b : EReal} (h : b < a) : Ideal.cmp .ogt a b = 1#1 := by
  unfold Ideal.cmp
  simp [h]

/-- The row count is above zero. -/
theorem D_pos : (0 : EReal) < Net.D := by
  rw [Net.D_eq]
  exact_mod_cast (by norm_num : (0 : ℝ) < 16384)

/-- The guard of the variance's quotient holds. -/
theorem cmp_D_pos : Ideal.cmp .ogt Net.D (Ideal.ofBits .f32 0x00000000#32) = 1#1 := by
  rw [Ideal.ofBits_zero_f32]
  exact cmp_ogt_of_lt D_pos

/-- The column variance of an array whose entries are the table H: the guard holds, the quotient is read. -/
theorem varWith_read (h : RefValue.Act) (H : Net.Mat) (hH : ∀ p q, h (ix2 p q) = H p q) (q : Fin 1024) :
    RefValue.varWith h (constantI S_ 32 0#32) (ix1 q) = Net.var H q := by
  unfold RefValue.varWith
  rw [select_apply, broadcastInDim_scalar_apply, cmpf_apply, dofOf_zero, hostDivf_apply, broadcastInDim_scalar_apply,
    dofOf_zero, colSum_apply]
  have hc : FloatOps.cmpf .ogt Net.D (constant (F := Ideal) S_ .f32 0x00000000#32 ix0) = 1#1 := cmp_D_pos
  rw [hc, select_one]
  unfold Net.var
  have e : (∑ p : Fin 16384, (RefValue.sqDev h (ix2 p q) : EReal))
      = ∑ p : Fin 16384, (H p q - Net.mean H q) * (H p q - Net.mean H q) :=
    Finset.sum_congr rfl fun p _ => sqDev_read h H hH p q
  rw [e]

/-- The batch normalization and sign of an array, at an entry. -/
theorem bnSign_read (h : RefValue.Act) (mean var g b : RefValue.Col) (p : Fin 16384) (k : Fin 1024) :
    RefValue.bnSign h mean var g b (ix2 p k)
      = Ideal.sign (K.bnv (h (ix2 p k)) (mean (ix1 k)) (var (ix1 k)) (g (ix1 k)) (b (ix1 k))) := by
  unfold RefValue.bnSign K.bnv
  show Ideal.sign (((h (ix2 p k) - RefValue.rows mean (ix2 p k))
        * RefValue.rows (Host.rsqrt (F := Ideal) (addf var (RefValue.splatCol 0x3727C5AC#32))) (ix2 p k))
      * RefValue.rows g (ix2 p k) + RefValue.rows b (ix2 p k)) = _
  rw [rows_apply, rows_apply, rows_apply, rows_apply]
  rfl

/-- Normalize with the array's own column statistics, scale, shift, take the sign: the network's layer function. -/
theorem bnStage_read (h : RefValue.Act) (H : Net.Mat) (hH : ∀ p q, h (ix2 p q) = H p q) (g b : RefValue.Col)
    (p : Fin 16384) (k : Fin 1024) :
    RefValue.bnSign h (RefValue.colMean h) (RefValue.varWith h (constantI S_ 32 0#32)) g b (ix2 p k)
      = Net.act H g b p k := by
  unfold Net.act
  rw [bnSign_read, colMean_read h H hH, varWith_read h H hH, hH p k]

/-- The first matrix product at an entry. -/
theorem h1Of_read (x : FVec Ideal S16384x784 .f32) (W1 : FVec Ideal S1024x784 .f32) (p : Fin 16384) (q : Fin 1024) :
    RefValue.h1Of x W1 (ix2 p q) = Net.h1 x W1 p q := by
  unfold RefValue.h1Of Net.h1 Net.lin
  refine (StackMember.dotGeneral_plain_apply (m := 16384) (k := 784) (n := 1024) none x _ p q).trans ?_
  refine Finset.sum_congr rfl fun j _ => congrArg (x (ix2 p j) * ·) ?_
  exact transpose_ix2_apply (Host.sign (F := Ideal) W1) _ j q

/-- A middle matrix product at an entry, for an array whose entries are the table S. -/
theorem hpre_read (s : RefValue.Act) (S : Net.Mat) (hS : ∀ p k, s (ix2 p k) = S p k) (W : FVec Ideal S1024x1024 .f32)
    (p : Fin 16384) (q : Fin 1024) :
    RefValue.hpre s W (ix2 p q) = Net.lin S W p q := by
  unfold RefValue.hpre Net.lin
  refine (StackMember.dotGeneral_plain_apply (m := 16384) (k := 1024) (n := 1024) none s _ p q).trans ?_
  refine Finset.sum_congr rfl fun k _ => ?_
  rw [hS p k, transpose_ix2_apply (Host.sign (F := Ideal) W) _ k q]
  rfl

/-- The last matrix product at an entry. -/
theorem outOf_read (s : RefValue.Act) (S : Net.Mat) (hS : ∀ p k, s (ix2 p k) = S p k) (W4 : FVec Ideal S10x1024 .f32)
    (p : Fin 16384) (o : Fin 10) :
    RefValue.outOf s W4 (ix2 p o) = Net.lin S W4 p o := by
  unfold RefValue.outOf Net.lin
  refine (StackMember.dotGeneral_plain_apply (m := 16384) (k := 1024) (n := 10) none s _ p o).trans ?_
  refine Finset.sum_congr rfl fun k _ => ?_
  rw [hS p k, transpose_ix2_apply (Host.sign (F := Ideal) W4) _ k o]
  rfl

/-- The noisy binarization at an entry: the reference's negations are differences from zero. -/
theorem noisy_read (hp u : RefValue.Act) (i : S16384x1024.Idx) : RefValue.noisy hp u i = K.noisy (hp i) (u i) := by
  unfold RefValue.noisy RefValue.flip RefValue.pm K.noisy
  show Scalar.select
      (IntOp.andi
        (Ideal.cmp .olt (u i)
          (Ideal.ofBits .f32 0x3F000000#32 * Ideal.exp (Ideal.div (-(hp i * hp i)) (Ideal.ofBits .f32 0x42480000#32))))
        (Ideal.cmp .ole (max (hp i) (-(hp i))) (Ideal.ofBits .f32 0x42480000#32)))
      (-(Scalar.select (Ideal.cmp .ogt (hp i) (Ideal.ofBits .f32 0x00000000#32)) (Ideal.ofBits .f32 0x3F800000#32)
          (Ideal.ofBits .f32 0xBF800000#32)))
      (Scalar.select (Ideal.cmp .ogt (hp i) (Ideal.ofBits .f32 0x00000000#32)) (Ideal.ofBits .f32 0x3F800000#32)
        (Ideal.ofBits .f32 0xBF800000#32)) = _
  rw [Ideal.ofBits_zero_f32, zero_sub, zero_sub]

/-- A middle layer's noisy pre-activations at an entry. -/
theorem nbOf_read (s : RefValue.Act) (S : Net.Mat) (hS : ∀ p k, s (ix2 p k) = S p k) (W : FVec Ideal S1024x1024 .f32)
    (u : RefValue.Act) (p : Fin 16384) (q : Fin 1024) :
    RefValue.nbOf s W u (ix2 p q) = Net.flip (Net.lin S W) u p q := by
  unfold RefValue.nbOf Net.flip
  rw [noisy_read, hpre_read s S hS W p q]

/-- A later layer's binarized activations at an entry. -/
theorem actOf_read (nb : RefValue.Act) (NB : Net.Mat) (hNB : ∀ p q, nb (ix2 p q) = NB p q) (g b : RefValue.Col)
    (p : Fin 16384) (k : Fin 1024) :
    RefValue.actOf nb g b (ix2 p k) = Net.act NB g b p k :=
  bnStage_read nb NB hNB g b p k

/-- The first layer's binarized activations at an entry. -/
theorem act1_read (x : FVec Ideal S16384x784 .f32) (W1 : FVec Ideal S1024x784 .f32) (g1 b1 : RefValue.Col)
    (p : Fin 16384) (k : Fin 1024) :
    RefValue.act1 x W1 g1 b1 (ix2 p k) = Net.s1 x W1 g1 b1 p k :=
  bnStage_read (RefValue.h1Of x W1) (Net.h1 x W1) (h1Of_read x W1) g1 b1 p k

/-! ## The reference's result at an entry -/

/-- The reference's result at (p, o) is the network's output there. -/
theorem refOut_apply (x : FVec Ideal S16384x784 .f32) (u2 u3 : FVec Ideal S16384x1024 .f32)
    (W1 : FVec Ideal S1024x784 .f32) (W2 W3 : FVec Ideal S1024x1024 .f32) (W4 : FVec Ideal S10x1024 .f32)
    (g1 b1 g2 b2 g3 b3 : FVec Ideal S1024 .f32) (p : Fin 16384) (o : Fin 10) :
    RefValue.refOut x u2 u3 W1 W2 W3 W4 g1 b1 g2 b2 g3 b3 (ix2 p o)
      = Net.out x u2 u3 W1 W2 W3 W4 g1 b1 g2 b2 g3 b3 p o := by
  have e1 : ∀ p k, RefValue.act1 x W1 g1 b1 (ix2 p k) = Net.s1 x W1 g1 b1 p k := act1_read x W1 g1 b1
  have e2 : ∀ p q, RefValue.nbOf (RefValue.act1 x W1 g1 b1) W2 u2 (ix2 p q) = Net.nb2 x u2 W1 W2 g1 b1 p q :=
    nbOf_read _ _ e1 W2 u2
  have e3 : ∀ p k, RefValue.actOf (RefValue.nbOf (RefValue.act1 x W1 g1 b1) W2 u2) g2 b2 (ix2 p k)
      = Net.s2 x u2 W1 W2 g1 b1 g2 b2 p k := actOf_read _ _ e2 g2 b2
  have e4 : ∀ p q, RefValue.nbOf (RefValue.actOf (RefValue.nbOf (RefValue.act1 x W1 g1 b1) W2 u2) g2 b2) W3 u3 (ix2 p q)
      = Net.nb3 x u2 u3 W1 W2 W3 g1 b1 g2 b2 p q := nbOf_read _ _ e3 W3 u3
  have e5 : ∀ p k, RefValue.actOf
        (RefValue.nbOf (RefValue.actOf (RefValue.nbOf (RefValue.act1 x W1 g1 b1) W2 u2) g2 b2) W3 u3) g3 b3 (ix2 p k)
      = Net.s3 x u2 u3 W1 W2 W3 g1 b1 g2 b2 g3 b3 p k := actOf_read _ _ e4 g3 b3
  exact outOf_read _ _ e5 W4 p o

end Cert.BNN.Ref

end
-- ==== Proof.Finite.lean ====
/-
  From the precondition to real entries.

  The precondition is a conjunction of thirteen statements "every entry of this input has absolute value below +inf".
  An extended real whose absolute value max x (−x) lies strictly below the top element is neither infinity, so it is
  a real number.  Only the first input, the data matrix, is needed: the first layer's pre-activations are finite
  sums of its entries with signs, and everything after the first layer takes values in {−1, 0, +1}.
-/
import proofs.«171548_j65360812310623_2_alg».proof.Pre_finite_inputs
import Idealize.ShloMosaic.PureOps.Ideal
import Idealize.ShloMosaic.Lib.ReduceAll
import Idealize.ShloMosaic.Lib.ValueIdx

noncomputable section

namespace Cert.BNN.Finite

open Idealize.ShloMosaic Cert.Pre_finite_inputs

instance : Subsingleton S_.Idx := ⟨fun a b => funext fun d => d.elim0⟩

/-- An extended real whose absolute value is strictly below the infinity word's value is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The left conjunct of a lane-wise conjunction that holds. -/
theorem andi_left {a b : IVec S_ 1} {j : S_.Idx} (h : andi a b j = 1#1) : a j = 1#1 :=
  (IntOp.andi_eq_one.1 h).1

variable [Facts]

/-- Under the precondition every entry of the first input is a real number. -/
theorem x_real (a0 : FVec Ideal S16384x784 .f32) (a1 a2 : FVec Ideal S16384x1024 .f32) (a3 : FVec Ideal S1024x784 .f32)
    (a4 a5 : FVec Ideal S1024x1024 .f32) (a6 : FVec Ideal S10x1024 .f32) (a7 a8 a9 a10 a11 a12 : FVec Ideal S1024 .f32)
    (h : fn (F := Ideal) a0 a1 a2 a3 a4 a5 a6 a7 a8 a9 a10 a11 a12 = fun _ => 1#1) (i : S16384x784.Idx) :
    ∃ r : ℝ, a0 i = (r : EReal) := by
  have h0 := congrFun h ValueIdx.ix0
  dsimp only [fn, fn_part1, fn_part2, fn_part3] at h0
  have h1 := andi_left (andi_left (andi_left (andi_left (andi_left (andi_left (andi_left (andi_left (andi_left
    (andi_left (andi_left (andi_left h0)))))))))))
  have h2 := Host.reduce_andi_all _ _ _ _ _ h1 i
  exact real_of_abs_lt (a0 i) h2

end Cert.BNN.Finite

end
-- ==== Proof.RefOps.lean ====
import proofs.«171548_j65360812310623_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable [Facts] {F : FTy → Type} [FloatOps F]

/-- The first matrix product: the sign of the weight, its transpose, the product. -/
def c1 : List (HloOp τ sig (Elt F)) :=
  [ unary main_arg3 main_v0 (Host.sign : (⟨S1024x784, .f32⟩ : BufTy).Contents (Elt F) → (⟨S1024x784, .f32⟩ : BufTy).Contents (Elt F)),
    unary main_v0 main_v1 ((transpose S784x1024 [1, 0] · transposes_S1024x784_S784x1024_1_0) : (⟨S1024x784, .f32⟩ : BufTy).Contents (Elt F) → (⟨S784x1024, .f32⟩ : BufTy).Contents (Elt F)),
    binary main_arg0 main_v1 main_v2 ((fun l r => Host.dotGeneral dot_S16384x784_S784x1024_S16384x1024_1_0_0_1_n_n none l r) : (⟨S16384x784, .f32⟩ : BufTy).Contents (Elt F) → (⟨S784x1024, .f32⟩ : BufTy).Contents (Elt F) → (⟨S16384x1024, .f32⟩ : BufTy).Contents (Elt F)) ]
/-- The buffers the operations of `c1` write, in order. -/
def c1_W : List (Ref sig .tc) :=
  [main_v0, main_v1, main_v2]

/-- The first layer's column means, and the integer constant passed to the variance. -/
def c2 : List (HloOp τ sig (Elt F)) :=
  [ nullary main_cst (constant S_ .f32 0x00000000#32),
    binary main_v2 main_cst main_v3 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_0 (constant S_ .f32 0x46800000#32),
    unary main_cst_0 main_v4 (broadcastInDim S1024 ![] bcast_S_S1024 : (⟨S_, .f32⟩ : BufTy).Contents (Elt F) → (⟨S1024, .f32⟩ : BufTy).Contents (Elt F)),
    binary main_v3 main_v4 main_v5 (Host.divf : (⟨S1024, .f32⟩ : BufTy).Contents (Elt F) → (⟨S1024, .f32⟩ : BufTy).Contents (Elt F) → (⟨S1024, .f32⟩ : BufTy).Contents (Elt F)),
    nullary main_c (constantI S_ 32 0#32) ]
/-- The buffers the operations of `c2` write, in order. -/
def c2_W : List (Ref sig .tc) :=
  [main_cst, main_v3, main_cst_0, main_v4, main_v5, main_c]

/-- The first layer's column variance (the called function's operations, the select's among them). -/
def c3 : List (HloOp τ sig (Elt F)) :=
  [ TRef.nullary main_call0.cst (constant S_ .f32 0x00000000#32),
    TRef.binary (.of main_v2 : TRef sig ⟨S16384x1024, .f32⟩) main_call0.cst main_call0.v0 (fun x v => Host.reduceAdd x v reducesTo_S16384x1024_S1024_d0 h_S_),
    TRef.unary main_call0.v0 main_call0.v1 (broadcastInDim S1x1024 ![1] bcast_S1024_S1x1024_1),
    TRef.nullary main_call0.cst_0 (constant S_ .f32 0x46800000#32),
    TRef.unary main_call0.cst_0 main_call0.v2 (broadcastInDim S1x1024 ![] bcast_S_S1x1024),
    TRef.binary main_call0.v1 main_call0.v2 main_call0.v3 Host.divf,
    TRef.unary main_call0.v3 main_call0.v4 (broadcastInDim S16384x1024 ![0, 1] bcast_S1x1024_S16384x1024_0_1),
    TRef.binary (.of main_v2 : TRef sig ⟨S16384x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x1024_S1024_d0 h_S_),
    TRef.unary main_call0.v8 main_call0.v10 (broadcastInDim S1024 ![] bcast_S_S1024),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S1024 ![] bcast_S_S1024),
    TRef.ternary main_call0.v12 main_call0.v11 main_call0.call0.v1 main_call0.call0.v2 (fun p a b => select (broadcastInDim S1024 ![] bcast_S_S1024 p) a b) ]
/-- The buffers the operations of `c3` write, in order. -/
def c3_W : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v6]

/-- The first layer's normalization and sign. -/
def c4 : List (HloOp τ sig (Elt F)) :=
  [ unary main_v5 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S16384x1024 ![0, 1] bcast_S1x1024_S16384x1024_0_1 : (⟨S1x1024, .f32⟩ : BufTy).Contents (Elt F) → (⟨S16384x1024, .f32⟩ : BufTy).Contents (Elt F)),
    binary main_v2 main_v8 main_v9 (subf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x3727C5AC#32),
    unary main_cst_1 main_v10 (broadcastInDim S1024 ![] bcast_S_S1024 : (⟨S_, .f32⟩ : BufTy).Contents (Elt F) → (⟨S1024, .f32⟩ : BufTy).Contents (Elt F)),
    binary main_v6 main_v10 main_v11 (addf : (⟨S1024, .f32⟩ : BufTy).Contents (Elt F) → (⟨S1024, .f32⟩ : BufTy).Contents (Elt F) → (⟨S1024, .f32⟩ : BufTy).Contents (Elt F)),
    unary main_v11 main_v12 (Host.rsqrt : (⟨S1024, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S16384x1024 ![0, 1] bcast_S1x1024_S16384x1024_0_1 : (⟨S1x1024, .f32⟩ : BufTy).Contents (Elt F) → (⟨S16384x1024, .f32⟩ : BufTy).Contents (Elt F)),
    binary main_v9 main_v14 main_v15 (mulf : (⟨S16384x1024, .f32⟩ : BufTy).Contents (Elt F) → (⟨S16384x1024, .f32⟩ : BufTy).Contents (Elt F) → (⟨S16384x1024, .f32⟩ : BufTy).Contents (Elt F)),
    unary main_arg7 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S16384x1024 ![0, 1] bcast_S1x1024_S16384x1024_0_1 : (⟨S1x1024, .f32⟩ : BufTy).Contents (Elt F) → (⟨S16384x1024, .f32⟩ : BufTy).Contents (Elt F)),
    binary main_v15 main_v17 main_v18 (mulf : (⟨S16384x1024, .f32⟩ : BufTy).Contents (Elt F) → (⟨S16384x1024, .f32⟩ : BufTy).Contents (Elt F) → (⟨S16384x1024, .f32⟩ : BufTy).Contents (Elt F)),
    unary main_arg8 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S16384x1024 ![0, 1] bcast_S1x1024_S16384x1024_0_1 : (⟨S1x1024, .f32⟩ : BufTy).Contents (Elt F) → (⟨S16384x1024, .f32⟩ : BufTy).Contents (Elt F)),
    binary main_v18 main_v20 main_v21 (addf : (⟨S16384x1024, .f32⟩ : BufTy).Contents (Elt F) → (⟨S16384x1024, .f32⟩ : BufTy).Contents (Elt F) → (⟨S16384x1024, .f32⟩ : BufTy).Contents (Elt F)),
    unary main_v21 main_v22 (Host.sign : (⟨S16384x1024, .f32⟩ : BufTy).Contents (Elt F) → (⟨S16384x1024, .f32⟩ : BufTy).Contents (Elt F)) ]
/-- The buffers the operations of `c4` write, in order. -/
def c4_W : List (Ref sig .tc) :=
  [main_v7, main_v8, main_v9, main_cst_1, main_v10, main_v11, main_v12, main_v13, main_v14, main_v15, main_v16, main_v17, main_v18, main_v19, main_v20, main_v21, main_v22]

/-- The second layer's matrix product. -/
def c5 : List (HloOp τ sig (Elt F)) :=
  [ unary main_arg4 main_v23 (Host.sign : (⟨S1024x1024, .f32⟩ : BufTy).Contents (Elt F) → (⟨S1024x1024, .f32⟩ : BufTy).Contents (Elt F)),
    unary main_v23 main_v24 ((transpose S1024x1024 [1, 0] · transposes_S1024x1024_S1024x1024_1_0) : (⟨S1024x1024, .f32⟩ : BufTy).Contents (Elt F) → (⟨S1024x1024, .f32⟩ : BufTy).Contents (Elt F)),
    binary main_v22 main_v24 main_v25 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)) ]
/-- The buffers the operations of `c5` write, in order. -/
def c5_W : List (Ref sig .tc) :=
  [main_v23, main_v24, main_v25]

/-- The second layer's noisy binarization. -/
def c6 : List (HloOp τ sig (Elt F)) :=
  [ nullary main_cst_2 (constant S_ .f32 0x00000000#32),
    unary main_cst_2 main_v26 (broadcastInDim S16384x1024 ![] bcast_S_S16384x1024 : (⟨S_, .f32⟩ : BufTy).Contents (Elt F) → (⟨S16384x1024, .f32⟩ : BufTy).Contents (Elt F)),
    binary main_v25 main_v26 main_v27 (cmpf .ogt : (⟨S16384x1024, .f32⟩ : BufTy).Contents (Elt F) → (⟨S16384x1024, .f32⟩ : BufTy).Contents (Elt F) → (⟨S16384x1024, .i1⟩ : BufTy).Contents (Elt F)),
    nullary main_cst_3 (constant S_ .f32 0x3F800000#32),
    nullary main_cst_4 (constant S_ .f32 0xBF800000#32),
    TRef.unary (.of main_cst_3 : TRef sig ⟨S_, .f32⟩) main_call1.v0 (broadcastInDim S16384x1024 ![] bcast_S_S16384x1024),
    TRef.unary (.of main_cst_4 : TRef sig ⟨S_, .f32⟩) main_call1.v1 (broadcastInDim S16384x1024 ![] bcast_S_S16384x1024),
    TRef.ternary (.of main_v27 : TRef sig ⟨S16384x1024, .i1⟩) main_call1.v0 main_call1.v1 main_call1.v2 select,
    binary main_v25 main_v25 main_v29 (mulf : (⟨S16384x1024, .f32⟩ : BufTy).Contents (Elt F) → (⟨S16384x1024, .f32⟩ : BufTy).Contents (Elt F) → (⟨S16384x1024, .f32⟩ : BufTy).Contents (Elt F)),
    unary main_v29 main_v30 (Host.negf : (⟨S16384x1024, .f32⟩ : BufTy).Contents (Elt F) → (⟨S16384x1024, .f32⟩ : BufTy).Contents (Elt F)),
    nullary main_cst_5 (constant S_ .f32 0x42480000#32),
    unary main_cst_5 main_v31 (broadcastInDim S16384x1024 ![] bcast_S_S16384x1024 : (⟨S_, .f32⟩ : BufTy).Contents (Elt F) → (⟨S16384x1024, .f32⟩ : BufTy).Contents (Elt F)),
    binary main_v30 main_v31 main_v32 (Host.divf : (⟨S16384x1024, .f32⟩ : BufTy).Contents (Elt F) → (⟨S16384x1024, .f32⟩ : BufTy).Contents (Elt F) → (⟨S16384x1024, .f32⟩ : BufTy).Contents (Elt F)),
    unary main_v32 main_v33 (Host.exp : (⟨S16384x1024, .f32⟩ : BufTy).Contents (Elt F) → (⟨S16384x1024, .f32⟩ : BufTy).Contents (Elt F)),
    nullary main_cst_6 (constant S_ .f32 0x3F000000#32),
    unary main_cst_6 main_v34 (broadcastInDim S16384x1024 ![] bcast_S_S16384x1024 : (⟨S_, .f32⟩ : BufTy).Contents (Elt F) → (⟨S16384x1024, .f32⟩ : BufTy).Contents (Elt F)),
    binary main_v34 main_v33 main_v35 (mulf : (⟨S16384x1024, .f32⟩ : BufTy).Contents (Elt F) → (⟨S16384x1024, .f32⟩ : BufTy).Contents (Elt F) → (⟨S16384x1024, .f32⟩ : BufTy).Contents (Elt F)),
    binary main_arg1 main_v35 main_v36 (cmpf .olt : (⟨S16384x1024, .f32⟩ : BufTy).Contents (Elt F) → (⟨S16384x1024, .f32⟩ : BufTy).Contents (Elt F) → (⟨S16384x1024, .i1⟩ : BufTy).Contents (Elt F)),
    unary main_v25 main_v37 (Host.absf : (⟨S16384x1024, .f32⟩ : BufTy).Contents (Elt F) → (⟨S16384x1024, .f32⟩ : BufTy).Contents (Elt F)),
    nullary main_cst_7 (constant S_ .f32 0x42480000#32),
    unary main_cst_7 main_v38 (broadcastInDim S16384x1024 ![] bcast_S_S16384x1024 : (⟨S_, .f32⟩ : BufTy).Contents (Elt F) → (⟨S16384x1024, .f32⟩ : BufTy).Contents (Elt F)),
    binary main_v37 main_v38 main_v39 (cmpf .ole : (⟨S16384x1024, .f32⟩ : BufTy).Contents (Elt F) → (⟨S16384x1024, .f32⟩ : BufTy).Contents (Elt F) → (⟨S16384x1024, .i1⟩ : BufTy).Contents (Elt F)),
    binary main_v36 main_v39 main_v40 (andi : (⟨S16384x1024, .i1⟩ : BufTy).Contents (Elt F) → (⟨S16384x1024, .i1⟩ : BufTy).Contents (Elt F) → (⟨S16384x1024, .i1⟩ : BufTy).Contents (Elt F)),
    unary main_v28 main_v41 (Host.negf : (⟨S16384x1024, .f32⟩ : BufTy).Contents (Elt F) → (⟨S16384x1024, .f32⟩ : BufTy).Contents (Elt F)),
    TRef.ternary (.of main_v40 : TRef sig ⟨S16384x1024, .i1⟩) (.of main_v41 : TRef sig ⟨S16384x1024, .f32⟩) (.of main_v28 : TRef sig ⟨S16384x1024, .f32⟩) main_call2.v0 select ]
/-- The buffers the operations of `c6` write, in order. -/
def c6_W : List (Ref sig .tc) :=
  [main_cst_2, main_v26, main_v27, main_cst_3, main_cst_4, main_call1_v0, main_call1_v1, main_v28, main_v29, main_v30, main_cst_5, main_v31, main_v32, main_v33, main_cst_6, main_v34, main_v35, main_v36, main_v37, main_cst_7, main_v38, main_v39, main_v40, main_v41, main_v42]

/-- The second layer's column means, and the integer constant passed to the variance. -/
def c7 : List (HloOp τ sig (Elt F)) :=
  [ unary main_v42 main_v43 (id : (⟨S16384x1024, .f32⟩ : BufTy).Contents (Elt F) → (⟨S16384x1024, .f32⟩ : BufTy).Contents (Elt F)),
    nullary main_cst_8 (constant S_ .f32 0x00000000#32),
    binary main_v43 main_cst_8 main_v44 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_9 (constant S_ .f32 0x46800000#32),
    unary main_cst_9 main_v45 (broadcastInDim S1024 ![] bcast_S_S1024 : (⟨S_, .f32⟩ : BufTy).Contents (Elt F) → (⟨S1024, .f32⟩ : BufTy).Contents (Elt F)),
    binary main_v44 main_v45 main_v46 (Host.divf : (⟨S1024, .f32⟩ : BufTy).Contents (Elt F) → (⟨S1024, .f32⟩ : BufTy).Contents (Elt F) → (⟨S1024, .f32⟩ : BufTy).Contents (Elt F)),
    nullary main_c_10 (constantI S_ 32 0#32) ]
/-- The buffers the operations of `c7` write, in order. -/
def c7_W : List (Ref sig .tc) :=
  [main_v43, main_cst_8, main_v44, main_cst_9, main_v45, main_v46, main_c_10]

/-- The second layer's column variance. -/
def c8 : List (HloOp τ sig (Elt F)) :=
  [ TRef.unary (.of main_v42 : TRef sig ⟨S16384x1024, .f32⟩) main_call3.v0 id,
    TRef.nullary main_call3.cst (constant S_ .f32 0x00000000#32),
    TRef.binary main_call3.v0 main_call3.cst main_call3.v1 (fun x v => Host.reduceAdd x v reducesTo_S16384x1024_S1024_d0 h_S_),
    TRef.unary main_call3.v1 main_call3.v2 (broadcastInDim S1x1024 ![1] bcast_S1024_S1x1024_1),
    TRef.nullary main_call3.cst_0 (constant S_ .f32 0x46800000#32),
    TRef.unary main_call3.cst_0 main_call3.v3 (broadcastInDim S1x1024 ![] bcast_S_S1x1024),
    TRef.binary main_call3.v2 main_call3.v3 main_call3.v4 Host.divf,
    TRef.unary main_call3.v4 main_call3.v5 (broadcastInDim S16384x1024 ![0, 1] bcast_S1x1024_S16384x1024_0_1),
    TRef.binary main_call3.v0 main_call3.v5 main_call3.v6 subf,
    TRef.binary main_call3.v6 main_call3.v6 main_call3.v7 mulf,
    TRef.unary (.of main_c_10 : TRef sig ⟨S_, .i32⟩) main_call3.v8 (sitofp .f32),
    TRef.nullary main_call3.cst_1 (constant S_ .f32 0x46800000#32),
    TRef.binary main_call3.cst_1 main_call3.v8 main_call3.v9 subf,
    TRef.nullary main_call3.cst_2 (constant S_ .f32 0x00000000#32),
    TRef.binary main_call3.v7 main_call3.cst_2 main_call3.v10 (fun x v => Host.reduceAdd x v reducesTo_S16384x1024_S1024_d0 h_S_),
    TRef.unary main_call3.v9 main_call3.v11 (broadcastInDim S1024 ![] bcast_S_S1024),
    TRef.binary main_call3.v10 main_call3.v11 main_call3.v12 Host.divf,
    TRef.nullary main_call3.cst_3 (constant S_ .f32 0x00000000#32),
    TRef.binary main_call3.v9 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1024 ![] bcast_S_S1024),
    TRef.ternary main_call3.v13 main_call3.v12 main_call3.call0.v1 main_call3.call0.v2 (fun p a b => select (broadcastInDim S1024 ![] bcast_S_S1024 p) a b) ]
/-- The buffers the operations of `c8` write, in order. -/
def c8_W : List (Ref sig .tc) :=
  [main_call3_v0, main_call3_cst, main_call3_v1, main_call3_v2, main_call3_cst_0, main_call3_v3, main_call3_v4, main_call3_v5, main_call3_v6, main_call3_v7, main_call3_v8, main_call3_cst_1, main_call3_v9, main_call3_cst_2, main_call3_v10, main_call3_v11, main_call3_v12, main_call3_cst_3, main_call3_v13, main_call3_cst_4, main_call3_call0_v0, main_call3_call0_v1, main_v47]

/-- The second layer's normalization and sign. -/
def c9 : List (HloOp τ sig (Elt F)) :=
  [ unary main_v42 main_v48 (id : (⟨S16384x1024, .f32⟩ : BufTy).Contents (Elt F) → (⟨S16384x1024, .f32⟩ : BufTy).Contents (Elt F)),
    unary main_v46 main_v49 (broadcastInDim S1x1024 ![1] bcast_S1024_S1x1024_1 : (⟨S1024, .f32⟩ : BufTy).Contents (Elt F) → (⟨S1x1024, .f32⟩ : BufTy).Contents (Elt F)),
    unary main_v49 main_v50 (broadcastInDim S16384x1024 ![0, 1] bcast_S1x1024_S16384x1024_0_1 : (⟨S1x1024, .f32⟩ : BufTy).Contents (Elt F) → (⟨S16384x1024, .f32⟩ : BufTy).Contents (Elt F)),
    binary main_v48 main_v50 main_v51 (subf : (⟨S16384x1024, .f32⟩ : BufTy).Contents (Elt F) → (⟨S16384x1024, .f32⟩ : BufTy).Contents (Elt F) → (⟨S16384x1024, .f32⟩ : BufTy).Contents (Elt F)),
    nullary main_cst_11 (constant S_ .f32 0x3727C5AC#32),
    unary main_cst_11 main_v52 (broadcastInDim S1024 ![] bcast_S_S1024 : (⟨S_, .f32⟩ : BufTy).Contents (Elt F) → (⟨S1024, .f32⟩ : BufTy).Contents (Elt F)),
    binary main_v47 main_v52 main_v53 (addf : (⟨S1024, .f32⟩ : BufTy).Contents (Elt F) → (⟨S1024, .f32⟩ : BufTy).Contents (Elt F) → (⟨S1024, .f32⟩ : BufTy).Contents (Elt F)),
    unary main_v53 main_v54 (Host.rsqrt : (⟨S1024, .f32⟩ : BufTy).Contents (Elt F) → (⟨S1024, .f32⟩ : BufTy).Contents (Elt F)),
    unary main_v54 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S16384x1024 ![0, 1] bcast_S1x1024_S16384x1024_0_1 : (⟨S1x1024, .f32⟩ : BufTy).Contents (Elt F) → (⟨S16384x1024, .f32⟩ : BufTy).Contents (Elt F)),
    binary main_v51 main_v56 main_v57 (mulf : (⟨S16384x1024, .f32⟩ : BufTy).Contents (Elt F) → (⟨S16384x1024, .f32⟩ : BufTy).Contents (Elt F) → (⟨S16384x1024, .f32⟩ : BufTy).Contents (Elt F)),
    unary main_arg9 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S16384x1024 ![0, 1] bcast_S1x1024_S16384x1024_0_1 : (⟨S1x1024, .f32⟩ : BufTy).Contents (Elt F) → (⟨S16384x1024, .f32⟩ : BufTy).Contents (Elt F)),
    binary main_v57 main_v59 main_v60 (mulf : (⟨S16384x1024, .f32⟩ : BufTy).Contents (Elt F) → (⟨S16384x1024, .f32⟩ : BufTy).Contents (Elt F) → (⟨S16384x1024, .f32⟩ : BufTy).Contents (Elt F)),
    unary main_arg10 main_v61 (broadcastInDim S1x1024 ![1] bcast_S1024_S1x1024_1 : (⟨S1024, .f32⟩ : BufTy).Contents (Elt F) → (⟨S1x1024, .f32⟩ : BufTy).Contents (Elt F)),
    unary main_v61 main_v62 (broadcastInDim S16384x1024 ![0, 1] bcast_S1x1024_S16384x1024_0_1 : (⟨S1x1024, .f32⟩ : BufTy).Contents (Elt F) → (⟨S16384x1024, .f32⟩ : BufTy).Contents (Elt F)),
    binary main_v60 main_v62 main_v63 (addf : (⟨S16384x1024, .f32⟩ : BufTy).Contents (Elt F) → (⟨S16384x1024, .f32⟩ : BufTy).Contents (Elt F) → (⟨S16384x1024, .f32⟩ : BufTy).Contents (Elt F)),
    unary main_v63 main_v64 (Host.sign : (⟨S16384x1024, .f32⟩ : BufTy).Contents (Elt F) → (⟨S16384x1024, .f32⟩ : BufTy).Contents (Elt F)) ]
/-- The buffers the operations of `c9` write, in order. -/
def c9_W : List (Ref sig .tc) :=
  [main_v48, main_v49, main_v50, main_v51, main_cst_11, main_v52, main_v53, main_v54, main_v55, main_v56, main_v57, main_v58, main_v59, main_v60, main_v61, main_v62, main_v63, main_v64]

/-- The third layer's matrix product. -/
def c10 : List (HloOp τ sig (Elt F)) :=
  [ unary main_arg5 main_v65 (Host.sign : (⟨S1024x1024, .f32⟩ : BufTy).Contents (Elt F) → (⟨S1024x1024, .f32⟩ : BufTy).Contents (Elt F)),
    unary main_v65 main_v66 ((transpose S1024x1024 [1, 0] · transposes_S1024x1024_S1024x1024_1_0) : (⟨S1024x1024, .f32⟩ : BufTy).Contents (Elt F) → (⟨S1024x1024, .f32⟩ : BufTy).Contents (Elt F)),
    binary main_v64 main_v66 main_v67 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)) ]
/-- The buffers the operations of `c10` write, in order. -/
def c10_W : List (Ref sig .tc) :=
  [main_v65, main_v66, main_v67]

/-- The third layer's noisy binarization. -/
def c11 : List (HloOp τ sig (Elt F)) :=
  [ nullary main_cst_12 (constant S_ .f32 0x00000000#32),
    unary main_cst_12 main_v68 (broadcastInDim S16384x1024 ![] bcast_S_S16384x1024 : (⟨S_, .f32⟩ : BufTy).Contents (Elt F) → (⟨S16384x1024, .f32⟩ : BufTy).Contents (Elt F)),
    binary main_v67 main_v68 main_v69 (cmpf .ogt : (⟨S16384x1024, .f32⟩ : BufTy).Contents (Elt F) → (⟨S16384x1024, .f32⟩ : BufTy).Contents (Elt F) → (⟨S16384x1024, .i1⟩ : BufTy).Contents (Elt F)),
    nullary main_cst_13 (constant S_ .f32 0x3F800000#32),
    nullary main_cst_14 (constant S_ .f32 0xBF800000#32),
    TRef.unary (.of main_cst_13 : TRef sig ⟨S_, .f32⟩) main_call4.v0 (broadcastInDim S16384x1024 ![] bcast_S_S16384x1024),
    TRef.unary (.of main_cst_14 : TRef sig ⟨S_, .f32⟩) main_call4.v1 (broadcastInDim S16384x1024 ![] bcast_S_S16384x1024),
    TRef.ternary (.of main_v69 : TRef sig ⟨S16384x1024, .i1⟩) main_call4.v0 main_call4.v1 main_call4.v2 select,
    binary main_v67 main_v67 main_v71 (mulf : (⟨S16384x1024, .f32⟩ : BufTy).Contents (Elt F) → (⟨S16384x1024, .f32⟩ : BufTy).Contents (Elt F) → (⟨S16384x1024, .f32⟩ : BufTy).Contents (Elt F)),
    unary main_v71 main_v72 (Host.negf : (⟨S16384x1024, .f32⟩ : BufTy).Contents (Elt F) → (⟨S16384x1024, .f32⟩ : BufTy).Contents (Elt F)),
    nullary main_cst_15 (constant S_ .f32 0x42480000#32),
    unary main_cst_15 main_v73 (broadcastInDim S16384x1024 ![] bcast_S_S16384x1024 : (⟨S_, .f32⟩ : BufTy).Contents (Elt F) → (⟨S16384x1024, .f32⟩ : BufTy).Contents (Elt F)),
    binary main_v72 main_v73 main_v74 (Host.divf : (⟨S16384x1024, .f32⟩ : BufTy).Contents (Elt F) → (⟨S16384x1024, .f32⟩ : BufTy).Contents (Elt F) → (⟨S16384x1024, .f32⟩ : BufTy).Contents (Elt F)),
    unary main_v74 main_v75 (Host.exp : (⟨S16384x1024, .f32⟩ : BufTy).Contents (Elt F) → (⟨S16384x1024, .f32⟩ : BufTy).Contents (Elt F)),
    nullary main_cst_16 (constant S_ .f32 0x3F000000#32),
    unary main_cst_16 main_v76 (broadcastInDim S16384x1024 ![] bcast_S_S16384x1024 : (⟨S_, .f32⟩ : BufTy).Contents (Elt F) → (⟨S16384x1024, .f32⟩ : BufTy).Contents (Elt F)),
    binary main_v76 main_v75 main_v77 (mulf : (⟨S16384x1024, .f32⟩ : BufTy).Contents (Elt F) → (⟨S16384x1024, .f32⟩ : BufTy).Contents (Elt F) → (⟨S16384x1024, .f32⟩ : BufTy).Contents (Elt F)),
    binary main_arg2 main_v77 main_v78 (cmpf .olt : (⟨S16384x1024, .f32⟩ : BufTy).Contents (Elt F) → (⟨S16384x1024, .f32⟩ : BufTy).Contents (Elt F) → (⟨S16384x1024, .i1⟩ : BufTy).Contents (Elt F)),
    unary main_v67 main_v79 (Host.absf : (⟨S16384x1024, .f32⟩ : BufTy).Contents (Elt F) → (⟨S16384x1024, .f32⟩ : BufTy).Contents (Elt F)),
    nullary main_cst_17 (constant S_ .f32 0x42480000#32),
    unary main_cst_17 main_v80 (broadcastInDim S16384x1024 ![] bcast_S_S16384x1024 : (⟨S_, .f32⟩ : BufTy).Contents (Elt F) → (⟨S16384x1024, .f32⟩ : BufTy).Contents (Elt F)),
    binary main_v79 main_v80 main_v81 (cmpf .ole : (⟨S16384x1024, .f32⟩ : BufTy).Contents (Elt F) → (⟨S16384x1024, .f32⟩ : BufTy).Contents (Elt F) → (⟨S16384x1024, .i1⟩ : BufTy).Contents (Elt F)),
    binary main_v78 main_v81 main_v82 (andi : (⟨S16384x1024, .i1⟩ : BufTy).Contents (Elt F) → (⟨S16384x1024, .i1⟩ : BufTy).Contents (Elt F) → (⟨S16384x1024, .i1⟩ : BufTy).Contents (Elt F)),
    unary main_v70 main_v83 (Host.negf : (⟨S16384x1024, .f32⟩ : BufTy).Contents (Elt F) → (⟨S16384x1024, .f32⟩ : BufTy).Contents (Elt F)),
    TRef.ternary (.of main_v82 : TRef sig ⟨S16384x1024, .i1⟩) (.of main_v83 : TRef sig ⟨S16384x1024, .f32⟩) (.of main_v70 : TRef sig ⟨S16384x1024, .f32⟩) main_call5.v0 select ]
/-- The buffers the operations of `c11` write, in order. -/
def c11_W : List (Ref sig .tc) :=
  [main_cst_12, main_v68, main_v69, main_cst_13, main_cst_14, main_call4_v0, main_call4_v1, main_v70, main_v71, main_v72, main_cst_15, main_v73, main_v74, main_v75, main_cst_16, main_v76, main_v77, main_v78, main_v79, main_cst_17, main_v80, main_v81, main_v82, main_v83, main_v84]

/-- The third layer's column means, and the integer constant passed to the variance. -/
def c12 : List (HloOp τ sig (Elt F)) :=
  [ unary main_v84 main_v85 (id : (⟨S16384x1024, .f32⟩ : BufTy).Contents (Elt F) → (⟨S16384x1024, .f32⟩ : BufTy).Contents (Elt F)),
    nullary main_cst_18 (constant S_ .f32 0x00000000#32),
    binary main_v85 main_cst_18 main_v86 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_19 (constant S_ .f32 0x46800000#32),
    unary main_cst_19 main_v87 (broadcastInDim S1024 ![] bcast_S_S1024 : (⟨S_, .f32⟩ : BufTy).Contents (Elt F) → (⟨S1024, .f32⟩ : BufTy).Contents (Elt F)),
    binary main_v86 main_v87 main_v88 (Host.divf : (⟨S1024, .f32⟩ : BufTy).Contents (Elt F) → (⟨S1024, .f32⟩ : BufTy).Contents (Elt F) → (⟨S1024, .f32⟩ : BufTy).Contents (Elt F)),
    nullary main_c_20 (constantI S_ 32 0#32) ]
/-- The buffers the operations of `c12` write, in order. -/
def c12_W : List (Ref sig .tc) :=
  [main_v85, main_cst_18, main_v86, main_cst_19, main_v87, main_v88, main_c_20]

/-- The third layer's column variance. -/
def c13 : List (HloOp τ sig (Elt F)) :=
  [ TRef.unary (.of main_v84 : TRef sig ⟨S16384x1024, .f32⟩) main_call6.v0 id,
    TRef.nullary main_call6.cst (constant S_ .f32 0x00000000#32),
    TRef.binary main_call6.v0 main_call6.cst main_call6.v1 (fun x v => Host.reduceAdd x v reducesTo_S16384x1024_S1024_d0 h_S_),
    TRef.unary main_call6.v1 main_call6.v2 (broadcastInDim S1x1024 ![1] bcast_S1024_S1x1024_1),
    TRef.nullary main_call6.cst_0 (constant S_ .f32 0x46800000#32),
    TRef.unary main_call6.cst_0 main_call6.v3 (broadcastInDim S1x1024 ![] bcast_S_S1x1024),
    TRef.binary main_call6.v2 main_call6.v3 main_call6.v4 Host.divf,
    TRef.unary main_call6.v4 main_call6.v5 (broadcastInDim S16384x1024 ![0, 1] bcast_S1x1024_S16384x1024_0_1),
    TRef.binary main_call6.v0 main_call6.v5 main_call6.v6 subf,
    TRef.binary main_call6.v6 main_call6.v6 main_call6.v7 mulf,
    TRef.unary (.of main_c_20 : TRef sig ⟨S_, .i32⟩) main_call6.v8 (sitofp .f32),
    TRef.nullary main_call6.cst_1 (constant S_ .f32 0x46800000#32),
    TRef.binary main_call6.cst_1 main_call6.v8 main_call6.v9 subf,
    TRef.nullary main_call6.cst_2 (constant S_ .f32 0x00000000#32),
    TRef.binary main_call6.v7 main_call6.cst_2 main_call6.v10 (fun x v => Host.reduceAdd x v reducesTo_S16384x1024_S1024_d0 h_S_),
    TRef.unary main_call6.v9 main_call6.v11 (broadcastInDim S1024 ![] bcast_S_S1024),
    TRef.binary main_call6.v10 main_call6.v11 main_call6.v12 Host.divf,
    TRef.nullary main_call6.cst_3 (constant S_ .f32 0x00000000#32),
    TRef.binary main_call6.v9 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1024 ![] bcast_S_S1024),
    TRef.ternary main_call6.v13 main_call6.v12 main_call6.call0.v1 main_call6.call0.v2 (fun p a b => select (broadcastInDim S1024 ![] bcast_S_S1024 p) a b) ]
/-- The buffers the operations of `c13` write, in order. -/
def c13_W : List (Ref sig .tc) :=
  [main_call6_v0, main_call6_cst, main_call6_v1, main_call6_v2, main_call6_cst_0, main_call6_v3, main_call6_v4, main_call6_v5, main_call6_v6, main_call6_v7, main_call6_v8, main_call6_cst_1, main_call6_v9, main_call6_cst_2, main_call6_v10, main_call6_v11, main_call6_v12, main_call6_cst_3, main_call6_v13, main_call6_cst_4, main_call6_call0_v0, main_call6_call0_v1, main_v89]

/-- The third layer's normalization, up to the variance plus ε. -/
def c14a : List (HloOp τ sig (Elt F)) :=
  [ unary main_v84 main_v90 (id : (⟨S16384x1024, .f32⟩ : BufTy).Contents (Elt F) → (⟨S16384x1024, .f32⟩ : BufTy).Contents (Elt F)),
    unary main_v88 main_v91 (broadcastInDim S1x1024 ![1] bcast_S1024_S1x1024_1 : (⟨S1024, .f32⟩ : BufTy).Contents (Elt F) → (⟨S1x1024, .f32⟩ : BufTy).Contents (Elt F)),
    unary main_v91 main_v92 (broadcastInDim S16384x1024 ![0, 1] bcast_S1x1024_S16384x1024_0_1 : (⟨S1x1024, .f32⟩ : BufTy).Contents (Elt F) → (⟨S16384x1024, .f32⟩ : BufTy).Contents (Elt F)),
    binary main_v90 main_v92 main_v93 (subf : (⟨S16384x1024, .f32⟩ : BufTy).Contents (Elt F) → (⟨S16384x1024, .f32⟩ : BufTy).Contents (Elt F) → (⟨S16384x1024, .f32⟩ : BufTy).Contents (Elt F)),
    nullary main_cst_21 (constant S_ .f32 0x3727C5AC#32),
    unary main_cst_21 main_v94 (broadcastInDim S1024 ![] bcast_S_S1024 : (⟨S_, .f32⟩ : BufTy).Contents (Elt F) → (⟨S1024, .f32⟩ : BufTy).Contents (Elt F)),
    binary main_v89 main_v94 main_v95 (addf : (⟨S1024, .f32⟩ : BufTy).Contents (Elt F) → (⟨S1024, .f32⟩ : BufTy).Contents (Elt F) → (⟨S1024, .f32⟩ : BufTy).Contents (Elt F)) ]
/-- The buffers the operations of `c14a` write, in order. -/
def c14a_W : List (Ref sig .tc) :=
  [main_v90, main_v91, main_v92, main_v93, main_cst_21, main_v94, main_v95]

/-- The third layer's normalization from the reciprocal square root on, and the sign. -/
def c14b : List (HloOp τ sig (Elt F)) :=
  [ unary main_v95 main_v96 (Host.rsqrt : (⟨S1024, .f32⟩ : BufTy).Contents (Elt F) → (⟨S1024, .f32⟩ : BufTy).Contents (Elt F)),
    unary main_v96 main_v97 (broadcastInDim S1x1024 ![1] bcast_S1024_S1x1024_1 : (⟨S1024, .f32⟩ : BufTy).Contents (Elt F) → (⟨S1x1024, .f32⟩ : BufTy).Contents (Elt F)),
    unary main_v97 main_v98 (broadcastInDim S16384x1024 ![0, 1] bcast_S1x1024_S16384x1024_0_1 : (⟨S1x1024, .f32⟩ : BufTy).Contents (Elt F) → (⟨S16384x1024, .f32⟩ : BufTy).Contents (Elt F)),
    binary main_v93 main_v98 main_v99 (mulf : (⟨S16384x1024, .f32⟩ : BufTy).Contents (Elt F) → (⟨S16384x1024, .f32⟩ : BufTy).Contents (Elt F) → (⟨S16384x1024, .f32⟩ : BufTy).Contents (Elt F)),
    unary main_arg11 main_v100 (broadcastInDim S1x1024 ![1] bcast_S1024_S1x1024_1 : (⟨S1024, .f32⟩ : BufTy).Contents (Elt F) → (⟨S1x1024, .f32⟩ : BufTy).Contents (Elt F)),
    unary main_v100 main_v101 (broadcastInDim S16384x1024 ![0, 1] bcast_S1x1024_S16384x1024_0_1 : (⟨S1x1024, .f32⟩ : BufTy).Contents (Elt F) → (⟨S16384x1024, .f32⟩ : BufTy).Contents (Elt F)),
    binary main_v99 main_v101 main_v102 (mulf : (⟨S16384x1024, .f32⟩ : BufTy).Contents (Elt F) → (⟨S16384x1024, .f32⟩ : BufTy).Contents (Elt F) → (⟨S16384x1024, .f32⟩ : BufTy).Contents (Elt F)),
    unary main_arg12 main_v103 (broadcastInDim S1x1024 ![1] bcast_S1024_S1x1024_1 : (⟨S1024, .f32⟩ : BufTy).Contents (Elt F) → (⟨S1x1024, .f32⟩ : BufTy).Contents (Elt F)),
    unary main_v103 main_v104 (broadcastInDim S16384x1024 ![0, 1] bcast_S1x1024_S16384x1024_0_1 : (⟨S1x1024, .f32⟩ : BufTy).Contents (Elt F) → (⟨S16384x1024, .f32⟩ : BufTy).Contents (Elt F)),
    binary main_v102 main_v104 main_v105 (addf : (⟨S16384x1024, .f32⟩ : BufTy).Contents (Elt F) → (⟨S16384x1024, .f32⟩ : BufTy).Contents (Elt F) → (⟨S16384x1024, .f32⟩ : BufTy).Contents (Elt F)),
    unary main_v105 main_v106 (Host.sign : (⟨S16384x1024, .f32⟩ : BufTy).Contents (Elt F) → (⟨S16384x1024, .f32⟩ : BufTy).Contents (Elt F)) ]
/-- The buffers the operations of `c14b` write, in order. -/
def c14b_W : List (Ref sig .tc) :=
  [main_v96, main_v97, main_v98, main_v99, main_v100, main_v101, main_v102, main_v103, main_v104, main_v105, main_v106]

/-- The last matrix product. -/
def c15 : List (HloOp τ sig (Elt F)) :=
  [ unary main_arg6 main_v107 (Host.sign : (⟨S10x1024, .f32⟩ : BufTy).Contents (Elt F) → (⟨S10x1024, .f32⟩ : BufTy).Contents (Elt F)),
    unary main_v107 main_v108 ((transpose S1024x10 [1, 0] · transposes_S10x1024_S1024x10_1_0) : (⟨S10x1024, .f32⟩ : BufTy).Contents (Elt F) → (⟨S1024x10, .f32⟩ : BufTy).Contents (Elt F)),
    binary main_v106 main_v108 main_v109 ((fun l r => Host.dotGeneral dot_S16384x1024_S1024x10_S16384x10_1_0_0_1_n_n none l r) : (⟨S16384x1024, .f32⟩ : BufTy).Contents (Elt F) → (⟨S1024x10, .f32⟩ : BufTy).Contents (Elt F) → (⟨S16384x10, .f32⟩ : BufTy).Contents (Elt F)) ]
/-- The buffers the operations of `c15` write, in order. -/
def c15_W : List (Ref sig .tc) :=
  [main_v107, main_v108, main_v109]

/-- The operations of the program's first, second and third window. -/
def opsA : List (HloOp τ sig (Elt F)) := c1 ++ c2 ++ c3 ++ c4 ++ c5 ++ c6 ++ c7
def opsB : List (HloOp τ sig (Elt F)) := c8 ++ c9 ++ c10 ++ c11 ++ c12 ++ c13 ++ c14a
def opsC : List (HloOp τ sig (Elt F)) := c14b ++ c15

/-- All 203 operations, in order. -/
def ops : List (HloOp τ sig (Elt F)) := opsA ++ (opsB ++ opsC)

end Cert.ReferenceIdeal.RefValue

end
-- ==== Proof.RefChunks.lean ====
/-
  The reference's stages, read off its lists of operations.  For each list: the buffers it writes are the
  ones named beside it (so every other buffer keeps its contents through it), its operations touch only
  TensorCore buffers and determine their results, and the stage's result buffer ends at the stage's
  function (RefTerm.lean) of the contents of the buffers it reads.
-/
import proofs.«171548_j65360812310623_2_alg».proof.Proof.RefOps
import proofs.«171548_j65360812310623_2_alg».proof.Proof.RefTerm

noncomputable section

namespace Cert.ReferenceIdeal.RefValue

open Cert.ReferenceIdeal Idealize.ShloMosaic Idealize.ShloMosaic.TcCoe Idealize.SL.Sem Idealize.ShloMosaic.StableHlo
open Facts₀ Facts

variable [Facts]

/-- Two lists run one after the other, read at a buffer. -/
theorem after_append_at {Val : EltTy → Type} (l₁ l₂ : List (HloOp τ sig Val)) (V : Valuation τ sig Val)
    (b : DevRef τ sig) : after (l₁ ++ l₂) V b = after l₂ (after l₁ V) b := by
  induction l₁ generalizing V with
  | nil => rfl
  | cons op l ih => rw [List.cons_append, after_cons, after_cons, ih]

/-- What the run asks of a list of operations, with `W` holding every buffer it writes. -/
structure ListOK {Val : EltTy → Type} (l : List (HloOp τ sig Val)) (W : List (Ref sig .tc)) : Prop where
  writes : l.Forall fun op => op.writes ⊆ (W.map (Proc.devRef (τ := τ) .tc)).toFinset
  sub : l.Forall fun op => op.bufs ⊆ tcRefs τ sig
  fresh : l.Forall fun op => op.fresh = ∅

/-- A buffer outside `W` keeps its contents through the list. -/
theorem ListOK.keep {Val : EltTy → Type} {l : List (HloOp τ sig Val)} {W : List (Ref sig .tc)} (ok : ListOK l W)
    (V : Valuation τ sig Val) (r : Ref sig .tc) (h : r ∉ W) :
    after l V (Proc.devRef .tc r) = V (Proc.devRef .tc r) :=
  after_of_writes_sub l V ok.writes h

/-- The same, stated for rewriting under any reference. -/
theorem ListOK.keep' {Val : EltTy → Type} {l : List (HloOp τ sig Val)} {W : List (Ref sig .tc)} (ok : ListOK l W)
    (V : Valuation τ sig Val) (r : Ref sig .tc) (h : r ∉ W) :
    after l V (no_index (Proc.devRef .tc r)) = V (Proc.devRef .tc r) :=
  ok.keep V r h

/-- The three facts for a literal list: each operation writes its own result buffer, which is in `W` by
    inspection; the builders touch TensorCore references only; none allocates. -/
local macro "list_ok" c:ident : tactic => `(tactic| (
  refine ⟨?_, ?_, ?_⟩
  · simp only [$c:ident, List.Forall, nullary_writes, unary_writes, binary_writes, ternary_writes,
      Finset.singleton_subset_iff, List.mem_toFinset]
    repeat' apply And.intro
    all_goals exact List.mem_map_of_mem (by decide)
  · simp only [$c:ident, List.Forall, nullary_bufs_sub, unary_bufs_sub, binary_bufs_sub, ternary_bufs_sub, and_self]
  · simp only [$c:ident, List.Forall]
    repeat' apply And.intro
    all_goals rfl))

section Lists

variable {F : FTy → Type} [FloatOps F]

theorem c1_ok : ListOK (c1 (F := F)) c1_W := by list_ok c1
theorem c2_ok : ListOK (c2 (F := F)) c2_W := by list_ok c2
theorem c3_ok : ListOK (c3 (F := F)) c3_W := by list_ok c3
theorem c4_ok : ListOK (c4 (F := F)) c4_W := by list_ok c4
theorem c5_ok : ListOK (c5 (F := F)) c5_W := by list_ok c5
theorem c6_ok : ListOK (c6 (F := F)) c6_W := by list_ok c6
theorem c7_ok : ListOK (c7 (F := F)) c7_W := by list_ok c7
theorem c8_ok : ListOK (c8 (F := F)) c8_W := by list_ok c8
theorem c9_ok : ListOK (c9 (F := F)) c9_W := by list_ok c9
theorem c10_ok : ListOK (c10 (F := F)) c10_W := by list_ok c10
theorem c11_ok : ListOK (c11 (F := F)) c11_W := by list_ok c11
theorem c12_ok : ListOK (c12 (F := F)) c12_W := by list_ok c12
theorem c13_ok : ListOK (c13 (F := F)) c13_W := by list_ok c13
theorem c14a_ok : ListOK (c14a (F := F)) c14a_W := by list_ok c14a
theorem c14b_ok : ListOK (c14b (F := F)) c14b_W := by list_ok c14b
theorem c15_ok : ListOK (c15 (F := F)) c15_W := by list_ok c15

end Lists

/-! ## Each stage's result, from any contents `V` -/

section Stages

variable (V : Valuation τ sig (Elt Ideal))

/-- The first matrix product. -/
theorem c1_v2 : after (c1 (F := Ideal)) V (no_index (Proc.devRef .tc main_v2))
    = h1Of (V (Proc.devRef .tc main_arg0)) (V (Proc.devRef .tc main_arg3)) := by
  unfold c1; after_results_simp; rfl

/-- The first layer's column means. -/
theorem c2_v5 : after (c2 (F := Ideal)) V (no_index (Proc.devRef .tc main_v5))
    = colMean (V (Proc.devRef .tc main_v2)) := by
  unfold c2; after_results_simp; rfl

/-- The integer passed to the first variance: the constant 0. -/
theorem c2_c : after (c2 (F := Ideal)) V (no_index (Proc.devRef .tc main_c)) = constantI S_ 32 0#32 := by
  unfold c2; after_results_simp

/-- The first layer's column variance, at the integer the buffer `main_c` holds. -/
theorem c3_v6 : after (c3 (F := Ideal)) V (no_index (Proc.devRef .tc main_v6))
    = varWith (V (Proc.devRef .tc main_v2)) (V (Proc.devRef .tc main_c)) := by
  unfold c3; after_results_simp; rfl

/-- The first layer's normalization and sign. -/
theorem c4_v22 : after (c4 (F := Ideal)) V (no_index (Proc.devRef .tc main_v22))
    = bnSign (V (Proc.devRef .tc main_v2)) (V (Proc.devRef .tc main_v5)) (V (Proc.devRef .tc main_v6))
        (V (Proc.devRef .tc main_arg7)) (V (Proc.devRef .tc main_arg8)) := by
  unfold c4; after_results_simp; rfl

/-- The second layer's matrix product. -/
theorem c5_v25 : after (c5 (F := Ideal)) V (no_index (Proc.devRef .tc main_v25))
    = hpre (V (Proc.devRef .tc main_v22)) (V (Proc.devRef .tc main_arg4)) := by
  unfold c5; after_results_simp; rfl

/-- The second layer's noisy binarization. -/
theorem c6_v42 : after (c6 (F := Ideal)) V (no_index (Proc.devRef .tc main_v42))
    = noisy (V (Proc.devRef .tc main_v25)) (V (Proc.devRef .tc main_arg1)) := by
  unfold c6; after_results_simp; rfl

/-- The second layer's column means. -/
theorem c7_v46 : after (c7 (F := Ideal)) V (no_index (Proc.devRef .tc main_v46))
    = colMean (id (V (Proc.devRef .tc main_v42))) := by
  unfold c7; after_results_simp; rfl

/-- The integer passed to the second variance: the constant 0. -/
theorem c7_c : after (c7 (F := Ideal)) V (no_index (Proc.devRef .tc main_c_10)) = constantI S_ 32 0#32 := by
  unfold c7; after_results_simp

/-- The second layer's column variance. -/
theorem c8_v47 : after (c8 (F := Ideal)) V (no_index (Proc.devRef .tc main_v47))
    = varWith (id (V (Proc.devRef .tc main_v42))) (V (Proc.devRef .tc main_c_10)) := by
  unfold c8; after_results_simp; rfl

/-- The second layer's normalization and sign. -/
theorem c9_v64 : after (c9 (F := Ideal)) V (no_index (Proc.devRef .tc main_v64))
    = bnSign (id (V (Proc.devRef .tc main_v42))) (V (Proc.devRef .tc main_v46)) (V (Proc.devRef .tc main_v47))
        (V (Proc.devRef .tc main_arg9)) (V (Proc.devRef .tc main_arg10)) := by
  unfold c9; after_results_simp; rfl

/-- The third layer's matrix product. -/
theorem c10_v67 : after (c10 (F := Ideal)) V (no_index (Proc.devRef .tc main_v67))
    = hpre (V (Proc.devRef .tc main_v64)) (V (Proc.devRef .tc main_arg5)) := by
  unfold c10; after_results_simp; rfl

/-- The third layer's noisy binarization. -/
theorem c11_v84 : after (c11 (F := Ideal)) V (no_index (Proc.devRef .tc main_v84))
    = noisy (V (Proc.devRef .tc main_v67)) (V (Proc.devRef .tc main_arg2)) := by
  unfold c11; after_results_simp; rfl

/-- The third layer's column means. -/
theorem c12_v88 : after (c12 (F := Ideal)) V (no_index (Proc.devRef .tc main_v88))
    = colMean (id (V (Proc.devRef .tc main_v84))) := by
  unfold c12; after_results_simp; rfl

/-- The integer passed to the third variance: the constant 0. -/
theorem c12_c : after (c12 (F := Ideal)) V (no_index (Proc.devRef .tc main_c_20)) = constantI S_ 32 0#32 := by
  unfold c12; after_results_simp

/-- The third layer's column variance. -/
theorem c13_v89 : after (c13 (F := Ideal)) V (no_index (Proc.devRef .tc main_v89))
    = varWith (id (V (Proc.devRef .tc main_v84))) (V (Proc.devRef .tc main_c_20)) := by
  unfold c13; after_results_simp; rfl

/-- The third layer's normalization and sign, through its two lists. -/
theorem c14_v106 : after (c14b (F := Ideal)) (after (c14a (F := Ideal)) V) (no_index (Proc.devRef .tc main_v106))
    = bnSign (id (V (Proc.devRef .tc main_v84))) (V (Proc.devRef .tc main_v88)) (V (Proc.devRef .tc main_v89))
        (V (Proc.devRef .tc main_arg11)) (V (Proc.devRef .tc main_arg12)) := by
  unfold c14a c14b; after_results_simp; rfl

/-- The last matrix product. -/
theorem c15_v109 : after (c15 (F := Ideal)) V (no_index (Proc.devRef .tc main_v109))
    = outOf (V (Proc.devRef .tc main_v106)) (V (Proc.devRef .tc main_arg6)) := by
  unfold c15; after_results_simp; rfl

end Stages

end Cert.ReferenceIdeal.RefValue

end
-- ==== Proof.RefRun.lean ====
/-
  The reference's run.  The program is the straight line of its 203 operations (by unfolding the calls);
  the contents of its result buffer after the line are the stages' functions composed (RefChunks.lean,
  one list after the other, every buffer a list does not write kept through it), which is `refOut` of the
  arguments' contents; the arguments are written by no operation.  With the library's run of a straight
  line this is the statement `run`: from any memory with zero counters every weakly fair execution
  terminates with the result at `refOut` of the arguments and the arguments unchanged.
-/
import proofs.«171548_j65360812310623_2_alg».proof.Proof.RefChunks

noncomputable section

namespace Cert.ReferenceIdeal.RefValue

open Cert.ReferenceIdeal Idealize.ShloMosaic Idealize.ShloMosaic.TcCoe Idealize.SL.Sem Idealize.ShloMosaic.StableHlo
open Facts₀ Facts

variable [Facts]

section Program

variable {F : FTy → Type} [FloatOps F]

set_option maxRecDepth 8192 in
/-- The first window is its operations in a line: a call is its body, and sequencing reassociates by computation. -/
theorem partA_eq (c : Dev nD) : main_part0 (F := F) c = seq opsA := rfl

set_option maxRecDepth 8192 in
theorem partB_eq (c : Dev nD) : main_part1 (F := F) c = seq opsB := rfl

set_option maxRecDepth 8192 in
theorem partC_eq (c : Dev nD) : main_part2 (F := F) c = seq opsC := rfl

/-- The program is the straight line of its operations. -/
theorem main_eq (c : Dev nD) : main (F := F) c = seq ops := by
  rw [ops, seq_append, seq_append, ← partA_eq c, ← partB_eq c, ← partC_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops (F := F)).Forall fun op => op.bufs ⊆ tcRefs τ sig := by
  simp only [ops, opsA, opsB, opsC, List.forall_append, c1_ok.sub, c2_ok.sub, c3_ok.sub, c4_ok.sub, c5_ok.sub, c6_ok.sub,
    c7_ok.sub, c8_ok.sub, c9_ok.sub, c10_ok.sub, c11_ok.sub, c12_ok.sub, c13_ok.sub, c14a_ok.sub, c14b_ok.sub, c15_ok.sub,
    and_self]

/-- Every operation determines its results. -/
theorem ops_fresh : ∀ op ∈ (ops (F := F)), op.fresh = ∅ :=
  List.forall_iff_forall_mem.1 (by
    simp only [ops, opsA, opsB, opsC, List.forall_append, c1_ok.fresh, c2_ok.fresh, c3_ok.fresh, c4_ok.fresh, c5_ok.fresh,
      c6_ok.fresh, c7_ok.fresh, c8_ok.fresh, c9_ok.fresh, c10_ok.fresh, c11_ok.fresh, c12_ok.fresh, c13_ok.fresh,
      c14a_ok.fresh, c14b_ok.fresh, c15_ok.fresh, and_self])

end Program

/-! ## The contents after the whole line -/

/-- Two lists run one after the other, as contents. -/
theorem after_append {Val : EltTy → Type} (l₁ l₂ : List (HloOp τ sig Val)) (V : Valuation τ sig Val) :
    after (l₁ ++ l₂) V = after l₂ (after l₁ V) :=
  funext fun b => after_append_at l₁ l₂ V b

/-- The result buffer after the line, from any contents: the stages composed, list after list. -/
theorem out_eq (V : Valuation τ sig (Elt Ideal)) :
    after (ops (F := Ideal)) V (Proc.devRef .tc main_v109)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp (disch := decide) only [ops, opsA, opsB, opsC, after_append,
    c15_v109, c14_v106, c13_v89, c12_v88, c12_c, c11_v84, c10_v67, c9_v64, c8_v47, c7_v46, c7_c, c6_v42, c5_v25, c4_v22,
    c3_v6, c2_v5, c2_c, c1_v2,
    c1_ok.keep', c2_ok.keep', c3_ok.keep', c4_ok.keep', c5_ok.keep', c6_ok.keep', c7_ok.keep', c8_ok.keep', c9_ok.keep',
    c10_ok.keep', c11_ok.keep', c12_ok.keep', c13_ok.keep', c14a_ok.keep', c14b_ok.keep', c15_ok.keep']
  rfl

/-- A buffer that no list writes keeps its contents through the whole line. -/
theorem keep_all (V : Valuation τ sig (Elt Ideal)) (r : Ref sig .tc)
    (h : r ∉ c1_W ∧ r ∉ c2_W ∧ r ∉ c3_W ∧ r ∉ c4_W ∧ r ∉ c5_W ∧ r ∉ c6_W ∧ r ∉ c7_W ∧ r ∉ c8_W ∧ r ∉ c9_W ∧ r ∉ c10_W
      ∧ r ∉ c11_W ∧ r ∉ c12_W ∧ r ∉ c13_W ∧ r ∉ c14a_W ∧ r ∉ c14b_W ∧ r ∉ c15_W) :
    after (ops (F := Ideal)) V (Proc.devRef .tc r) = V (Proc.devRef .tc r) := by
  obtain ⟨h1, h2, h3, h4, h5, h6, h7, h8, h9, h10, h11, h12, h13, h14, h15, h16⟩ := h
  simp only [ops, opsA, opsB, opsC, after_append]
  exact (c15_ok.keep _ r h16).trans <| (c14b_ok.keep _ r h15).trans <| (c14a_ok.keep _ r h14).trans <|
    (c13_ok.keep _ r h13).trans <| (c12_ok.keep _ r h12).trans <| (c11_ok.keep _ r h11).trans <|
    (c10_ok.keep _ r h10).trans <| (c9_ok.keep _ r h9).trans <| (c8_ok.keep _ r h8).trans <|
    (c7_ok.keep _ r h7).trans <| (c6_ok.keep _ r h6).trans <| (c5_ok.keep _ r h5).trans <|
    (c4_ok.keep _ r h4).trans <| (c3_ok.keep _ r h3).trans <| (c2_ok.keep _ r h2).trans <| c1_ok.keep V r h1

/-! ## The run -/

/-- On the device, from any memory with zero counters: every weakly fair execution of the reference terminates with
    its result buffer at `refOut` of the arguments' launch contents, and the thirteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v109)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v109).trans (out_eq (launchContents m c)),
      (h c main_arg0).trans (keep_all (launchContents m c) main_arg0 (by decide)),
      (h c main_arg1).trans (keep_all (launchContents m c) main_arg1 (by decide)),
      (h c main_arg2).trans (keep_all (launchContents m c) main_arg2 (by decide)),
      (h c main_arg3).trans (keep_all (launchContents m c) main_arg3 (by decide)),
      (h c main_arg4).trans (keep_all (launchContents m c) main_arg4 (by decide)),
      (h c main_arg5).trans (keep_all (launchContents m c) main_arg5 (by decide)),
      (h c main_arg6).trans (keep_all (launchContents m c) main_arg6 (by decide)),
      (h c main_arg7).trans (keep_all (launchContents m c) main_arg7 (by decide)),
      (h c main_arg8).trans (keep_all (launchContents m c) main_arg8 (by decide)),
      (h c main_arg9).trans (keep_all (launchContents m c) main_arg9 (by decide)),
      (h c main_arg10).trans (keep_all (launchContents m c) main_arg10 (by decide)),
      (h c main_arg11).trans (keep_all (launchContents m c) main_arg11 (by decide)),
      (h c main_arg12).trans (keep_all (launchContents m c) main_arg12 (by decide))⟩)
    (run_seq scopedRefs_eq scopedSems_eq defs main (fun _ => ops) main_eq (fun _ => ops_sub) m ρ (fun _ => ops_fresh))

end Cert.ReferenceIdeal.RefValue

end
-- ==== Proof.Region0Pieces.lean ====
import proofs.«171548_j65360812310623_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.BNN.R0

open Cert.KernelIdeal Cert.KernelIdeal.Gen

variable {F : FTy → Type} [FloatOps F]

theorem hz : (![0, 0] : Fin 2 → Nat) = fun _ => 0 := funext fun a => by fin_cases a <;> rfl

/-! ## What each control case leaves in each output block, as the body's arithmetic of the blocks it loaded

Case A is the first point of a core: the two accumulator blocks are zeroed, read back, and the point's column sums
added. Case B is every other point: the accumulator blocks hold what the point before left. In both cases the
product block is stored whole. -/

/-- Case B, the product block: the matrix product of the two loaded blocks. -/
theorem piece_B_2 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i)
    (x0 : Vec F S512x784 .f32) (x1 : Vec F S1024x784 .bf16) (xo3 : Vec F S8x1024 .f32) (xo4 : Vec F S8x1024 .f32) :
    out0_B_2 c i arg2 harg2 arg3 harg3 arg4 harg4 arg5 harg5 arg6 harg6 hc0 x0 x1 xo3 xo4 = k0_pay3 x0 x1 := by
  unfold out0_B_2
  rw [View.read_writes_eq_canon _ _ _ (cover0_B_2 c i arg2 harg2 arg3 harg3 arg4 harg4 arg5 harg5 arg6 harg6 hc0 x0 x1 xo3 xo4)]
  unfold kernelRun0_B
  dsimp only
  try sl_unfold_words
  rw [View.canon_unit_zero hz]
  simp only [View.readAt_eq_ld, harg2.read_unread, harg3.read_unread, harg5.read_unread, harg6.read_unread, View.ld_unit_zero (S := S512x784) hz, View.ld_unit_zero (S := S1024x784) hz, View.ld_unit_zero (S := S8x1024) hz]

/-- Case B, the running column sums: what the block held plus this point's column sums. -/
theorem piece_B_3 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i)
    (x0 : Vec F S512x784 .f32) (x1 : Vec F S1024x784 .bf16) (xo3 : Vec F S8x1024 .f32) (xo4 : Vec F S8x1024 .f32) :
    out0_B_3 c i arg2 harg2 arg3 harg3 arg4 harg4 arg5 harg5 arg6 harg6 hc0 x0 x1 xo3 xo4 = k0_pay4 x0 x1 xo3 := by
  unfold out0_B_3
  rw [View.read_writes_eq_canon _ _ _ (cover0_B_3 c i arg2 harg2 arg3 harg3 arg4 harg4 arg5 harg5 arg6 harg6 hc0 x0 x1 xo3 xo4)]
  unfold kernelRun0_B
  dsimp only
  try sl_unfold_words
  rw [View.canon_unit_zero hz]
  simp only [View.readAt_eq_ld, harg2.read_unread, harg3.read_unread, harg5.read_unread, harg6.read_unread, View.ld_unit_zero (S := S512x784) hz, View.ld_unit_zero (S := S1024x784) hz, View.ld_unit_zero (S := S8x1024) hz]

/-- Case B, the running column sums of squares. -/
theorem piece_B_4 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i)
    (x0 : Vec F S512x784 .f32) (x1 : Vec F S1024x784 .bf16) (xo3 : Vec F S8x1024 .f32) (xo4 : Vec F S8x1024 .f32) :
    out0_B_4 c i arg2 harg2 arg3 harg3 arg4 harg4 arg5 harg5 arg6 harg6 hc0 x0 x1 xo3 xo4 = k0_pay5 x0 x1 xo4 := by
  unfold out0_B_4
  rw [View.read_writes_eq_canon _ _ _ (cover0_B_4 c i arg2 harg2 arg3 harg3 arg4 harg4 arg5 harg5 arg6 harg6 hc0 x0 x1 xo3 xo4)]
  unfold kernelRun0_B
  dsimp only
  try sl_unfold_words
  rw [View.canon_unit_zero hz]
  simp only [View.readAt_eq_ld, harg2.read_unread, harg3.read_unread, harg5.read_unread, harg6.read_unread, View.ld_unit_zero (S := S512x784) hz, View.ld_unit_zero (S := S1024x784) hz, View.ld_unit_zero (S := S8x1024) hz]

/-- Case A, the product block. -/
theorem piece_A_2 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i)
    (x0 : Vec F S512x784 .f32) (x1 : Vec F S1024x784 .bf16) :
    out0_A_2 c i arg2 harg2 arg3 harg3 arg4 harg4 arg5 harg5 arg6 harg6 hc0 x0 x1 = k0_pay3 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  try sl_unfold_words
  rw [View.canon_unit_zero hz]
  simp only [View.readAt_eq_ld, harg2.read_unread, harg3.read_unread, View.ld_unit_zero (S := S512x784) hz, View.ld_unit_zero (S := S1024x784) hz]

/-- Case A, the column sums: the zero block just stored, read back, plus this point's column sums. -/
theorem piece_A_3 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i)
    (x0 : Vec F S512x784 .f32) (x1 : Vec F S1024x784 .bf16) :
    out0_A_3 c i arg2 harg2 arg3 harg3 arg4 harg4 arg5 harg5 arg6 harg6 hc0 x0 x1 = k0_pay4 x0 x1 (k0_pay1 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S8x1024) hz, View.readCov_unit_zero (S := S8x1024) _ hz]
  simp only [View.readAt_eq_ld, harg2.read_unread, harg3.read_unread, View.ld_unit_zero (S := S512x784) hz, View.ld_unit_zero (S := S1024x784) hz]

/-- Case A, the column sums of squares. -/
theorem piece_A_4 (c : Dev nD) (i : grid0.Coords) (arg2 : Memref sig .tc .vmem S512x784 .f32) (harg2 : arg2.IsWhole) (arg3 : Memref sig .tc .vmem S1024x784 .bf16) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i)
    (x0 : Vec F S512x784 .f32) (x1 : Vec F S1024x784 .bf16) :
    out0_A_4 c i arg2 harg2 arg3 harg3 arg4 harg4 arg5 harg5 arg6 harg6 hc0 x0 x1 = k0_pay5 x0 x1 (k0_pay2 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S8x1024) hz, View.readCov_unit_zero (S := S8x1024) _ hz]
  simp only [View.readAt_eq_ld, harg2.read_unread, harg3.read_unread, View.ld_unit_zero (S := S512x784) hz, View.ld_unit_zero (S := S1024x784) hz]

end Cert.BNN.R0
end
-- ==== Proof.Region0Pay.lean ====
import proofs.«171548_j65360812310623_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.SL.Sem
open Idealize.ShloMosaic.ValueIdx

namespace Cert.BNN.R0

open Cert.KernelIdeal Cert.KernelIdeal.Gen

/-! ## The body's arithmetic read at an index, at the exact values

Over the extended reals a change of float format is the identity, a matrix product into the zero block is the plain
sum of products over the contracted coordinate, and a column reduction is the plain sum down the column. -/

/-- On the left operand's row axis the operand index is the output's row. -/
theorem lhs_row (i : S512x1024.Idx) (k : dot_S512x784_S1024x784_S512x1024_1_1_0_0_n_n.contr.Idx) :
    (dot_S512x784_S1024x784_S512x1024_1_1_0_0_n_n.lhsIdx i k 0).val = (i 0).val := by
  unfold DotDims.lhsIdx
  rw [dif_neg (show ¬(0 : Fin S512x784.rank) ∈ dot_S512x784_S1024x784_S512x1024_1_1_0_0_n_n.lhsBatch by decide),
    dif_pos (show (0 : Fin S512x784.rank) ∈ dot_S512x784_S1024x784_S512x1024_1_1_0_0_n_n.lhsNonContracting by decide)]
  rfl

/-- On the right operand's row axis the operand index is the output's column. -/
theorem rhs_row (i : S512x1024.Idx) (k : dot_S512x784_S1024x784_S512x1024_1_1_0_0_n_n.contr.Idx) :
    (dot_S512x784_S1024x784_S512x1024_1_1_0_0_n_n.rhsIdx i k 0).val = (i 1).val := by
  unfold DotDims.rhsIdx
  rw [dif_neg (show ¬(0 : Fin S1024x784.rank) ∈ dot_S512x784_S1024x784_S512x1024_1_1_0_0_n_n.rhsBatch by decide),
    dif_pos (show (0 : Fin S1024x784.rank) ∈ dot_S512x784_S1024x784_S512x1024_1_1_0_0_n_n.rhsNonContracting by decide)]
  rfl

/-- The product block at (r, q): row r of the left block against row q of the right block. -/
theorem pay3_apply (x0 : Vec Ideal S512x784 .f32) (x1 : Vec Ideal S1024x784 .bf16) (r : Fin 512) (q : Fin 1024) :
    (k0_pay3 x0 x1 (ix2 r q) : EReal) = ∑ j : Fin 784, (x0 (ix2 r j) : EReal) * (x1 (ix2 q j) : EReal) := by
  unfold k0_pay3
  refine (Ideal.matmul_constant_zero_apply dot_S512x784_S1024x784_S512x1024_1_1_0_0_n_n none _ _ (ix2 r q)).trans ?_
  rw [← Equiv.sum_comp (contrEquiv1 dot_S512x784_S1024x784_S512x1024_1_1_0_0_n_n 784 rfl rfl).symm]
  refine Finset.sum_congr rfl fun k _ => ?_
  have hk := contrEquiv1_symm_val dot_S512x784_S1024x784_S512x1024_1_1_0_0_n_n 784 rfl rfl k
  have el : dot_S512x784_S1024x784_S512x1024_1_1_0_0_n_n.lhsIdx (ix2 r q) ((contrEquiv1 dot_S512x784_S1024x784_S512x1024_1_1_0_0_n_n 784 rfl rfl).symm k) = ix2 r k :=
    funext fun a => Fin.ext (by
      match a with
      | ⟨0, _⟩ => exact lhs_row _ _
      | ⟨1, _⟩ => exact (dot_S512x784_S1024x784_S512x1024_1_1_0_0_n_n.lhsIdx_val_of_single rfl _ _).trans hk)
  have er : dot_S512x784_S1024x784_S512x1024_1_1_0_0_n_n.rhsIdx (ix2 r q) ((contrEquiv1 dot_S512x784_S1024x784_S512x1024_1_1_0_0_n_n 784 rfl rfl).symm k) = ix2 q k :=
    funext fun a => Fin.ext (by
      match a with
      | ⟨0, _⟩ => exact rhs_row _ _
      | ⟨1, _⟩ => exact (dot_S512x784_S1024x784_S512x1024_1_1_0_0_n_n.rhsIdx_val_of_single rfl _ _).trans hk)
  rw [el, er, shapeCast_self]
  rfl

/-- A column reduction of a [512, 1024] block at column q: the sum down the column. -/
theorem colsum_apply (src : FVec Ideal S512x1024 .f32) (hφ : FKind.Formats .f32)
    (hacc : (0x00000000#32 : BitVec 32) = 0x00000000#32) (q : Fin 1024) :
    (multiReduction (F := Ideal) .add [0] S1024 src 0x00000000#32 reduces_S512x1024_S1024 hφ hacc (ix1 q) : EReal)
      = ∑ r : Fin 512, (src (ix2 r q) : EReal) := by
  refine (Ideal.multiReduction_add_single src 0x00000000#32 reduces_S512x1024_S1024 hφ hacc (ix1 q)).trans ?_
  refine Finset.sum_congr rfl fun r _ => congrArg src ?_
  funext a
  match a with
  | ⟨0, _⟩ => rfl
  | ⟨1, _⟩ => rfl

/-- A column-sum row [1024], laid as [1, 1024] and repeated down 8 rows, reads at (b, q) the row's entry q. -/
theorem rows_apply (v : FVec Ideal S1024 .f32) (b : Fin 8) (q : Fin 1024) :
    (broadcastTo S8x1024 (shapeCast S1x1024 (shapeCast S1x1024 v shapeCasts_S1024_S1x1024) shapeCasts_S1x1024_S1x1024)
      broadcasts_S1x1024_S8x1024 (ix2 b q) : EReal) = v (ix1 q) := by
  refine (broadcastTo_1b_ab_apply _ broadcasts_S1x1024_S8x1024 b q).trans ?_
  rw [shapeCast_self]
  exact shapeCast_a_1a_apply v shapeCasts_S1024_S1x1024 0 q

/-- The zero block the first point of a core stores. -/
theorem pay1_apply (b : Fin 8) (q : Fin 1024) : (k0_pay1 (F := Ideal) (ix2 b q) : EReal) = 0 :=
  Ideal.ofBits_zero_f32

theorem pay2_apply (b : Fin 8) (q : Fin 1024) : (k0_pay2 (F := Ideal) (ix2 b q) : EReal) = 0 :=
  Ideal.ofBits_zero_f32

/-- The column-sum accumulator after a point: what it held plus the column sums of the point's product block. -/
theorem pay4_apply (x0 : Vec Ideal S512x784 .f32) (x1 : Vec Ideal S1024x784 .bf16) (acc : Vec Ideal S8x1024 .f32)
    (b : Fin 8) (q : Fin 1024) :
    (k0_pay4 x0 x1 acc (ix2 b q) : EReal) = acc (ix2 b q) + ∑ r : Fin 512, (k0_pay3 x0 x1 (ix2 r q) : EReal) := by
  unfold k0_pay4
  show (shapeCast S8x1024 acc shapeCasts_S8x1024_S8x1024 (ix2 b q) : EReal) + _ = _
  rw [shapeCast_self]
  refine congrArg (fun z : EReal => acc (ix2 b q) + z) ?_
  refine (rows_apply _ b q).trans ?_
  exact colsum_apply _ _ _ q

/-- The sum-of-squares accumulator after a point: what it held plus the column sums of the squared product block. -/
theorem pay5_apply (x0 : Vec Ideal S512x784 .f32) (x1 : Vec Ideal S1024x784 .bf16) (acc : Vec Ideal S8x1024 .f32)
    (b : Fin 8) (q : Fin 1024) :
    (k0_pay5 x0 x1 acc (ix2 b q) : EReal)
      = acc (ix2 b q) + ∑ r : Fin 512, (k0_pay3 x0 x1 (ix2 r q) : EReal) * (k0_pay3 x0 x1 (ix2 r q) : EReal) := by
  unfold k0_pay5
  show (shapeCast S8x1024 acc shapeCasts_S8x1024_S8x1024 (ix2 b q) : EReal) + _ = _
  rw [shapeCast_self]
  refine congrArg (fun z : EReal => acc (ix2 b q) + z) ?_
  refine (rows_apply _ b q).trans ?_
  exact colsum_apply _ _ _ q

end Cert.BNN.R0
end
-- ==== Proof.Region0.lean ====
import proofs.«171548_j65360812310623_2_alg».proof.Proof.Region0Pieces
import proofs.«171548_j65360812310623_2_alg».proof.Proof.Region0Pay
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.BNN.R0

open Cert.KernelIdeal Cert.KernelIdeal.Gen

variable (V : (c : Dev nD) → (b : Ref sig .tc) → Buf (Elt Ideal) ((c : Thread nD τ).loc b))

/-! ## The first layer's pre-activation and its column sums, as the first region leaves them

The region multiplies each block of 512 input rows by the signed weights, stores the product rows, and accumulates,
per core, the column sums of the products and of their squares over the core's 16 blocks. -/

/-- The input rows as the region finds them. -/
def Xa (c : Dev nD) : (⟨2, ![16384, 784]⟩ : Shape).Idx → EReal := V c (Pipeline.arrRef spec0 0)
/-- The signed first-layer weights as the region finds them. -/
def Wa (c : Dev nD) : (⟨2, ![1024, 784]⟩ : Shape).Idx → EReal := V c (Pipeline.arrRef spec0 1)

/-- The first layer's pre-activation: row p of the input against row q of the signed weights. -/
def h1 (c : Dev nD) (p : Fin 16384) (q : Fin 1024) : EReal :=
  ∑ j : Fin 784, Xa V c (ix2 p j) * Wa V c (ix2 q j)

/-- The same with the row a natural number (zero past the last row; never read there). -/
def hrow (c : Dev nD) (k : ℕ) (q : Fin 1024) : EReal := if h : k < 16384 then h1 V c ⟨k, h⟩ q else 0

theorem hrow_of_lt (c : Dev nD) (k : ℕ) (h : k < 16384) (q : Fin 1024) : hrow V c k q = h1 V c ⟨k, h⟩ q := dif_pos h

/-- Block n's column sums of the pre-activation, -/
def colS (c : Dev nD) (n : ℕ) (q : Fin 1024) : EReal := ∑ r : Fin 512, hrow V c (n * 512 + r.val) q
/-- and of its square. -/
def colQ (c : Dev nD) (n : ℕ) (q : Fin 1024) : EReal :=
  ∑ r : Fin 512, hrow V c (n * 512 + r.val) q * hrow V c (n * 512 + r.val) q

theorem N32 : cfg0.N = 32 := N_0

/-- The printed index maps, decided over the grid: the row windows move with the point, the weights stay, the two
    accumulators move with the core. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- The input window's block at point t is rows 512 t … 512 t + 511 of the input. -/
theorem xblk_apply (c : Dev nD) (t : Fin cfg0.N) (y : S512x784.Idx) (k : S16384x784.Idx)
    (hk0 : (k 0).val = t.val * 512 + (y 0).val) (hk1 : (k 1).val = (y 1).val) :
    ((iblk0 V c 0 t : Vec Ideal S512x784 .f32) y : EReal) = Xa V c k := by
  obtain ⟨e00, e01, -⟩ := idx_facts t
  unfold iblk0 Xa
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t 0 * 512 + 1 * (y 0).val = (k 0).val; rw [e00, hk0]; omega
  | ⟨1, _⟩ => show win0_0.index t 1 * 784 + 1 * (y 1).val = (k 1).val; rw [e01, hk1]; omega

/-- The weights' window's block is the whole array at every point. -/
theorem wblk_apply (c : Dev nD) (t : Fin cfg0.N) (y : S1024x784.Idx) :
    ((iblk0 V c 1 t : Vec Ideal S1024x784 .bf16) y : EReal) = Wa V c y := by
  obtain ⟨-, -, e10, e11, -⟩ := idx_facts t
  unfold iblk0 Wa
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t 0 * 1024 + 1 * (y 0).val = (y 0).val; rw [e10]; omega
  | ⟨1, _⟩ => show win0_1.index t 1 * 784 + 1 * (y 1).val = (y 1).val; rw [e11]; omega

/-- The product block of point t at (r, q) is the pre-activation of row 512 t + r. -/
theorem prod_apply (c : Dev nD) (t : Fin cfg0.N) (r : Fin 512) (q : Fin 1024) :
    (k0_pay3 (iblk0 V c 0 t) (iblk0 V c 1 t) (ix2 r q) : EReal) = hrow V c (t.val * 512 + r.val) q := by
  have hN : t.val < 32 := lt_of_lt_of_eq t.isLt N32
  have hlt : t.val * 512 + r.val < 16384 := by omega
  rw [hrow_of_lt V c _ hlt]
  refine (pay3_apply (iblk0 V c 0 t) (iblk0 V c 1 t) r q).trans ?_
  unfold h1
  refine Finset.sum_congr rfl fun j _ => ?_
  rw [xblk_apply V c t (ix2 r j) (ix2 ⟨t.val * 512 + r.val, hlt⟩ j) rfl rfl, wblk_apply V c t (ix2 q j)]

/-! ## What the three output blocks hold after each point -/

/-- The product block after point t: the product of the point's two input blocks, in either control case. -/
theorem out2_eq (c : Dev nD) (t : Fin cfg0.N) :
    (outsAt0 V c t.val t.isLt).1 = k0_pay3 (iblk0 V c 0 t) (iblk0 V c 1 t) := by
  by_cases h0 : t.val % 16 = 0
  · rw [outsAt0_A V c t h0]
    dsimp only
    exact piece_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)
  · rw [outsAt0_B V c t h0]
    dsimp only
    exact piece_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
      (outsAt0 V c (t.val - 1) (Nat.lt_of_le_of_lt (Nat.sub_le _ _) t.isLt)).2.1 (outsAt0 V c (t.val - 1) (Nat.lt_of_le_of_lt (Nat.sub_le _ _) t.isLt)).2.2

/-- The column-sum block after the first point of a core: the zero block plus the point's column sums. -/
theorem out3_A (c : Dev nD) (t : Fin cfg0.N) (h0 : t.val % 16 = 0) :
    (outsAt0 V c t.val t.isLt).2.1 = k0_pay4 (iblk0 V c 0 t) (iblk0 V c 1 t) (k0_pay1 (F := Ideal)) := by
  rw [outsAt0_A V c t h0]
  dsimp only
  exact piece_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)

/-- The column-sum block after any other point: what the point before left plus the point's column sums. -/
theorem out3_B (c : Dev nD) (t : Fin cfg0.N) (h0 : ¬t.val % 16 = 0) :
    (outsAt0 V c t.val t.isLt).2.1 = k0_pay4 (iblk0 V c 0 t) (iblk0 V c 1 t) (outsAt0 V c (t.val - 1) (Nat.lt_of_le_of_lt (Nat.sub_le _ _) t.isLt)).2.1 := by
  rw [outsAt0_B V c t h0]
  dsimp only
  exact piece_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).2.1 (outsAt0 V c (t.val - 1) (Nat.lt_of_le_of_lt (Nat.sub_le _ _) t.isLt)).2.2

/-- The sum-of-squares block after the first point of a core. -/
theorem out4_A (c : Dev nD) (t : Fin cfg0.N) (h0 : t.val % 16 = 0) :
    (outsAt0 V c t.val t.isLt).2.2 = k0_pay5 (iblk0 V c 0 t) (iblk0 V c 1 t) (k0_pay2 (F := Ideal)) := by
  rw [outsAt0_A V c t h0]
  dsimp only
  exact piece_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)

/-- The sum-of-squares block after any other point. -/
theorem out4_B (c : Dev nD) (t : Fin cfg0.N) (h0 : ¬t.val % 16 = 0) :
    (outsAt0 V c t.val t.isLt).2.2 = k0_pay5 (iblk0 V c 0 t) (iblk0 V c 1 t) (outsAt0 V c (t.val - 1) (Nat.lt_of_le_of_lt (Nat.sub_le _ _) t.isLt)).2.2 := by
  rw [outsAt0_B V c t h0]
  dsimp only
  exact piece_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).2.1 (outsAt0 V c (t.val - 1) (Nat.lt_of_le_of_lt (Nat.sub_le _ _) t.isLt)).2.2

/-! ## The same at an index -/

theorem acc3_A (c : Dev nD) (t : Fin cfg0.N) (h0 : t.val % 16 = 0) (b : Fin 8) (q : Fin 1024) :
    ((outsAt0 V c t.val t.isLt).2.1 (ix2 b q) : EReal) = colS V c t.val q := by
  rw [out3_A V c t h0]
  refine (pay4_apply (iblk0 V c 0 t) (iblk0 V c 1 t) (k0_pay1 (F := Ideal)) b q).trans ?_
  rw [pay1_apply, zero_add]
  exact Finset.sum_congr rfl fun r _ => prod_apply V c t r q

theorem acc3_B (c : Dev nD) (t : Fin cfg0.N) (h0 : ¬t.val % 16 = 0) (b : Fin 8) (q : Fin 1024) :
    ((outsAt0 V c t.val t.isLt).2.1 (ix2 b q) : EReal)
      = ((outsAt0 V c (t.val - 1) (Nat.lt_of_le_of_lt (Nat.sub_le _ _) t.isLt)).2.1 (ix2 b q) : EReal) + colS V c t.val q := by
  rw [out3_B V c t h0]
  refine (pay4_apply (iblk0 V c 0 t) (iblk0 V c 1 t) (outsAt0 V c (t.val - 1) (Nat.lt_of_le_of_lt (Nat.sub_le _ _) t.isLt)).2.1 b q).trans ?_
  exact congrArg (fun z : EReal => ((outsAt0 V c (t.val - 1) (Nat.lt_of_le_of_lt (Nat.sub_le _ _) t.isLt)).2.1 (ix2 b q) : EReal) + z)
    (Finset.sum_congr rfl fun r _ => prod_apply V c t r q)

theorem acc4_A (c : Dev nD) (t : Fin cfg0.N) (h0 : t.val % 16 = 0) (b : Fin 8) (q : Fin 1024) :
    ((outsAt0 V c t.val t.isLt).2.2 (ix2 b q) : EReal) = colQ V c t.val q := by
  rw [out4_A V c t h0]
  refine (pay5_apply (iblk0 V c 0 t) (iblk0 V c 1 t) (k0_pay2 (F := Ideal)) b q).trans ?_
  rw [pay2_apply, zero_add]
  exact Finset.sum_congr rfl fun r _ => by rw [prod_apply V c t r q]

theorem acc4_B (c : Dev nD) (t : Fin cfg0.N) (h0 : ¬t.val % 16 = 0) (b : Fin 8) (q : Fin 1024) :
    ((outsAt0 V c t.val t.isLt).2.2 (ix2 b q) : EReal)
      = ((outsAt0 V c (t.val - 1) (Nat.lt_of_le_of_lt (Nat.sub_le _ _) t.isLt)).2.2 (ix2 b q) : EReal) + colQ V c t.val q := by
  rw [out4_B V c t h0]
  refine (pay5_apply (iblk0 V c 0 t) (iblk0 V c 1 t) (outsAt0 V c (t.val - 1) (Nat.lt_of_le_of_lt (Nat.sub_le _ _) t.isLt)).2.2 b q).trans ?_
  exact congrArg (fun z : EReal => ((outsAt0 V c (t.val - 1) (Nat.lt_of_le_of_lt (Nat.sub_le _ _) t.isLt)).2.2 (ix2 b q) : EReal) + z)
    (Finset.sum_congr rfl fun r _ => by rw [prod_apply V c t r q])

/-! ## The running sums: after point n a core's accumulators hold the column sums of its blocks so far -/

/-- A quantity that restarts at the first point of each run of 16 and adds one term per point is the sum of the
    run's terms so far. -/
theorem run_sum (f : ℕ → EReal) (g : ℕ → EReal) (N : ℕ)
    (hA : ∀ n, n < N → n % 16 = 0 → f n = g n)
    (hB : ∀ n, n + 1 < N → ¬(n + 1) % 16 = 0 → f (n + 1) = f n + g (n + 1)) :
    ∀ n, n < N → f n = ∑ i ∈ Finset.range (n % 16 + 1), g (n / 16 * 16 + i)
  | 0, h => by
    rw [hA 0 h rfl]
    simp
  | n + 1, h => by
    by_cases h0 : (n + 1) % 16 = 0
    · rw [hA (n + 1) h h0, h0, Finset.sum_range_one]
      exact congrArg g (by omega)
    · rw [hB n h h0, run_sum f g N hA hB n (Nat.lt_of_succ_lt h)]
      have e1 : (n + 1) / 16 = n / 16 := by omega
      have e2 : (n + 1) % 16 = n % 16 + 1 := by omega
      rw [e1, e2, Finset.sum_range_succ _ (n % 16 + 1)]
      exact congrArg (fun z : EReal => ∑ i ∈ Finset.range (n % 16 + 1), g (n / 16 * 16 + i) + z) (congrArg g (by omega))

theorem acc3_eq (c : Dev nD) (b : Fin 8) (q : Fin 1024) (n : ℕ) (hn : n < cfg0.N) :
    ((outsAt0 V c n hn).2.1 (ix2 b q) : EReal) = ∑ i ∈ Finset.range (n % 16 + 1), colS V c (n / 16 * 16 + i) q := by
  have key := run_sum (fun n => if h : n < cfg0.N then ((outsAt0 V c n h).2.1 (ix2 b q) : EReal) else 0)
    (fun n => colS V c n q) cfg0.N
    (fun n h h0 => by
      rw [dif_pos h]
      exact acc3_A V c ⟨n, h⟩ h0 b q)
    (fun n h h0 => by
      rw [dif_pos h, dif_pos (Nat.lt_of_succ_lt h)]
      exact acc3_B V c ⟨n + 1, h⟩ h0 b q)
    n hn
  rw [dif_pos hn] at key
  exact key

theorem acc4_eq (c : Dev nD) (b : Fin 8) (q : Fin 1024) (n : ℕ) (hn : n < cfg0.N) :
    ((outsAt0 V c n hn).2.2 (ix2 b q) : EReal) = ∑ i ∈ Finset.range (n % 16 + 1), colQ V c (n / 16 * 16 + i) q := by
  have key := run_sum (fun n => if h : n < cfg0.N then ((outsAt0 V c n h).2.2 (ix2 b q) : EReal) else 0)
    (fun n => colQ V c n q) cfg0.N
    (fun n h h0 => by
      rw [dif_pos h]
      exact acc4_A V c ⟨n, h⟩ h0 b q)
    (fun n h h0 => by
      rw [dif_pos h, dif_pos (Nat.lt_of_succ_lt h)]
      exact acc4_B V c ⟨n + 1, h⟩ h0 b q)
    n hn
  rw [dif_pos hn] at key
  exact key

/-! ## From blocks to the arrays -/

/-- The product array: entry (p, q) is the pre-activation of row p at column q. -/
def G2 (c : Dev nD) : S16384x1024.Idx → EReal := fun k => h1 V c ⟨(k 0).val, idx2_lt0 k⟩ ⟨(k 1).val, idx2_lt1 k⟩

/-- The column-sum array: rows 0–7 hold core 0's totals over its 16 blocks, rows 8–15 core 1's. -/
def G3 (c : Dev nD) : S16x1024.Idx → EReal := fun k =>
  ∑ i : Fin 16, ∑ r : Fin 512,
    h1 V c ⟨((k 0).val / 8 * 16 + i.val) * 512 + r.val, by have := idx2_lt0 k; omega⟩ ⟨(k 1).val, idx2_lt1 k⟩

/-- The sum-of-squares array, laid out the same way. -/
def G4 (c : Dev nD) : S16x1024.Idx → EReal := fun k =>
  ∑ i : Fin 16, ∑ r : Fin 512,
    h1 V c ⟨((k 0).val / 8 * 16 + i.val) * 512 + r.val, by have := idx2_lt0 k; omega⟩ ⟨(k 1).val, idx2_lt1 k⟩
      * h1 V c ⟨((k 0).val / 8 * 16 + i.val) * 512 + r.val, by have := idx2_lt0 k; omega⟩ ⟨(k 1).val, idx2_lt1 k⟩

/-- The product block of point t, at any index of the block, is the product array at the matching row. -/
theorem prod_G2 (c : Dev nD) (t : Fin cfg0.N) (y : S512x1024.Idx) (k : S16384x1024.Idx)
    (hk0 : (k 0).val = t.val * 512 + (y 0).val) (hk1 : (k 1).val = (y 1).val) :
    (k0_pay3 (iblk0 V c 0 t) (iblk0 V c 1 t) y : EReal) = G2 V c k := by
  obtain ⟨r, q, rfl⟩ : ∃ (r : Fin 512) (q : Fin 1024), y = ix2 r q := ⟨y 0, y 1, eq_ix2 y⟩
  have hN : t.val < 32 := lt_of_lt_of_eq t.isLt N32
  have hlt : t.val * 512 + r.val < 16384 := by omega
  have ep : (⟨t.val * 512 + r.val, hlt⟩ : Fin 16384) = ⟨(k 0).val, idx2_lt0 k⟩ := Fin.ext hk0.symm
  have eq : q = ⟨(k 1).val, idx2_lt1 k⟩ := Fin.ext hk1.symm
  rw [prod_apply V c t r q, hrow_of_lt V c _ hlt]
  unfold G2
  rw [ep, eq]

/-- What point t writes back is block t of the product array. -/
theorem flushed2_eq (c : Dev nD) (t : Fin cfg0.N) :
    (dat0 V c).flushed 2 t = ((cfg0.win 2).blk t).view.read (Elt Ideal) (G2 V c) := by
  obtain ⟨-, -, -, -, e20, e21, -⟩ := idx_facts t
  show (cfg0.win 2).cut (grid0.coords t) ((dat0 V c).after 2 t) = _
  rw [after0_2, out2_eq]
  funext y
  have hy0 : (y 0).val < 512 := (y 0).isLt
  have hy1 : (y 1).val < 1024 := (y 1).isLt
  rw [View.read_apply]
  refine prod_G2 V c t y (((cfg0.win 2).blk t).view.emb y) ?_ ?_
  · show win0_2.index t 0 * 512 + 1 * (y 0).val = t.val * 512 + (y 0).val
    rw [e20]; omega
  · show win0_2.index t 1 * 1024 + 1 * (y 1).val = (y 1).val
    rw [e21]; omega

/-- Row p of the product array is written back by point p / 512. -/
theorem final2 (c : Dev nD) : (dat0 V c).arrAt 2 cfg0.N = G2 V c :=
  (dat0 V c).arrAt_eq_of_cover 2 (G2 V c) (fun t _ => flushed2_eq V c t) fun i => by
    have hi0 : (i 0 : Nat) < 16384 := (i 0).isLt
    have hi1 : (i 1 : Nat) < 1024 := (i 1).isLt
    have ht : (i 0 : Nat) / 512 < cfg0.N := by rw [N32]; omega
    obtain ⟨-, -, -, -, e20, e21, -⟩ := idx_facts ⟨(i 0 : Nat) / 512, ht⟩
    refine ⟨⟨(i 0 : Nat) / 512, ht⟩, flush0_2 _, ?_⟩
    show i ∈ ((View.whole main_v14_0).slice (win0_2.rect ⟨(i 0 : Nat) / 512, ht⟩)).set
    rw [View.set_slice_whole, Rect.mem_set_unit]
    intro a
    match a with
    | ⟨0, _⟩ =>
      show win0_2.index ⟨(i 0 : Nat) / 512, ht⟩ 0 * 512 ≤ (i 0 : Nat)
        ∧ (i 0 : Nat) < win0_2.index ⟨(i 0 : Nat) / 512, ht⟩ 0 * 512 + 512
      rw [e20]; dsimp only; omega
    | ⟨1, _⟩ =>
      show win0_2.index ⟨(i 0 : Nat) / 512, ht⟩ 1 * 1024 ≤ (i 1 : Nat)
        ∧ (i 1 : Nat) < win0_2.index ⟨(i 0 : Nat) / 512, ht⟩ 1 * 1024 + 1024
      rw [e21]; omega

/-- At the last point of a core the column-sum block holds the core's total over its 16 blocks. -/
theorem acc3_G3 (c : Dev nD) (t : Fin cfg0.N) (h15 : t.val % 16 = 15) (y : S8x1024.Idx) (k : S16x1024.Idx)
    (hk0 : (k 0).val = t.val / 16 * 8 + (y 0).val) (hk1 : (k 1).val = (y 1).val) :
    ((outsAt0 V c t.val t.isLt).2.1 y : EReal) = G3 V c k := by
  obtain ⟨b, q, rfl⟩ : ∃ (b : Fin 8) (q : Fin 1024), y = ix2 b q := ⟨y 0, y 1, eq_ix2 y⟩
  have hN : t.val < 32 := lt_of_lt_of_eq t.isLt N32
  have h16 : t.val % 16 + 1 = 16 := by omega
  have hb : (k 0).val / 8 = t.val / 16 := by
    have hb8 : b.val < 8 := b.isLt
    have hk0' : (k 0).val = t.val / 16 * 8 + b.val := hk0
    omega
  rw [acc3_eq V c b q t.val t.isLt, h16, Finset.sum_range]
  unfold G3
  refine Finset.sum_congr rfl fun i _ => ?_
  unfold colS
  refine Finset.sum_congr rfl fun r _ => ?_
  have hlt : (t.val / 16 * 16 + i.val) * 512 + r.val < 16384 := by omega
  have ep : (⟨(t.val / 16 * 16 + i.val) * 512 + r.val, hlt⟩ : Fin 16384)
      = ⟨((k 0).val / 8 * 16 + i.val) * 512 + r.val, by have := idx2_lt0 k; omega⟩ := Fin.ext (by
        show (t.val / 16 * 16 + i.val) * 512 + r.val = ((k 0).val / 8 * 16 + i.val) * 512 + r.val
        rw [hb])
  have eq : q = ⟨(k 1).val, idx2_lt1 k⟩ := Fin.ext hk1.symm
  rw [hrow_of_lt V c _ hlt, ep, eq]

/-- What a core's last point writes back is its block of the column-sum array. -/
theorem flushed3_eq (c : Dev nD) (t : Fin cfg0.N) (hf : (cfg0.win 3).flush t = true) :
    (dat0 V c).flushed 3 t = ((cfg0.win 3).blk t).view.read (Elt Ideal) (G3 V c) := by
  have h15 : t.val % 16 = 15 := (flush0_3 t).mp hf
  obtain ⟨-, -, -, -, -, -, e30, e31, e40, e41⟩ := idx_facts t
  show (cfg0.win 3).cut (grid0.coords t) ((dat0 V c).after 3 t) = _
  rw [after0_3]
  funext y
  have hy0 : (y 0).val < 8 := (y 0).isLt
  have hy1 : (y 1).val < 1024 := (y 1).isLt
  rw [View.read_apply]
  refine acc3_G3 V c t h15 y (((cfg0.win 3).blk t).view.emb y) ?_ ?_
  · show win0_3.index t 0 * 8 + 1 * (y 0).val = t.val / 16 * 8 + (y 0).val
    rw [e30]; omega
  · show win0_3.index t 1 * 1024 + 1 * (y 1).val = (y 1).val
    rw [e31]; omega

/-- Every entry of the column-sum array is written back by the last point of its core. -/
theorem final3 (c : Dev nD) : (dat0 V c).arrAt 3 cfg0.N = G3 V c :=
  (dat0 V c).arrAt_eq_of_cover 3 (G3 V c) (flushed3_eq V c) fun i => by
    have hi0 : (i 0 : Nat) < 16 := (i 0).isLt
    have hi1 : (i 1 : Nat) < 1024 := (i 1).isLt
    have ht : (i 0 : Nat) / 8 * 16 + 15 < cfg0.N := by rw [N32]; omega
    obtain ⟨-, -, -, -, -, -, e30, e31, e40, e41⟩ := idx_facts ⟨(i 0 : Nat) / 8 * 16 + 15, ht⟩
    refine ⟨⟨(i 0 : Nat) / 8 * 16 + 15, ht⟩, (flush0_3 _).mpr (by dsimp only; omega), ?_⟩
    show i ∈ ((View.whole main_v14_1).slice (win0_3.rect ⟨(i 0 : Nat) / 8 * 16 + 15, ht⟩)).set
    rw [View.set_slice_whole, Rect.mem_set_unit]
    intro a
    match a with
    | ⟨0, _⟩ =>
      show win0_3.index ⟨(i 0 : Nat) / 8 * 16 + 15, ht⟩ 0 * 8 ≤ (i 0 : Nat)
        ∧ (i 0 : Nat) < win0_3.index ⟨(i 0 : Nat) / 8 * 16 + 15, ht⟩ 0 * 8 + 8
      rw [e30]; dsimp only; omega
    | ⟨1, _⟩ =>
      show win0_3.index ⟨(i 0 : Nat) / 8 * 16 + 15, ht⟩ 1 * 1024 ≤ (i 1 : Nat)
        ∧ (i 1 : Nat) < win0_3.index ⟨(i 0 : Nat) / 8 * 16 + 15, ht⟩ 1 * 1024 + 1024
      rw [e31]; omega

/-- At the last point of a core the sum-of-squares block holds the core's total over its 16 blocks. -/
theorem acc4_G4 (c : Dev nD) (t : Fin cfg0.N) (h15 : t.val % 16 = 15) (y : S8x1024.Idx) (k : S16x1024.Idx)
    (hk0 : (k 0).val = t.val / 16 * 8 + (y 0).val) (hk1 : (k 1).val = (y 1).val) :
    ((outsAt0 V c t.val t.isLt).2.2 y : EReal) = G4 V c k := by
  obtain ⟨b, q, rfl⟩ : ∃ (b : Fin 8) (q : Fin 1024), y = ix2 b q := ⟨y 0, y 1, eq_ix2 y⟩
  have hN : t.val < 32 := lt_of_lt_of_eq t.isLt N32
  have h16 : t.val % 16 + 1 = 16 := by omega
  have hb : (k 0).val / 8 = t.val / 16 := by
    have hb8 : b.val < 8 := b.isLt
    have hk0' : (k 0).val = t.val / 16 * 8 + b.val := hk0
    omega
  rw [acc4_eq V c b q t.val t.isLt, h16, Finset.sum_range]
  unfold G4
  refine Finset.sum_congr rfl fun i _ => ?_
  unfold colQ
  refine Finset.sum_congr rfl fun r _ => ?_
  have hlt : (t.val / 16 * 16 + i.val) * 512 + r.val < 16384 := by omega
  have ep : (⟨(t.val / 16 * 16 + i.val) * 512 + r.val, hlt⟩ : Fin 16384)
      = ⟨((k 0).val / 8 * 16 + i.val) * 512 + r.val, by have := idx2_lt0 k; omega⟩ := Fin.ext (by
        show (t.val / 16 * 16 + i.val) * 512 + r.val = ((k 0).val / 8 * 16 + i.val) * 512 + r.val
        rw [hb])
  have eq : q = ⟨(k 1).val, idx2_lt1 k⟩ := Fin.ext hk1.symm
  rw [hrow_of_lt V c _ hlt, ep, eq]

/-- What a core's last point writes back is its block of the sum-of-squares array. -/
theorem flushed4_eq (c : Dev nD) (t : Fin cfg0.N) (hf : (cfg0.win 4).flush t = true) :
    (dat0 V c).flushed 4 t = ((cfg0.win 4).blk t).view.read (Elt Ideal) (G4 V c) := by
  have h15 : t.val % 16 = 15 := (flush0_4 t).mp hf
  obtain ⟨-, -, -, -, -, -, e30, e31, e40, e41⟩ := idx_facts t
  show (cfg0.win 4).cut (grid0.coords t) ((dat0 V c).after 4 t) = _
  rw [after0_4]
  funext y
  have hy0 : (y 0).val < 8 := (y 0).isLt
  have hy1 : (y 1).val < 1024 := (y 1).isLt
  rw [View.read_apply]
  refine acc4_G4 V c t h15 y (((cfg0.win 4).blk t).view.emb y) ?_ ?_
  · show win0_4.index t 0 * 8 + 1 * (y 0).val = t.val / 16 * 8 + (y 0).val
    rw [e40]; omega
  · show win0_4.index t 1 * 1024 + 1 * (y 1).val = (y 1).val
    rw [e41]; omega

/-- Every entry of the sum-of-squares array is written back by the last point of its core. -/
theorem final4 (c : Dev nD) : (dat0 V c).arrAt 4 cfg0.N = G4 V c :=
  (dat0 V c).arrAt_eq_of_cover 4 (G4 V c) (flushed4_eq V c) fun i => by
    have hi0 : (i 0 : Nat) < 16 := (i 0).isLt
    have hi1 : (i 1 : Nat) < 1024 := (i 1).isLt
    have ht : (i 0 : Nat) / 8 * 16 + 15 < cfg0.N := by rw [N32]; omega
    obtain ⟨-, -, -, -, -, -, e30, e31, e40, e41⟩ := idx_facts ⟨(i 0 : Nat) / 8 * 16 + 15, ht⟩
    refine ⟨⟨(i 0 : Nat) / 8 * 16 + 15, ht⟩, (flush0_4 _).mpr (by dsimp only; omega), ?_⟩
    show i ∈ ((View.whole main_v14_2).slice (win0_4.rect ⟨(i 0 : Nat) / 8 * 16 + 15, ht⟩)).set
    rw [View.set_slice_whole, Rect.mem_set_unit]
    intro a
    match a with
    | ⟨0, _⟩ =>
      show win0_4.index ⟨(i 0 : Nat) / 8 * 16 + 15, ht⟩ 0 * 8 ≤ (i 0 : Nat)
        ∧ (i 0 : Nat) < win0_4.index ⟨(i 0 : Nat) / 8 * 16 + 15, ht⟩ 0 * 8 + 8
      rw [e40]; dsimp only; omega
    | ⟨1, _⟩ =>
      show win0_4.index ⟨(i 0 : Nat) / 8 * 16 + 15, ht⟩ 1 * 1024 ≤ (i 1 : Nat)
        ∧ (i 1 : Nat) < win0_4.index ⟨(i 0 : Nat) / 8 * 16 + 15, ht⟩ 1 * 1024 + 1024
      rw [e41]; omega

/-! ## The region's three output arrays, entry by entry -/

/-- The product array at (p, q). -/
theorem out_h1 (c : Dev nD) (p : Fin 16384) (q : Fin 1024) :
    ((dat0 V c).arrAt 2 cfg0.N (ix2 p q) : EReal) = h1 V c p q :=
  congrFun (final2 V c) (ix2 p q)

/-- The column-sum array at (a, q): the total over the 16 blocks of core a / 8. -/
theorem out_sum (c : Dev nD) (a : Fin 16) (q : Fin 1024) :
    ((dat0 V c).arrAt 3 cfg0.N (ix2 a q) : EReal)
      = ∑ i : Fin 16, ∑ r : Fin 512, h1 V c ⟨((a.val / 8) * 16 + i.val) * 512 + r.val, by omega⟩ q :=
  congrFun (final3 V c) (ix2 a q)

/-- The sum-of-squares array at (a, q). -/
theorem out_sumsq (c : Dev nD) (a : Fin 16) (q : Fin 1024) :
    ((dat0 V c).arrAt 4 cfg0.N (ix2 a q) : EReal)
      = ∑ i : Fin 16, ∑ r : Fin 512, h1 V c ⟨((a.val / 8) * 16 + i.val) * 512 + r.val, by omega⟩ q
          * h1 V c ⟨((a.val / 8) * 16 + i.val) * 512 + r.val, by omega⟩ q :=
  congrFun (final4 V c) (ix2 a q)

end Cert.BNN.R0
end
-- ==== Proof.Region1Pieces.lean ====
import proofs.«171548_j65360812310623_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
What one grid point of the first middle layer leaves in its two output buffers, as terms of the blocks it loads.

The layer's body stores the noisy binarization of its `512 × 1024` tile once, and keeps a running column sum in an
`8 × 1024` accumulator: at the first point of a core the accumulator is first set to zero and then the tile's column
sums are added to it; at every other point the column sums are added to what the point before left. The four lemmas
below read the stores of the two control cases back as the body's pure arithmetic.
-/

namespace Cert.BNN.R1
open Cert.KernelIdeal Cert.KernelIdeal.Gen

variable {F : FTy → Type} [FloatOps F]

theorem hz : (![0, 0] : Fin 2 → Nat) = fun _ => 0 := funext fun a => by fin_cases a <;> rfl

theorem out_B_7 (c : Dev nD) (i : grid1.Coords) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : ¬cond1_0 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S512x1024 .f32) (xo8 : Vec F S8x1024 .f32) :
    out1_B_7 c i a2 h2 a3 h3 a4 h4 a5 h5 a6 h6 a7 h7 a8 h8 a9 h9 a10 h10 hc x0 x1 x2 x3 x4 x5 x6 xo8 = k1_pay2 (k1_pay5 x0 x1 x2 x3 x4 x5) x6 := by
  unfold out1_B_7
  rw [View.read_writes_eq_canon _ _ _ (cover1_B_7 c i a2 h2 a3 h3 a4 h4 a5 h5 a6 h6 a7 h7 a8 h8 a9 h9 a10 h10 hc x0 x1 x2 x3 x4 x5 x6 xo8)]
  unfold kernelRun1_B
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz]

theorem out_A_7 (c : Dev nD) (i : grid1.Coords) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : cond1_0 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S512x1024 .f32) :
    out1_A_7 c i a2 h2 a3 h3 a4 h4 a5 h5 a6 h6 a7 h7 a8 h8 a9 h9 a10 h10 hc x0 x1 x2 x3 x4 x5 x6 = k1_pay2 (k1_pay5 x0 x1 x2 x3 x4 x5) x6 := by
  unfold out1_A_7
  rw [View.read_writes_eq_canon _ _ _ (cover1_A_7 c i a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz]

theorem out_B_8 (c : Dev nD) (i : grid1.Coords) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : ¬cond1_0 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S512x1024 .f32) (xo8 : Vec F S8x1024 .f32) :
    out1_B_8 c i a2 h2 a3 h3 a4 h4 a5 h5 a6 h6 a7 h7 a8 h8 a9 h9 a10 h10 hc x0 x1 x2 x3 x4 x5 x6 xo8 = k1_pay3 (k1_pay5 x0 x1 x2 x3 x4 x5) x6 xo8 := by
  unfold out1_B_8
  rw [View.read_writes_eq_canon _ _ _ (cover1_B_8 c i a2 h2 a3 h3 a4 h4 a5 h5 a6 h6 a7 h7 a8 h8 a9 h9 a10 h10 hc x0 x1 x2 x3 x4 x5 x6 xo8)]
  unfold kernelRun1_B
  dsimp only
  sl_unfold_words
  rw [View.canon_unit_zero hz]
  simp only [View.readAt_eq_ld, h2.read_unread, h3.read_unread, h4.read_unread, h5.read_unread, h6.read_unread, h7.read_unread, h8.read_unread, h10.read_unread,
    View.ld_unit_zero (S := S512x1024) hz, View.ld_unit_zero (S := S1x1024) hz, View.ld_unit_zero (S := S1024x1024) hz, View.ld_unit_zero (S := S8x1024) hz]

theorem out_A_8 (c : Dev nD) (i : grid1.Coords) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : cond1_0 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S512x1024 .f32) :
    out1_A_8 c i a2 h2 a3 h3 a4 h4 a5 h5 a6 h6 a7 h7 a8 h8 a9 h9 a10 h10 hc x0 x1 x2 x3 x4 x5 x6 = k1_pay3 (k1_pay5 x0 x1 x2 x3 x4 x5) x6 k1_pay4 := by
  unfold out1_A_8
  rw [View.read_writes_eq_canon _ _ _ (cover1_A_8 c i a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S8x1024) hz, View.readCov_unit_zero (S := S8x1024) _ hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz, View.ld_unit_zero (S := S8x1024) hz]

end Cert.BNN.R1
end
-- ==== Proof.Region1Payload.lean ====
import proofs.«171548_j65360812310623_2_alg».proof.Proof.Gen.KernelIdeal.Skeleton
import proofs.«171548_j65360812310623_2_alg».proof.Proof.KPointwise
import Idealize.ShloMosaic.Lib.ValueIdx
import Idealize.ShloMosaic.Lib.ValueLayout
import Idealize.ShloMosaic.Lib.Pipeline.Value
import Idealize.ShloMosaic.PureOps.Ideal.Laws

/-!
The arithmetic of the first middle layer's body, read at one element over the extended reals.

At row `r` and column `q` of a `512 × 1024` tile the body computes: the pre-activation, the sum over `k` of the
sign of the normalized input `(r, k)` times the binarized weight `(q, k)`; its noisy binarization by the uniform
draw at `(r, q)`; and, for every row of the `8 × 1024` accumulator, the accumulator's entry plus the sum over the
tile's `512` rows of the binarized column `q`.
-/

set_option maxRecDepth 16384

noncomputable section

open Idealize.ShloMosaic Idealize.ShloMosaic.ValueIdx

namespace Cert.BNN.R1
open Cert.KernelIdeal Cert.KernelIdeal.Gen Cert.BNN.K

/-- The layer's matrix product contracts the second axis of both operands. -/
abbrev D1 : DotDims S512x1024 S1024x1024 S512x1024 := dot_S512x1024_S1024x1024_S512x1024_1_1_0_0_n_n

theorem D1_lhs0 (i : S512x1024.Idx) (q : D1.contr.Idx) : (D1.lhsIdx i q 0).val = (i 0).val := by
  unfold DotDims.lhsIdx
  rw [dif_neg (show ¬(0 : Fin S512x1024.rank) ∈ D1.lhsBatch by decide), dif_pos (show (0 : Fin S512x1024.rank) ∈ D1.lhsNonContracting by decide)]
  rfl
theorem D1_lhs1 (i : S512x1024.Idx) (q : D1.contr.Idx) : (D1.lhsIdx i q 1).val = (q ⟨0, by decide⟩).val :=
  D1.lhsIdx_val_of_single rfl i q
theorem D1_rhs0 (i : S512x1024.Idx) (q : D1.contr.Idx) : (D1.rhsIdx i q 0).val = (i 1).val := by
  unfold DotDims.rhsIdx
  rw [dif_neg (show ¬(0 : Fin S1024x1024.rank) ∈ D1.rhsBatch by decide), dif_pos (show (0 : Fin S1024x1024.rank) ∈ D1.rhsNonContracting by decide)]
  rfl
theorem D1_rhs1 (i : S512x1024.Idx) (q : D1.contr.Idx) : (D1.rhsIdx i q 1).val = (q ⟨0, by decide⟩).val :=
  D1.rhsIdx_val_of_single rfl i q

/-- The product into the zero accumulator, at row `r` and column `q`: the sum over `k` of `lhs (r, k) * rhs (q, k)`. -/
theorem matmul_at (lhs : FVec Ideal S512x1024 .bf16) (rhs : FVec Ideal S1024x1024 .bf16) (r : Fin 512) (q : Fin 1024) :
    matmul D1 none lhs rhs (constant (F := Ideal) S512x1024 .f32 0x00000000#32) (ix2 r q)
      = ∑ k : Fin 1024, lhs (ix2 r k) * rhs (ix2 q k) := by
  show FloatOps.matmul D1 none lhs rhs _ (ix2 r q) = _
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 r q) ((contrEquiv1 D1 1024 rfl rfl).symm k) = ix2 r k := funext fun a => Fin.ext (by
    match a with
    | ⟨0, _⟩ => exact D1_lhs0 _ _
    | ⟨1, _⟩ => exact (D1_lhs1 _ _).trans hk)
  have er : D1.rhsIdx (ix2 r q) ((contrEquiv1 D1 1024 rfl rfl).symm k) = ix2 q k := funext fun a => Fin.ext (by
    match a with
    | ⟨0, _⟩ => exact D1_rhs0 _ _
    | ⟨1, _⟩ => exact (D1_rhs1 _ _).trans hk)
  rw [el, er]

/-- The body's sign of a vector, narrowed to the matrix unit's format, is the sign of the element. -/
theorem sign_vec_at {s : Shape} (X : FVec Ideal s .f32) (h : FTy.bf16.bits < FTy.f32.bits) (j : s.Idx) :
    truncf .bf16 (select (cmpf .ogt (absf X) (broadcast s (Scalar.ofBits (F := Ideal) .f32 0x00000000#32)))
        (select (cmpf .olt X (constant s .f32 0x00000000#32)) (constant s .f32 0xBF800000#32) (constant s .f32 0x3F800000#32)) X) h j
      = Ideal.sign (X j) :=
  Ideal.jnp_sign_eq_sign_f32 (X j)

/-- The column sum of a tile, at column `q`: the sum over the tile's rows. -/
theorem colsum_at (src : FVec Ideal S512x1024 .f32) (hφ : FKind.Formats .f32)
    (hacc : (0x00000000#32 : BitVec 32) = 0x00000000#32) (q : Fin 1024) :
    multiReduction .add [0] S1024 src 0x00000000#32 reduces_S512x1024_S1024 hφ hacc (ix1 q) = ∑ r : Fin 512, src (ix2 r q) := by
  refine (Ideal.multiReduction_add_single src 0x00000000#32 reduces_S512x1024_S1024 hφ hacc (ix1 q)).trans ?_
  refine Finset.sum_congr rfl fun r _ => congrArg src ?_
  funext a
  match a with
  | ⟨0, _⟩ => rfl
  | ⟨1, _⟩ => rfl

/-- The pre-activation tile at row `r`, column `q`. -/
theorem pay5_at (x0 : Vec Ideal S512x1024 .f32) (x1 x2 x3 x4 : Vec Ideal S1x1024 .f32) (x5 : Vec Ideal S1024x1024 .bf16)
    (r : Fin 512) (q : Fin 1024) :
    k1_pay5 (F := Ideal) x0 x1 x2 x3 x4 x5 (ix2 r q)
      = ∑ k : Fin 1024, Ideal.sign (bnv (x0 (ix2 r k)) (x1 (ix2 (0 : Fin 1) k)) (x2 (ix2 (0 : Fin 1) k)) (x3 (ix2 (0 : Fin 1) k)) (x4 (ix2 (0 : Fin 1) k)))
          * x5 (ix2 q k) := by
  unfold k1_pay5
  refine (matmul_at _ _ r q).trans ?_
  refine Finset.sum_congr rfl fun k _ => ?_
  refine congrArg₂ (· * ·) ?_ ?_
  · refine (sign_vec_at _ _ _).trans (congrArg Ideal.sign ?_)
    unfold bnv
    refine congrArg₂ (· + ·) (congrArg₂ (· * ·) (congrArg₂ (· * ·) (congrArg₂ (· - ·) ?_ ?_) ?_) ?_) ?_
    · exact congrFun (shapeCast_self x0 _) _
    · exact (broadcastTo_1b_ab_apply _ _ r k).trans (congrFun (shapeCast_self x1 _) _)
    · refine (broadcastTo_1b_ab_apply _ _ r k).trans ?_
      exact congrArg Ideal.rsqrt (congrArg₂ (· + ·) (congrFun (shapeCast_self x2 _) _) rfl)
    · exact (broadcastTo_1b_ab_apply _ _ r k).trans (congrFun (shapeCast_self x3 _) _)
    · exact (broadcastTo_1b_ab_apply _ _ r k).trans (congrFun (shapeCast_self x4 _) _)
  · exact congrFun (shapeCast_self x5 _) _

/-- The noisy binarization of the tile at one element. -/
theorem pay1_at (v37 : FVec Ideal S512x1024 .f32) (v38 : Vec Ideal S512x1024 .f32) (r : Fin 512) (q : Fin 1024) :
    k1_pay1 (F := Ideal) v37 v38 (ix2 r q) = noisy (v37 (ix2 r q)) (v38 (ix2 r q)) := rfl

/-- What is stored is that value narrowed, which over the extended reals is the value. -/
theorem pay2_at (v37 : FVec Ideal S512x1024 .f32) (v38 : Vec Ideal S512x1024 .f32) (r : Fin 512) (q : Fin 1024) :
    k1_pay2 (F := Ideal) v37 v38 (ix2 r q) = noisy (v37 (ix2 r q)) (v38 (ix2 r q)) := rfl

/-- The accumulator after the body, at any of its rows `b` and column `q`: what it held plus the tile's column sum. -/
theorem pay3_at (v37 : FVec Ideal S512x1024 .f32) (v38 : Vec Ideal S512x1024 .f32) (v64 : Vec Ideal S8x1024 .f32)
    (b : Fin 8) (q : Fin 1024) :
    k1_pay3 (F := Ideal) v37 v38 v64 (ix2 b q) = v64 (ix2 b q) + ∑ r : Fin 512, noisy (v37 (ix2 r q)) (v38 (ix2 r q)) := by
  unfold k1_pay3
  refine congrArg₂ (· + ·) (congrFun (shapeCast_self v64 _) _) ?_
  refine (broadcastTo_1b_ab_apply _ _ b q).trans ?_
  refine (congrFun (shapeCast_self _ _) _).trans ?_
  refine (shapeCast_a_1a_apply _ _ (0 : Fin 1) q).trans ?_
  exact colsum_at _ _ _ q

/-- The zero the first point of a core stores into the accumulator. -/
theorem pay4_at (b : Fin 8) (q : Fin 1024) : k1_pay4 (F := Ideal) (ix2 b q) = 0 := Ideal.ofBits_zero_f32

end Cert.BNN.R1
end
-- ==== Proof.Region1Value.lean ====
import proofs.«171548_j65360812310623_2_alg».proof.Proof.Gen.KernelIdeal.Frame
import proofs.«171548_j65360812310623_2_alg».proof.Proof.Region1Pieces
import proofs.«171548_j65360812310623_2_alg».proof.Proof.Region1Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-!
The value of the first middle layer's region, at any contents `V` of the TensorCore's buffers at its entry.

The region runs `32` grid points, `16` per core; point `t` handles rows `512 t … 512 t + 511` of the `16384` samples.
Each point normalizes and binarizes its rows of the input, multiplies by the binarized weights, binarizes the result
with noise, writes that tile to the output array, and adds the tile's column sums into its core's accumulator, which
the first point of the core resets. So the output array ends holding the noisy binarization `nb` of every sample
(`out_nb`), and each of a core's eight accumulator rows ends holding, per column, the sum of `nb` over the core's
`16 * 512` samples (`out_sum`). The accumulator block is written back once per core, after the core's last point.
-/

namespace Cert.BNN.R1
open Cert.KernelIdeal Cert.KernelIdeal.Gen Cert.BNN.K

variable (V : (c : Dev nD) → (b : Ref sig .tc) → Buf (Elt Ideal) ((c : Thread nD τ).loc b))

/-- The seven arrays the layer reads, as the region finds them: the previous layer's activations, the column means,
    variances, scales and shifts, the binarized weights, and the uniform draws. -/
abbrev A0 (c : Dev nD) : S16384x1024.Idx → EReal := V c (Pipeline.arrRef spec1 0)
abbrev A1 (c : Dev nD) : S1x1024.Idx → EReal := V c (Pipeline.arrRef spec1 1)
abbrev A2 (c : Dev nD) : S1x1024.Idx → EReal := V c (Pipeline.arrRef spec1 2)
abbrev A3 (c : Dev nD) : S1x1024.Idx → EReal := V c (Pipeline.arrRef spec1 3)
abbrev A4 (c : Dev nD) : S1x1024.Idx → EReal := V c (Pipeline.arrRef spec1 4)
abbrev A5 (c : Dev nD) : S1024x1024.Idx → EReal := V c (Pipeline.arrRef spec1 5)
abbrev A6 (c : Dev nD) : S16384x1024.Idx → EReal := V c (Pipeline.arrRef spec1 6)

/-- The binarized normalized activation of sample `p`, feature `k`. -/
def s (c : Dev nD) (p : Fin 16384) (k : Fin 1024) : EReal :=
  Ideal.sign (bnv (A0 V c (ix2 p k)) (A1 V c (ix2 (0 : Fin 1) k)) (A2 V c (ix2 (0 : Fin 1) k)) (A3 V c (ix2 (0 : Fin 1) k)) (A4 V c (ix2 (0 : Fin 1) k)))

/-- The pre-activation of sample `p`, unit `q`. -/
def hpre (c : Dev nD) (p : Fin 16384) (q : Fin 1024) : EReal := ∑ k : Fin 1024, s V c p k * A5 V c (ix2 q k)

/-- Its noisy binarization. -/
def nb (c : Dev nD) (p : Fin 16384) (q : Fin 1024) : EReal := noisy (hpre V c p q) (A6 V c (ix2 p q))

/-- The block indices of the nine windows at every grid point: the row-tiled ones move with the point, the
    accumulator's with the core, the others stay. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val / 16 ∧ win1_8.index t (1 : Fin 2) = 0) :=
  (by decide +kernel : ∀ t : Fin grid1.N, _)

/-- A tile of the activations read through window 0 at point `t` is rows `512 t … 512 t + 511` of the array. -/
theorem iblk0_at (c : Dev nD) (t : Fin cfg1.N) (x : S512x1024.Idx) (kk : S16384x1024.Idx)
    (hk0 : (kk 0).val = t.val * 512 + (x 0).val) (hk1 : (kk 1).val = (x 1).val) :
    (iblk1 V c 0 t : Vec Ideal S512x1024 .f32) x = A0 V c kk := by
  obtain ⟨⟨e0, e1⟩, -⟩ := idx_facts t
  unfold iblk1
  rw [View.read_apply]
  show V c (Pipeline.arrRef spec1 0) _ = V c (Pipeline.arrRef spec1 0) _
  refine congrArg _ ?_
  funext a
  apply Fin.ext
  match a with
  | ⟨0, _⟩ => show win1_0.index t 0 * 512 + 1 * (x 0).val = (kk 0).val; rw [e0, hk0]; omega
  | ⟨1, _⟩ => show win1_0.index t 1 * 1024 + 1 * (x 1).val = (kk 1).val; rw [e1, hk1]; omega

/-- The tile of uniform draws read through window 6 at point `t`, likewise. -/
theorem iblk6_at (c : Dev nD) (t : Fin cfg1.N) (x : S512x1024.Idx) (kk : S16384x1024.Idx)
    (hk0 : (kk 0).val = t.val * 512 + (x 0).val) (hk1 : (kk 1).val = (x 1).val) :
    (iblk1 V c 6 t : Vec Ideal S512x1024 .f32) x = A6 V c kk := by
  obtain ⟨-, -, -, -, -, -, ⟨e0, e1⟩, -⟩ := idx_facts t
  unfold iblk1
  rw [View.read_apply]
  show V c (Pipeline.arrRef spec1 6) _ = V c (Pipeline.arrRef spec1 6) _
  refine congrArg _ ?_
  funext a
  apply Fin.ext
  match a with
  | ⟨0, _⟩ => show win1_6.index t 0 * 512 + 1 * (x 0).val = (kk 0).val; rw [e0, hk0]; omega
  | ⟨1, _⟩ => show win1_6.index t 1 * 1024 + 1 * (x 1).val = (kk 1).val; rw [e1, hk1]; omega

/-- The four row vectors and the weight matrix are read whole at every point. -/
theorem iblk1_at (c : Dev nD) (t : Fin cfg1.N) (x : S1x1024.Idx) : (iblk1 V c 1 t : Vec Ideal S1x1024 .f32) x = A1 V c x := by
  obtain ⟨-, ⟨e0, e1⟩, -⟩ := idx_facts t
  unfold iblk1
  rw [View.read_apply]
  show V c (Pipeline.arrRef spec1 1) _ = V c (Pipeline.arrRef spec1 1) _
  refine congrArg _ ?_
  funext a
  apply Fin.ext
  match a with
  | ⟨0, _⟩ => show win1_1.index t 0 * 1 + 1 * (x 0).val = (x 0).val; rw [e0]; omega
  | ⟨1, _⟩ => show win1_1.index t 1 * 1024 + 1 * (x 1).val = (x 1).val; rw [e1]; omega
theorem iblk2_at (c : Dev nD) (t : Fin cfg1.N) (x : S1x1024.Idx) : (iblk1 V c 2 t : Vec Ideal S1x1024 .f32) x = A2 V c x := by
  obtain ⟨-, -, ⟨e0, e1⟩, -⟩ := idx_facts t
  unfold iblk1
  rw [View.read_apply]
  show V c (Pipeline.arrRef spec1 2) _ = V c (Pipeline.arrRef spec1 2) _
  refine congrArg _ ?_
  funext a
  apply Fin.ext
  match a with
  | ⟨0, _⟩ => show win1_2.index t 0 * 1 + 1 * (x 0).val = (x 0).val; rw [e0]; omega
  | ⟨1, _⟩ => show win1_2.index t 1 * 1024 + 1 * (x 1).val = (x 1).val; rw [e1]; omega
theorem iblk3_at (c : Dev nD) (t : Fin cfg1.N) (x : S1x1024.Idx) : (iblk1 V c 3 t : Vec Ideal S1x1024 .f32) x = A3 V c x := by
  obtain ⟨-, -, -, ⟨e0, e1⟩, -⟩ := idx_facts t
  unfold iblk1
  rw [View.read_apply]
  show V c (Pipeline.arrRef spec1 3) _ = V c (Pipeline.arrRef spec1 3) _
  refine congrArg _ ?_
  funext a
  apply Fin.ext
  match a with
  | ⟨0, _⟩ => show win1_3.index t 0 * 1 + 1 * (x 0).val = (x 0).val; rw [e0]; omega
  | ⟨1, _⟩ => show win1_3.index t 1 * 1024 + 1 * (x 1).val = (x 1).val; rw [e1]; omega
theorem iblk4_at (c : Dev nD) (t : Fin cfg1.N) (x : S1x1024.Idx) : (iblk1 V c 4 t : Vec Ideal S1x1024 .f32) x = A4 V c x := by
  obtain ⟨-, -, -, -, ⟨e0, e1⟩, -⟩ := idx_facts t
  unfold iblk1
  rw [View.read_apply]
  show V c (Pipeline.arrRef spec1 4) _ = V c (Pipeline.arrRef spec1 4) _
  refine congrArg _ ?_
  funext a
  apply Fin.ext
  match a with
  | ⟨0, _⟩ => show win1_4.index t 0 * 1 + 1 * (x 0).val = (x 0).val; rw [e0]; omega
  | ⟨1, _⟩ => show win1_4.index t 1 * 1024 + 1 * (x 1).val = (x 1).val; rw [e1]; omega
theorem iblk5_at (c : Dev nD) (t : Fin cfg1.N) (x : S1024x1024.Idx) : (iblk1 V c 5 t : Vec Ideal S1024x1024 .bf16) x = A5 V c x := by
  obtain ⟨-, -, -, -, -, ⟨e0, e1⟩, -⟩ := idx_facts t
  unfold iblk1
  rw [View.read_apply]
  show V c (Pipeline.arrRef spec1 5) _ = V c (Pipeline.arrRef spec1 5) _
  refine congrArg _ ?_
  funext a
  apply Fin.ext
  match a with
  | ⟨0, _⟩ => show win1_5.index t 0 * 1024 + 1 * (x 0).val = (x 0).val; rw [e0]; omega
  | ⟨1, _⟩ => show win1_5.index t 1 * 1024 + 1 * (x 1).val = (x 1).val; rw [e1]; omega

/-- The tile a point computes, over any seven blocks that read the arrays at the rows starting at `T * 512`. -/
theorem tile_core (x0 : Vec Ideal S512x1024 .f32) (x1 x2 x3 x4 : Vec Ideal S1x1024 .f32) (x5 : Vec Ideal S1024x1024 .bf16)
    (x6 : Vec Ideal S512x1024 .f32) (c : Dev nD) (T : ℕ) (hT : T < 32)
    (h0 : ∀ (r : Fin 512) (k : Fin 1024), x0 (ix2 r k) = A0 V c (ix2 ⟨T * 512 + r.val, by omega⟩ k))
    (h1 : ∀ k : Fin 1024, x1 (ix2 (0 : Fin 1) k) = A1 V c (ix2 (0 : Fin 1) k))
    (h2 : ∀ k : Fin 1024, x2 (ix2 (0 : Fin 1) k) = A2 V c (ix2 (0 : Fin 1) k))
    (h3 : ∀ k : Fin 1024, x3 (ix2 (0 : Fin 1) k) = A3 V c (ix2 (0 : Fin 1) k))
    (h4 : ∀ k : Fin 1024, x4 (ix2 (0 : Fin 1) k) = A4 V c (ix2 (0 : Fin 1) k))
    (h5 : ∀ q k : Fin 1024, x5 (ix2 q k) = A5 V c (ix2 q k))
    (h6 : ∀ (r : Fin 512) (q : Fin 1024), x6 (ix2 r q) = A6 V c (ix2 ⟨T * 512 + r.val, by omega⟩ q))
    (r : Fin 512) (q : Fin 1024) :
    noisy (k1_pay5 (F := Ideal) x0 x1 x2 x3 x4 x5 (ix2 r q)) (x6 (ix2 r q)) = nb V c ⟨T * 512 + r.val, by omega⟩ q := by
  unfold nb hpre s
  rw [pay5_at, h6]
  simp only [h0, h1, h2, h3, h4, h5]

/-- The seven blocks of point `t`. -/
theorem tile_at (c : Dev nD) (t : Fin cfg1.N) (r : Fin 512) (q : Fin 1024) :
    noisy (k1_pay5 (F := Ideal) (iblk1 V c 0 t) (iblk1 V c 1 t) (iblk1 V c 2 t) (iblk1 V c 3 t) (iblk1 V c 4 t) (iblk1 V c 5 t) (ix2 r q))
        ((iblk1 V c 6 t : Vec Ideal S512x1024 .f32) (ix2 r q))
      = nb V c ⟨t.val * 512 + r.val, by have := t.isLt; have : cfg1.N = 32 := N_1; omega⟩ q :=
  tile_core V (iblk1 V c 0 t) (iblk1 V c 1 t) (iblk1 V c 2 t) (iblk1 V c 3 t) (iblk1 V c 4 t) (iblk1 V c 5 t) (iblk1 V c 6 t) c t.val
    (by have := t.isLt; have : cfg1.N = 32 := N_1; omega)
    (fun r k => iblk0_at V c t (ix2 r k) (ix2 _ k) rfl rfl)
    (fun k => iblk1_at V c t (ix2 (0 : Fin 1) k))
    (fun k => iblk2_at V c t (ix2 (0 : Fin 1) k))
    (fun k => iblk3_at V c t (ix2 (0 : Fin 1) k))
    (fun k => iblk4_at V c t (ix2 (0 : Fin 1) k))
    (fun q k => iblk5_at V c t (ix2 q k))
    (fun r q => iblk6_at V c t (ix2 r q) (ix2 _ q) rfl rfl)
    r q

theorem lt_rows (t : Fin cfg1.N) (r : Fin 512) : t.val * 512 + r.val < 16384 := by
  have := t.isLt; have : cfg1.N = 32 := N_1; omega

/-- What point `t` leaves in the output tile's buffer, as the body's arithmetic of the point's blocks. -/
theorem out7_eq (c : Dev nD) (t : Fin cfg1.N) :
    (outsAt1 V c t.val t.isLt).1 = k1_pay2 (F := Ideal) (k1_pay5 (F := Ideal) (iblk1 V c 0 t) (iblk1 V c 1 t) (iblk1 V c 2 t) (iblk1 V c 3 t) (iblk1 V c 4 t) (iblk1 V c 5 t)) (iblk1 V c 6 t) := by
  by_cases h0 : t.val % 16 = 0
  · rw [outsAt1_A V c t h0]
    dsimp only
    exact out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    exact out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

/-- It is the noisy binarization of the point's `512` rows. -/
theorem out7_at (c : Dev nD) (t : Fin cfg1.N) (r : Fin 512) (q : Fin 1024) :
    ((outsAt1 V c t.val t.isLt).1 : Vec Ideal S512x1024 .bf16) (ix2 r q) = nb V c ⟨t.val * 512 + r.val, lt_rows t r⟩ q :=
  (congrFun (out7_eq V c t) (ix2 r q)).trans ((pay2_at (k1_pay5 (F := Ideal) (iblk1 V c 0 t) (iblk1 V c 1 t) (iblk1 V c 2 t) (iblk1 V c 3 t) (iblk1 V c 4 t) (iblk1 V c 5 t)) (iblk1 V c 6 t) r q).trans (tile_at V c t r q))

/-- The column sum of the tile of point `T`, at column `q` (zero past the grid). -/
def tsum (c : Dev nD) (T : ℕ) (q : Fin 1024) : EReal :=
  if h : T < 32 then ∑ r : Fin 512, nb V c ⟨T * 512 + r.val, by omega⟩ q else 0

theorem tsum_at (c : Dev nD) (t : Fin cfg1.N) (q : Fin 1024) :
    ∑ r : Fin 512, noisy ((k1_pay5 (F := Ideal) (iblk1 V c 0 t) (iblk1 V c 1 t) (iblk1 V c 2 t) (iblk1 V c 3 t) (iblk1 V c 4 t) (iblk1 V c 5 t)) (ix2 r q)) ((iblk1 V c 6 t : Vec Ideal S512x1024 .f32) (ix2 r q)) = tsum V c t.val q := by
  unfold tsum
  rw [dif_pos (by have := t.isLt; have : cfg1.N = 32 := N_1; omega)]
  exact Finset.sum_congr rfl fun r _ => tile_at V c t r q

/-- At the first point of a core the accumulator is reset, then takes the tile's column sums. -/
theorem out8_A (c : Dev nD) (t : Fin cfg1.N) (h0 : t.val % 16 = 0) :
    (outsAt1 V c t.val t.isLt).2 = k1_pay3 (F := Ideal) (k1_pay5 (F := Ideal) (iblk1 V c 0 t) (iblk1 V c 1 t) (iblk1 V c 2 t) (iblk1 V c 3 t) (iblk1 V c 4 t) (iblk1 V c 5 t)) (iblk1 V c 6 t) (k1_pay4 (F := Ideal)) := by
  rw [outsAt1_A V c t h0]
  dsimp only
  exact out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t)

theorem stepA (c : Dev nD) (t : Fin cfg1.N) (h0 : t.val % 16 = 0) (b : Fin 8) (q : Fin 1024) :
    ((outsAt1 V c t.val t.isLt).2 : Vec Ideal S8x1024 .f32) (ix2 b q) = tsum V c t.val q := by
  refine (congrFun (out8_A V c t h0) (ix2 b q)).trans ((pay3_at (k1_pay5 (F := Ideal) (iblk1 V c 0 t) (iblk1 V c 1 t) (iblk1 V c 2 t) (iblk1 V c 3 t) (iblk1 V c 4 t) (iblk1 V c 5 t)) (iblk1 V c 6 t) (k1_pay4 (F := Ideal)) b q).trans ?_)
  rw [pay4_at, zero_add]
  exact tsum_at V c t q

/-- At every other point it adds them to what the point before left. -/
theorem out8_B (c : Dev nD) (t : Fin cfg1.N) (h0 : ¬t.val % 16 = 0) :
    (outsAt1 V c t.val t.isLt).2 = k1_pay3 (F := Ideal) (k1_pay5 (F := Ideal) (iblk1 V c 0 t) (iblk1 V c 1 t) (iblk1 V c 2 t) (iblk1 V c 3 t) (iblk1 V c 4 t) (iblk1 V c 5 t)) (iblk1 V c 6 t) (outsAt1 V c (t.val - 1) (Nat.lt_of_le_of_lt (Nat.sub_le _ _) t.isLt)).2 := by
  rw [outsAt1_B V c t h0]
  dsimp only
  exact out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

theorem stepB (c : Dev nD) (t : Fin cfg1.N) (h0 : ¬t.val % 16 = 0) (b : Fin 8) (q : Fin 1024) :
    ((outsAt1 V c t.val t.isLt).2 : Vec Ideal S8x1024 .f32) (ix2 b q)
      = ((outsAt1 V c (t.val - 1) (Nat.lt_of_le_of_lt (Nat.sub_le _ _) t.isLt)).2 : Vec Ideal S8x1024 .f32) (ix2 b q) + tsum V c t.val q := by
  refine (congrFun (out8_B V c t h0) (ix2 b q)).trans ((pay3_at (k1_pay5 (F := Ideal) (iblk1 V c 0 t) (iblk1 V c 1 t) (iblk1 V c 2 t) (iblk1 V c 3 t) (iblk1 V c 4 t) (iblk1 V c 5 t)) (iblk1 V c 6 t) (outsAt1 V c (t.val - 1) (Nat.lt_of_le_of_lt (Nat.sub_le _ _) t.isLt)).2 b q).trans ?_)
  exact congrArg (_ + ·) (tsum_at V c t q)

/-- So after point `n` the accumulator holds the column sums of the tiles of its core's points up to `n`. -/
theorem acc_eq (c : Dev nD) : ∀ (n : ℕ) (h : n < cfg1.N) (b : Fin 8) (q : Fin 1024),
    ((outsAt1 V c n h).2 : Vec Ideal S8x1024 .f32) (ix2 b q) = ∑ j ∈ Finset.range (n % 16 + 1), tsum V c (16 * (n / 16) + j) q
  | 0, h, b, q => by
    rw [stepA V c ⟨0, h⟩ rfl b q]
    simp
  | n + 1, h, b, q => by
    by_cases h0 : (n + 1) % 16 = 0
    · rw [stepA V c ⟨n + 1, h⟩ h0 b q, h0, Finset.sum_range_one]
      have e : 16 * ((n + 1) / 16) + 0 = n + 1 := by omega
      rw [e]
    · rw [stepB V c ⟨n + 1, h⟩ h0 b q]
      show ((outsAt1 V c n _).2 : Vec Ideal S8x1024 .f32) (ix2 b q) + _ = _
      rw [acc_eq c n (Nat.lt_of_succ_lt h) b q]
      have e1 : (n + 1) % 16 = n % 16 + 1 := by omega
      have e2 : (n + 1) / 16 = n / 16 := by omega
      have e3 : 16 * (n / 16) + (n % 16 + 1) = n + 1 := by omega
      rw [e1, e2, Finset.sum_range_succ _ (n % 16 + 1), e3]

/-- The output array after the region: the noisy binarization of every sample. -/
def G7 (c : Dev nD) : S16384x1024.Idx → EReal := fun i => nb V c ⟨(i 0).val, idx2_lt0 i⟩ ⟨(i 1).val, idx2_lt1 i⟩

/-- What each point writes back to the output array is its rows of `G7`. -/
theorem flushed7_eq (c : Dev nD) (t : Fin cfg1.N) (hf : (cfg1.win 7).flush t = true) :
    (dat1 V c).flushed 7 t = ((cfg1.win 7).blk t).view.read (Elt Ideal) (G7 V c) := by
  obtain ⟨-, -, -, -, -, -, -, ⟨e0, e1⟩, -⟩ := idx_facts t
  show (cfg1.win 7).cut (grid1.coords t) ((dat1 V c).after 7 t) = _
  rw [after1_7]
  funext j
  rw [View.read_apply]
  have h0 : (j 0).val < 512 := (j 0).isLt
  have h1 : (j 1).val < 1024 := (j 1).isLt
  refine (congrArg (outsAt1 V c t.val t.isLt).1 (eq_ix2 ((cfg1.win 7).xinj (grid1.coords t) j))).trans ?_
  refine (out7_at V c t ⟨(j 0).val, h0⟩ ⟨(j 1).val, h1⟩).trans ?_
  unfold G7
  refine congrArg₂ (nb V c) (Fin.ext ?_) (Fin.ext ?_)
  · show t.val * 512 + (j 0).val = win1_7.index t 0 * 512 + 1 * (j 0).val
    rw [e0]; omega
  · show (j 1).val = win1_7.index t 1 * 1024 + 1 * (j 1).val
    rw [e1]; omega

/-- Row `i` of the output array is written by point `i / 512`. -/
theorem cover7 (c : Dev nD) (i : S16384x1024.Idx) :
    ∃ t : Fin cfg1.N, (cfg1.win 7).flush t = true ∧ i ∈ ((cfg1.win 7).blk t).view.set := by
  have hi0 : (i 0).val < 16384 := idx2_lt0 i
  have hi1 : (i 1).val < 1024 := idx2_lt1 i
  have hN : cfg1.N = 32 := N_1
  have ht : (i 0).val / 512 < cfg1.N := by omega
  obtain ⟨-, -, -, -, -, -, -, ⟨e0, e1⟩, -⟩ := idx_facts ⟨(i 0).val / 512, ht⟩
  refine ⟨⟨(i 0).val / 512, ht⟩, flush1_7 _, ?_⟩
  show i ∈ ((View.whole main_v27_0).slice (win1_7.rect ⟨(i 0).val / 512, ht⟩)).set
  rw [View.set_slice_whole, Rect.mem_set_unit]
  intro a
  match a with
  | ⟨0, _⟩ =>
    show win1_7.index ⟨(i 0).val / 512, ht⟩ 0 * 512 ≤ (i 0).val ∧ (i 0).val < win1_7.index ⟨(i 0).val / 512, ht⟩ 0 * 512 + 512
    rw [e0]; show (i 0).val / 512 * 512 ≤ (i 0).val ∧ (i 0).val < (i 0).val / 512 * 512 + 512; omega
  | ⟨1, _⟩ =>
    show win1_7.index ⟨(i 0).val / 512, ht⟩ 1 * 1024 ≤ (i 1).val ∧ (i 1).val < win1_7.index ⟨(i 0).val / 512, ht⟩ 1 * 1024 + 1024
    rw [e1]; omega

theorem final7 (c : Dev nD) : (dat1 V c).arrAt 7 cfg1.N = G7 V c :=
  (dat1 V c).arrAt_eq_of_cover 7 (G7 V c) (flushed7_eq V c) (cover7 c)

/-- THE OUTPUT ARRAY: sample `p`, unit `q` holds the noisy binarization of the pre-activation. -/
theorem out_nb (c : Dev nD) (p : Fin 16384) (q : Fin 1024) : (dat1 V c).arrAt 7 cfg1.N (ix2 p q) = nb V c p q :=
  congrFun (final7 V c) (ix2 p q)

theorem lt_acc (i : S16x1024.Idx) (j : Fin 16) (r : Fin 512) : ((i 0).val / 8 * 16 + j.val) * 512 + r.val < 16384 := by
  have := idx2_lt0 i; omega

/-- The accumulator array after the region: each of a core's eight rows holds the column sums over the core's
    sixteen tiles. -/
def G8 (c : Dev nD) : S16x1024.Idx → EReal := fun i =>
  ∑ j : Fin 16, ∑ r : Fin 512, nb V c ⟨((i 0).val / 8 * 16 + j.val) * 512 + r.val, lt_acc i j r⟩ ⟨(i 1).val, idx2_lt1 i⟩

/-- The accumulator is written back by the last point of each core, holding the core's column sums. -/
theorem flushed8_eq (c : Dev nD) (t : Fin cfg1.N) (hf : (cfg1.win 8).flush t = true) :
    (dat1 V c).flushed 8 t = ((cfg1.win 8).blk t).view.read (Elt Ideal) (G8 V c) := by
  have h15 : t.val % 16 = 15 := (flush1_8 t).mp hf
  have hN : cfg1.N = 32 := N_1
  have htl := t.isLt
  obtain ⟨-, -, -, -, -, -, -, -, ⟨e0, e1⟩⟩ := idx_facts t
  show (cfg1.win 8).cut (grid1.coords t) ((dat1 V c).after 8 t) = _
  rw [after1_8]
  funext j
  rw [View.read_apply]
  have h0 : (j 0).val < 8 := (j 0).isLt
  have h1 : (j 1).val < 1024 := (j 1).isLt
  refine (congrArg (outsAt1 V c t.val t.isLt).2 (eq_ix2 ((cfg1.win 8).xinj (grid1.coords t) j))).trans ?_
  refine (acc_eq V c t.val t.isLt ⟨(j 0).val, h0⟩ ⟨(j 1).val, h1⟩).trans ?_
  rw [h15]
  show ∑ s ∈ Finset.range 16, _ = _
  rw [Finset.sum_range]
  unfold G8
  refine Finset.sum_congr rfl fun s _ => ?_
  unfold tsum
  rw [dif_pos (by omega)]
  refine Finset.sum_congr rfl fun r _ => congrArg₂ (nb V c) (Fin.ext ?_) (Fin.ext ?_)
  · show (16 * (t.val / 16) + s.val) * 512 + r.val = ((win1_8.index t 0 * 8 + 1 * (j 0).val) / 8 * 16 + s.val) * 512 + r.val
    rw [e0]; omega
  · show (j 1).val = win1_8.index t 1 * 1024 + 1 * (j 1).val
    rw [e1]; omega

/-- Row `i` of the accumulator array is written by the last point of core `i / 8`. -/
theorem cover8 (c : Dev nD) (i : S16x1024.Idx) :
    ∃ t : Fin cfg1.N, (cfg1.win 8).flush t = true ∧ i ∈ ((cfg1.win 8).blk t).view.set := by
  have hi0 : (i 0).val < 16 := idx2_lt0 i
  have hi1 : (i 1).val < 1024 := idx2_lt1 i
  have hN : cfg1.N = 32 := N_1
  have ht : (i 0).val / 8 * 16 + 15 < cfg1.N := by omega
  obtain ⟨-, -, -, -, -, -, -, -, ⟨e0, e1⟩⟩ := idx_facts ⟨(i 0).val / 8 * 16 + 15, ht⟩
  refine ⟨⟨(i 0).val / 8 * 16 + 15, ht⟩, (flush1_8 _).mpr (by show ((i 0).val / 8 * 16 + 15) % 16 = 15; omega), ?_⟩
  show i ∈ ((View.whole main_v27_1).slice (win1_8.rect ⟨(i 0).val / 8 * 16 + 15, ht⟩)).set
  rw [View.set_slice_whole, Rect.mem_set_unit]
  intro a
  match a with
  | ⟨0, _⟩ =>
    show win1_8.index ⟨(i 0).val / 8 * 16 + 15, ht⟩ 0 * 8 ≤ (i 0).val ∧ (i 0).val < win1_8.index ⟨(i 0).val / 8 * 16 + 15, ht⟩ 0 * 8 + 8
    rw [e0]; show ((i 0).val / 8 * 16 + 15) / 16 * 8 ≤ (i 0).val ∧ (i 0).val < ((i 0).val / 8 * 16 + 15) / 16 * 8 + 8; omega
  | ⟨1, _⟩ =>
    show win1_8.index ⟨(i 0).val / 8 * 16 + 15, ht⟩ 1 * 1024 ≤ (i 1).val ∧ (i 1).val < win1_8.index ⟨(i 0).val / 8 * 16 + 15, ht⟩ 1 * 1024 + 1024
    rw [e1]; omega

theorem final8 (c : Dev nD) : (dat1 V c).arrAt 8 cfg1.N = G8 V c :=
  (dat1 V c).arrAt_eq_of_cover 8 (G8 V c) (flushed8_eq V c) (cover8 c)

/-- THE ACCUMULATOR ARRAY: row `a`, column `q` holds the sum of column `q` of the output over the `16 * 512` samples
    of core `a / 8`. -/
theorem out_sum (c : Dev nD) (a : Fin 16) (q : Fin 1024) :
    (dat1 V c).arrAt 8 cfg1.N (ix2 a q)
      = ∑ i : Fin 16, ∑ r : Fin 512, nb V c ⟨((a.val / 8) * 16 + i.val) * 512 + r.val, by omega⟩ q :=
  congrFun (final8 V c) (ix2 a q)

end Cert.BNN.R1
end
-- ==== Proof.Region2Pieces.lean ====
import proofs.«171548_j65360812310623_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
What one grid point of the second middle layer leaves in its two output buffers, as terms of the blocks it loads.

The layer's body stores the noisy binarization of its 512 x 1024 tile once, and keeps a running column sum in an
8 x 1024 accumulator: at the first point of a core the accumulator is first set to zero and then the tile's column
sums are added to it; at every other point the column sums are added to what the point before left. The four lemmas
below read the stores of the two control cases back as the body's pure arithmetic.
-/

namespace Cert.BNN.R2
open Cert.KernelIdeal Cert.KernelIdeal.Gen

variable {F : FTy → Type} [FloatOps F]

theorem hz : (![0, 0] : Fin 2 → Nat) = fun _ => 0 := funext fun a => by fin_cases a <;> rfl

theorem out_B_7 (c : Dev nD) (i : grid2.Coords) (a2 : Memref sig .tc .vmem S512x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : ¬cond2_0 i) (x0 : Vec F S512x1024 .bf16) (x1 : Vec F S1x1024 .f32) (x2 : Vec F S1x1024 .f32) (x3 : Vec F S1x1024 .f32) (x4 : Vec F S1x1024 .f32) (x5 : Vec F S1024x1024 .bf16) (x6 : Vec F S512x1024 .f32) (xo8 : Vec F S8x1024 .f32) :
    out2_B_7 c i a2 h2 a3 h3 a4 h4 a5 h5 a6 h6 a7 h7 a8 h8 a9 h9 a10 h10 hc x0 x1 x2 x3 x4 x5 x6 xo8 = k2_pay2 (k2_pay5 x0 x1 x2 x3 x4 x5) x6 := by
  unfold out2_B_7
  rw [View.read_writes_eq_canon _ _ _ (cover2_B_7 c i a2 h2 a3 h3 a4 h4 a5 h5 a6 h6 a7 h7 a8 h8 a9 h9 a10 h10 hc x0 x1 x2 x3 x4 x5 x6 xo8)]
  unfold kernelRun2_B
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz]

theorem out_A_7 (c : Dev nD) (i : grid2.Coords) (a2 : Memref sig .tc .vmem S512x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : cond2_0 i) (x0 : Vec F S512x1024 .bf16) (x1 : Vec F S1x1024 .f32) (x2 : Vec F S1x1024 .f32) (x3 : Vec F S1x1024 .f32) (x4 : Vec F S1x1024 .f32) (x5 : Vec F S1024x1024 .bf16) (x6 : Vec F S512x1024 .f32) :
    out2_A_7 c i a2 h2 a3 h3 a4 h4 a5 h5 a6 h6 a7 h7 a8 h8 a9 h9 a10 h10 hc x0 x1 x2 x3 x4 x5 x6 = k2_pay2 (k2_pay5 x0 x1 x2 x3 x4 x5) x6 := by
  unfold out2_A_7
  rw [View.read_writes_eq_canon _ _ _ (cover2_A_7 c i a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz]

theorem out_B_8 (c : Dev nD) (i : grid2.Coords) (a2 : Memref sig .tc .vmem S512x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : ¬cond2_0 i) (x0 : Vec F S512x1024 .bf16) (x1 : Vec F S1x1024 .f32) (x2 : Vec F S1x1024 .f32) (x3 : Vec F S1x1024 .f32) (x4 : Vec F S1x1024 .f32) (x5 : Vec F S1024x1024 .bf16) (x6 : Vec F S512x1024 .f32) (xo8 : Vec F S8x1024 .f32) :
    out2_B_8 c i a2 h2 a3 h3 a4 h4 a5 h5 a6 h6 a7 h7 a8 h8 a9 h9 a10 h10 hc x0 x1 x2 x3 x4 x5 x6 xo8 = k2_pay3 (k2_pay5 x0 x1 x2 x3 x4 x5) x6 xo8 := by
  unfold out2_B_8
  rw [View.read_writes_eq_canon _ _ _ (cover2_B_8 c i a2 h2 a3 h3 a4 h4 a5 h5 a6 h6 a7 h7 a8 h8 a9 h9 a10 h10 hc x0 x1 x2 x3 x4 x5 x6 xo8)]
  unfold kernelRun2_B
  dsimp only
  sl_unfold_words
  rw [View.canon_unit_zero hz]
  simp only [View.readAt_eq_ld, h2.read_unread, h3.read_unread, h4.read_unread, h5.read_unread, h6.read_unread, h7.read_unread, h8.read_unread, h10.read_unread,
    View.ld_unit_zero (S := S512x1024) hz, View.ld_unit_zero (S := S1x1024) hz, View.ld_unit_zero (S := S1024x1024) hz, View.ld_unit_zero (S := S8x1024) hz]

theorem out_A_8 (c : Dev nD) (i : grid2.Coords) (a2 : Memref sig .tc .vmem S512x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S512x1024 .f32) (h8 : a8.IsWhole) (a9 : Memref sig .tc .vmem S512x1024 .bf16) (h9 : a9.IsWhole) (a10 : Memref sig .tc .vmem S8x1024 .f32) (h10 : a10.IsWhole) (hc : cond2_0 i) (x0 : Vec F S512x1024 .bf16) (x1 : Vec F S1x1024 .f32) (x2 : Vec F S1x1024 .f32) (x3 : Vec F S1x1024 .f32) (x4 : Vec F S1x1024 .f32) (x5 : Vec F S1024x1024 .bf16) (x6 : Vec F S512x1024 .f32) :
    out2_A_8 c i a2 h2 a3 h3 a4 h4 a5 h5 a6 h6 a7 h7 a8 h8 a9 h9 a10 h10 hc x0 x1 x2 x3 x4 x5 x6 = k2_pay3 (k2_pay5 x0 x1 x2 x3 x4 x5) x6 k2_pay4 := by
  unfold out2_A_8
  rw [View.read_writes_eq_canon _ _ _ (cover2_A_8 c i a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S8x1024) hz, View.readCov_unit_zero (S := S8x1024) _ hz]
  simp only [View.readAt_eq_ld, h2.read_unread, h3.read_unread, h4.read_unread, h5.read_unread, h6.read_unread, h7.read_unread, h8.read_unread,
    View.ld_unit_zero (S := S512x1024) hz, View.ld_unit_zero (S := S1x1024) hz, View.ld_unit_zero (S := S1024x1024) hz, View.ld_unit_zero (S := S8x1024) hz]

end Cert.BNN.R2
end
-- ==== Proof.Region2Payload.lean ====
import proofs.«171548_j65360812310623_2_alg».proof.Proof.Gen.KernelIdeal.Skeleton
import proofs.«171548_j65360812310623_2_alg».proof.Proof.KPointwise
import Idealize.ShloMosaic.Lib.ValueIdx
import Idealize.ShloMosaic.Lib.ValueLayout
import Idealize.ShloMosaic.Lib.Pipeline.Value
import Idealize.ShloMosaic.PureOps.Ideal.Laws

/-!
The arithmetic of the second middle layer's body, read at one element over the extended reals.

At row r and column q of a 512 x 1024 tile the body computes: the pre-activation, the sum over k of the
sign of the normalized input (r, k) times the binarized weight (q, k); its noisy binarization by the uniform
draw at (r, q); and, for every row of the 8 x 1024 accumulator, the accumulator's entry plus the sum over the
tile's 512 rows of the binarized column q.  The input tile arrives in the narrow format and is widened first,
which over the extended reals changes nothing.
-/

set_option maxRecDepth 16384

noncomputable section

open Idealize.ShloMosaic Idealize.ShloMosaic.ValueIdx

namespace Cert.BNN.R2
open Cert.KernelIdeal Cert.KernelIdeal.Gen Cert.BNN.K

/-- The layer's matrix product contracts the second axis of both operands. -/
abbrev D2 : DotDims S512x1024 S1024x1024 S512x1024 := dot_S512x1024_S1024x1024_S512x1024_1_1_0_0_n_n

theorem D2_lhs0 (i : S512x1024.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs1 (i : S512x1024.Idx) (q : D2.contr.Idx) : (D2.lhsIdx i q 1).val = (q ⟨0, by decide⟩).val :=
  D2.lhsIdx_val_of_single rfl i q
theorem D2_rhs0 (i : S512x1024.Idx) (q : D2.contr.Idx) : (D2.rhsIdx i q 0).val = (i 1).val := by
  unfold DotDims.rhsIdx
  rw [dif_neg (show ¬(0 : Fin S1024x1024.rank) ∈ D2.rhsBatch by decide), dif_pos (show (0 : Fin S1024x1024.rank) ∈ D2.rhsNonContracting by decide)]
  rfl
theorem D2_rhs1 (i : S512x1024.Idx) (q : D2.contr.Idx) : (D2.rhsIdx i q 1).val = (q ⟨0, by decide⟩).val :=
  D2.rhsIdx_val_of_single rfl i q

/-- The product into the zero accumulator, at row `r` and column `q`: the sum over `k` of `lhs (r, k) * rhs (q, k)`. -/
theorem matmul_at (lhs : FVec Ideal S512x1024 .bf16) (rhs : FVec Ideal S1024x1024 .bf16) (r : Fin 512) (q : Fin 1024) :
    matmul D2 none lhs rhs (constant (F := Ideal) S512x1024 .f32 0x00000000#32) (ix2 r q)
      = ∑ k : Fin 1024, lhs (ix2 r k) * rhs (ix2 q k) := by
  show FloatOps.matmul D2 none lhs rhs _ (ix2 r q) = _
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 r q) ((contrEquiv1 D2 1024 rfl rfl).symm k) = ix2 r k := funext fun a => Fin.ext (by
    match a with
    | ⟨0, _⟩ => exact D2_lhs0 _ _
    | ⟨1, _⟩ => exact (D2_lhs1 _ _).trans hk)
  have er : D2.rhsIdx (ix2 r q) ((contrEquiv1 D2 1024 rfl rfl).symm k) = ix2 q k := funext fun a => Fin.ext (by
    match a with
    | ⟨0, _⟩ => exact D2_rhs0 _ _
    | ⟨1, _⟩ => exact (D2_rhs1 _ _).trans hk)
  rw [el, er]

/-- The body's sign of a vector, narrowed to the matrix unit's format, is the sign of the element. -/
theorem sign_vec_at {s : Shape} (X : FVec Ideal s .f32) (h : FTy.bf16.bits < FTy.f32.bits) (j : s.Idx) :
    truncf .bf16 (select (cmpf .ogt (absf X) (broadcast s (Scalar.ofBits (F := Ideal) .f32 0x00000000#32)))
        (select (cmpf .olt X (constant s .f32 0x00000000#32)) (constant s .f32 0xBF800000#32) (constant s .f32 0x3F800000#32)) X) h j
      = Ideal.sign (X j) :=
  Ideal.jnp_sign_eq_sign_f32 (X j)

/-- The column sum of a tile, at column `q`: the sum over the tile's rows. -/
theorem colsum_at (src : FVec Ideal S512x1024 .f32) (hφ : FKind.Formats .f32)
    (hacc : (0x00000000#32 : BitVec 32) = 0x00000000#32) (q : Fin 1024) :
    multiReduction .add [0] S1024 src 0x00000000#32 reduces_S512x1024_S1024 hφ hacc (ix1 q) = ∑ r : Fin 512, src (ix2 r q) := by
  refine (Ideal.multiReduction_add_single src 0x00000000#32 reduces_S512x1024_S1024 hφ hacc (ix1 q)).trans ?_
  refine Finset.sum_congr rfl fun r _ => congrArg src ?_
  funext a
  match a with
  | ⟨0, _⟩ => rfl
  | ⟨1, _⟩ => rfl

/-- The pre-activation tile at row `r`, column `q`. -/
theorem pay5_at (x0 : Vec Ideal S512x1024 .bf16) (x1 x2 x3 x4 : Vec Ideal S1x1024 .f32) (x5 : Vec Ideal S1024x1024 .bf16)
    (r : Fin 512) (q : Fin 1024) :
    k2_pay5 (F := Ideal) x0 x1 x2 x3 x4 x5 (ix2 r q)
      = ∑ k : Fin 1024, Ideal.sign (bnv (x0 (ix2 r k)) (x1 (ix2 (0 : Fin 1) k)) (x2 (ix2 (0 : Fin 1) k)) (x3 (ix2 (0 : Fin 1) k)) (x4 (ix2 (0 : Fin 1) k)))
          * x5 (ix2 q k) := by
  unfold k2_pay5
  refine (matmul_at _ _ r q).trans ?_
  refine Finset.sum_congr rfl fun k _ => ?_
  refine congrArg₂ (· * ·) ?_ ?_
  · refine (sign_vec_at _ _ _).trans (congrArg Ideal.sign ?_)
    unfold bnv
    refine congrArg₂ (· + ·) (congrArg₂ (· * ·) (congrArg₂ (· * ·) (congrArg₂ (· - ·) ?_ ?_) ?_) ?_) ?_
    · exact congrFun (shapeCast_self x0 _) _
    · exact (broadcastTo_1b_ab_apply _ _ r k).trans (congrFun (shapeCast_self x1 _) _)
    · refine (broadcastTo_1b_ab_apply _ _ r k).trans ?_
      exact congrArg Ideal.rsqrt (congrArg₂ (· + ·) (congrFun (shapeCast_self x2 _) _) rfl)
    · exact (broadcastTo_1b_ab_apply _ _ r k).trans (congrFun (shapeCast_self x3 _) _)
    · exact (broadcastTo_1b_ab_apply _ _ r k).trans (congrFun (shapeCast_self x4 _) _)
  · exact congrFun (shapeCast_self x5 _) _

/-- The noisy binarization of the tile at one element. -/
theorem pay1_at (v37 : FVec Ideal S512x1024 .f32) (v38 : Vec Ideal S512x1024 .f32) (r : Fin 512) (q : Fin 1024) :
    k2_pay1 (F := Ideal) v37 v38 (ix2 r q) = noisy (v37 (ix2 r q)) (v38 (ix2 r q)) := rfl

/-- What is stored is that value narrowed, which over the extended reals is the value. -/
theorem pay2_at (v37 : FVec Ideal S512x1024 .f32) (v38 : Vec Ideal S512x1024 .f32) (r : Fin 512) (q : Fin 1024) :
    k2_pay2 (F := Ideal) v37 v38 (ix2 r q) = noisy (v37 (ix2 r q)) (v38 (ix2 r q)) := rfl

/-- The accumulator after the body, at any of its rows `b` and column `q`: what it held plus the tile's column sum. -/
theorem pay3_at (v37 : FVec Ideal S512x1024 .f32) (v38 : Vec Ideal S512x1024 .f32) (v64 : Vec Ideal S8x1024 .f32)
    (b : Fin 8) (q : Fin 1024) :
    k2_pay3 (F := Ideal) v37 v38 v64 (ix2 b q) = v64 (ix2 b q) + ∑ r : Fin 512, noisy (v37 (ix2 r q)) (v38 (ix2 r q)) := by
  unfold k2_pay3
  refine congrArg₂ (· + ·) (congrFun (shapeCast_self v64 _) _) ?_
  refine (broadcastTo_1b_ab_apply _ _ b q).trans ?_
  refine (congrFun (shapeCast_self _ _) _).trans ?_
  refine (shapeCast_a_1a_apply _ _ (0 : Fin 1) q).trans ?_
  exact colsum_at _ _ _ q

/-- The zero the first point of a core stores into the accumulator. -/
theorem pay4_at (b : Fin 8) (q : Fin 1024) : k2_pay4 (F := Ideal) (ix2 b q) = 0 := Ideal.ofBits_zero_f32

end Cert.BNN.R2
end
-- ==== Proof.Region2Value.lean ====
/-
  The second middle layer's two output arrays, entry by entry.

  The region walks the 16384 rows in 32 blocks of 512, sixteen blocks on each of two cores.  On a block it normalizes
  each activation by its column's mean, variance, scale and shift, takes the sign, multiplies the block of signs by the
  transposed weights, and replaces each pre-activation by its noisy binarization with the uniform draw at the same
  place.  That tile is written to the first output array: row p is written by block p / 512, and the 32 blocks cover
  every row.  The second output is a per-core accumulator of eight equal rows: at a core's first block it is set to
  zero and the tile's column sums are added; at each later block the tile's column sums are added to what the block
  before left; it is written back after the core's sixteenth block.  So after block n the accumulator holds the sum of
  the column sums of the blocks of n's core up to n, and what is written back is the sum over all sixteen blocks of
  the core, that is, over the core's 8192 rows.
-/
import proofs.«171548_j65360812310623_2_alg».proof.Proof.Gen.KernelIdeal.Frame
import proofs.«171548_j65360812310623_2_alg».proof.Proof.KPointwise
import proofs.«171548_j65360812310623_2_alg».proof.Proof.Region2Pieces
import proofs.«171548_j65360812310623_2_alg».proof.Proof.Region2Payload
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.BNN.R2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The layer's tables, from the arrays the region finds -/

/-- The sign of the normalized activation at row p, column k. -/
def s (c : Dev nD) (p : Fin 16384) (k : Fin 1024) : EReal :=
  Ideal.sign (K.bnv ((V c (Pipeline.arrRef spec2 0) : S16384x1024.Idx → EReal) (ix2 p k))
    ((V c (Pipeline.arrRef spec2 1) : S1x1024.Idx → EReal) (ix2 (0 : Fin 1) k))
    ((V c (Pipeline.arrRef spec2 2) : S1x1024.Idx → EReal) (ix2 (0 : Fin 1) k))
    ((V c (Pipeline.arrRef spec2 3) : S1x1024.Idx → EReal) (ix2 (0 : Fin 1) k))
    ((V c (Pipeline.arrRef spec2 4) : S1x1024.Idx → EReal) (ix2 (0 : Fin 1) k)))

/-- The pre-activation at row p, column q: the signs of row p against row q of the weights. -/
def hpre (c : Dev nD) (p : Fin 16384) (q : Fin 1024) : EReal :=
  ∑ k : Fin 1024, s V c p k * (V c (Pipeline.arrRef spec2 5) : S1024x1024.Idx → EReal) (ix2 q k)

/-- The noisy binarization of the pre-activation with the uniform draw at the same place. -/
def nb (c : Dev nD) (p : Fin 16384) (q : Fin 1024) : EReal :=
  K.noisy (hpre V c p q) ((V c (Pipeline.arrRef spec2 6) : S16384x1024.Idx → EReal) (ix2 p q))

/-! ## The blocks -/

/-- The grid has 32 points, one per block of 512 rows. -/
theorem t_lt (t : Fin cfg2.N) : t.val < 32 := lt_of_lt_of_eq t.isLt N_2

/-- Row r of block n is a row of the array. -/
theorem row_lt (n : ℕ) (hn : n < 32) (r : Fin 512) : n * 512 + r.val < 16384 := by
  have := r.isLt; omega

/-- The printed index maps, decided over the grid: the activation block, the draws' block and the first output's
    block of point t are block row t; the accumulator's block is the core, t / 16; every other window stays at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val / 16 ∧ win2_8.index t (1 : Fin 2) = 0 :=
  (by decide +kernel : ∀ t : Fin grid2.N, _)

/-- The activation block at point t is rows 512 t … 512 t + 511 of the first input array. -/
theorem iblk0_apply (c : Dev nD) (t : Fin cfg2.N) (r : Fin 512) (k : Fin 1024) :
    (iblk2 V c 0 t : Vec Ideal S512x1024 .bf16) (ix2 r k)
      = (V c (Pipeline.arrRef spec2 0) : S16384x1024.Idx → EReal) (ix2 (⟨t.val * 512 + r.val, row_lt _ (t_lt t) r⟩ : Fin 16384) k) := by
  obtain ⟨e0, e1, -⟩ := idx_facts t
  unfold iblk2
  rw [View.read_apply]
  refine congrArg (V c (Pipeline.arrRef spec2 0) : S16384x1024.Idx → EReal) (funext fun a => Fin.ext ?_)
  match a with
  | ⟨0, _⟩ => show win2_0.index t (0 : Fin 2) * 512 + 1 * r.val = t.val * 512 + r.val; rw [e0]; omega
  | ⟨1, _⟩ => show win2_0.index t (1 : Fin 2) * 1024 + 1 * k.val = k.val; rw [e1]; omega

/-- Window 1's block at every point is the whole [1, 1024] array. -/
theorem iblk1_apply (c : Dev nD) (t : Fin cfg2.N) (k : Fin 1024) :
    (iblk2 V c 1 t : Vec Ideal S1x1024 .f32) (ix2 (0 : Fin 1) k)
      = (V c (Pipeline.arrRef spec2 1) : S1x1024.Idx → EReal) (ix2 (0 : Fin 1) k) := by
  have e := idx_facts t
  unfold iblk2
  rw [View.read_apply]
  refine congrArg (V c (Pipeline.arrRef spec2 1) : S1x1024.Idx → EReal) (funext fun a => Fin.ext ?_)
  match a with
  | ⟨0, _⟩ => show win2_1.index t (0 : Fin 2) * 1 + 1 * 0 = 0; rw [e.2.2.1]
  | ⟨1, _⟩ => show win2_1.index t (1 : Fin 2) * 1024 + 1 * k.val = k.val; rw [e.2.2.2.1]; omega

/-- Window 2's block at every point is the whole [1, 1024] array. -/
theorem iblk2_apply (c : Dev nD) (t : Fin cfg2.N) (k : Fin 1024) :
    (iblk2 V c 2 t : Vec Ideal S1x1024 .f32) (ix2 (0 : Fin 1) k)
      = (V c (Pipeline.arrRef spec2 2) : S1x1024.Idx → EReal) (ix2 (0 : Fin 1) k) := by
  have e := idx_facts t
  unfold iblk2
  rw [View.read_apply]
  refine congrArg (V c (Pipeline.arrRef spec2 2) : S1x1024.Idx → EReal) (funext fun a => Fin.ext ?_)
  match a with
  | ⟨0, _⟩ => show win2_2.index t (0 : Fin 2) * 1 + 1 * 0 = 0; rw [e.2.2.2.2.1]
  | ⟨1, _⟩ => show win2_2.index t (1 : Fin 2) * 1024 + 1 * k.val = k.val; rw [e.2.2.2.2.2.1]; omega

/-- Window 3's block at every point is the whole [1, 1024] array. -/
theorem iblk3_apply (c : Dev nD) (t : Fin cfg2.N) (k : Fin 1024) :
    (iblk2 V c 3 t : Vec Ideal S1x1024 .f32) (ix2 (0 : Fin 1) k)
      = (V c (Pipeline.arrRef spec2 3) : S1x1024.Idx → EReal) (ix2 (0 : Fin 1) k) := by
  have e := idx_facts t
  unfold iblk2
  rw [View.read_apply]
  refine congrArg (V c (Pipeline.arrRef spec2 3) : S1x1024.Idx → EReal) (funext fun a => Fin.ext ?_)
  match a with
  | ⟨0, _⟩ => show win2_3.index t (0 : Fin 2) * 1 + 1 * 0 = 0; rw [e.2.2.2.2.2.2.1]
  | ⟨1, _⟩ => show win2_3.index t (1 : Fin 2) * 1024 + 1 * k.val = k.val; rw [e.2.2.2.2.2.2.2.1]; omega

/-- Window 4's block at every point is the whole [1, 1024] array. -/
theorem iblk4_apply (c : Dev nD) (t : Fin cfg2.N) (k : Fin 1024) :
    (iblk2 V c 4 t : Vec Ideal S1x1024 .f32) (ix2 (0 : Fin 1) k)
      = (V c (Pipeline.arrRef spec2 4) : S1x1024.Idx → EReal) (ix2 (0 : Fin 1) k) := by
  have e := idx_facts t
  unfold iblk2
  rw [View.read_apply]
  refine congrArg (V c (Pipeline.arrRef spec2 4) : S1x1024.Idx → EReal) (funext fun a => Fin.ext ?_)
  match a with
  | ⟨0, _⟩ => show win2_4.index t (0 : Fin 2) * 1 + 1 * 0 = 0; rw [e.2.2.2.2.2.2.2.2.1]
  | ⟨1, _⟩ => show win2_4.index t (1 : Fin 2) * 1024 + 1 * k.val = k.val; rw [e.2.2.2.2.2.2.2.2.2.1]; omega

/-- The weight block at every point is the whole [1024, 1024] array. -/
theorem iblk5_apply (c : Dev nD) (t : Fin cfg2.N) (q k : Fin 1024) :
    (iblk2 V c 5 t : Vec Ideal S1024x1024 .bf16) (ix2 q k)
      = (V c (Pipeline.arrRef spec2 5) : S1024x1024.Idx → EReal) (ix2 q k) := by
  have e := idx_facts t
  unfold iblk2
  rw [View.read_apply]
  refine congrArg (V c (Pipeline.arrRef spec2 5) : S1024x1024.Idx → EReal) (funext fun a => Fin.ext ?_)
  match a with
  | ⟨0, _⟩ => show win2_5.index t (0 : Fin 2) * 1024 + 1 * q.val = q.val; rw [e.2.2.2.2.2.2.2.2.2.2.1]; omega
  | ⟨1, _⟩ => show win2_5.index t (1 : Fin 2) * 1024 + 1 * k.val = k.val; rw [e.2.2.2.2.2.2.2.2.2.2.2.1]; omega

/-- The draws' block at point t is rows 512 t … 512 t + 511 of the array of draws. -/
theorem iblk6_apply (c : Dev nD) (t : Fin cfg2.N) (r : Fin 512) (q : Fin 1024) :
    (iblk2 V c 6 t : Vec Ideal S512x1024 .f32) (ix2 r q)
      = (V c (Pipeline.arrRef spec2 6) : S16384x1024.Idx → EReal) (ix2 (⟨t.val * 512 + r.val, row_lt _ (t_lt t) r⟩ : Fin 16384) q) := by
  have e := idx_facts t
  unfold iblk2
  rw [View.read_apply]
  refine congrArg (V c (Pipeline.arrRef spec2 6) : S16384x1024.Idx → EReal) (funext fun a => Fin.ext ?_)
  match a with
  | ⟨0, _⟩ => show win2_6.index t (0 : Fin 2) * 512 + 1 * r.val = t.val * 512 + r.val; rw [e.2.2.2.2.2.2.2.2.2.2.2.2.1]; omega
  | ⟨1, _⟩ => show win2_6.index t (1 : Fin 2) * 1024 + 1 * q.val = q.val; rw [e.2.2.2.2.2.2.2.2.2.2.2.2.2.1]; omega

/-! ## One tile -/

/-- The pre-activation tile of point t at (r, q) is the pre-activation at row 512 t + r. -/
theorem tile_hpre (c : Dev nD) (t : Fin cfg2.N) (r : Fin 512) (q : Fin 1024) :
    k2_pay5 (F := Ideal) (iblk2 V c 0 t) (iblk2 V c 1 t) (iblk2 V c 2 t) (iblk2 V c 3 t) (iblk2 V c 4 t) (iblk2 V c 5 t) (ix2 r q)
      = hpre V c ⟨t.val * 512 + r.val, row_lt _ (t_lt t) r⟩ q := by
  refine (pay5_at _ _ _ _ _ _ r q).trans ?_
  unfold hpre s
  refine Finset.sum_congr rfl fun k _ => ?_
  rw [iblk0_apply, iblk1_apply, iblk2_apply, iblk3_apply, iblk4_apply, iblk5_apply]

/-- The noisy tile of point t at (r, q) is the noisy binarization at row 512 t + r. -/
theorem tile_nb (c : Dev nD) (t : Fin cfg2.N) (r : Fin 512) (q : Fin 1024) :
    K.noisy (k2_pay5 (F := Ideal) (iblk2 V c 0 t) (iblk2 V c 1 t) (iblk2 V c 2 t) (iblk2 V c 3 t) (iblk2 V c 4 t) (iblk2 V c 5 t) (ix2 r q))
        ((iblk2 V c 6 t : Vec Ideal S512x1024 .f32) (ix2 r q))
      = nb V c ⟨t.val * 512 + r.val, row_lt _ (t_lt t) r⟩ q := by
  unfold nb
  rw [tile_hpre, iblk6_apply]

/-! ## The accumulator, block by block -/

/-- The column sums of the noisy tile of block n (zero past the grid). -/
def tileSum (c : Dev nD) (n : ℕ) (q : Fin 1024) : EReal :=
  if h : n < 32 then ∑ r : Fin 512, nb V c ⟨n * 512 + r.val, row_lt n h r⟩ q else 0

/-- What the accumulator holds after block n: the column sums of the blocks of n's core up to n. -/
def acc (c : Dev nD) (n : ℕ) (q : Fin 1024) : EReal :=
  ∑ i ∈ Finset.range (n % 16 + 1), tileSum V c (n / 16 * 16 + i) q

/-- At a core's first block the accumulator holds that block's column sums. -/
theorem acc_first (c : Dev nD) (n : ℕ) (h0 : n % 16 = 0) (q : Fin 1024) : acc V c n q = tileSum V c n q := by
  unfold acc
  rw [h0, Finset.sum_range_one]
  congr 1
  omega

/-- At a later block it holds what the block before left plus this block's column sums. -/
theorem acc_next (c : Dev nD) (n : ℕ) (h0 : ¬n % 16 = 0) (q : Fin 1024) :
    acc V c n q = acc V c (n - 1) q + tileSum V c n q := by
  unfold acc
  have e1 : n % 16 + 1 = ((n - 1) % 16 + 1) + 1 := by omega
  have e2 : (n - 1) / 16 = n / 16 := by omega
  have e3 : n / 16 * 16 + ((n - 1) % 16 + 1) = n := by omega
  rw [e1, Finset.sum_range_succ, e2, e3]

/-- After a core's sixteenth block it holds the sum over the core's sixteen blocks. -/
theorem acc_last (c : Dev nD) (n : ℕ) (hn : n < 32) (h15 : n % 16 = 15) (q : Fin 1024) :
    acc V c n q = ∑ i : Fin 16, ∑ r : Fin 512, nb V c ⟨(n / 16 * 16 + i.val) * 512 + r.val, by have := r.isLt; omega⟩ q := by
  unfold acc
  rw [h15, Finset.sum_range]
  refine Finset.sum_congr rfl fun i _ => ?_
  unfold tileSum
  rw [dif_pos (by omega : n / 16 * 16 + i.val < 32)]

/-- What the two outputs' staging buffers hold after block n: the noisy tile of block n, and in every one of the
    accumulator's eight rows the column sums of the blocks of n's core up to n. -/
theorem outsAt_eq (c : Dev nD) : ∀ (n : ℕ) (h : n < cfg2.N),
    (∀ (r : Fin 512) (q : Fin 1024), ((outsAt2 V c n h).1 : S512x1024.Idx → EReal) (ix2 r q)
        = nb V c ⟨n * 512 + r.val, row_lt n (lt_of_lt_of_eq h N_2) r⟩ q)
    ∧ (∀ (b : Fin 8) (q : Fin 1024), ((outsAt2 V c n h).2 : S8x1024.Idx → EReal) (ix2 b q) = acc V c n q) := by
  intro n
  induction n with
  | zero =>
    intro h
    have hA := outsAt2_A V c ⟨0, h⟩ rfl
    constructor
    · intro r q
      rw [hA]
      dsimp only
      rw [out_A_7]
      exact (pay2_at _ _ r q).trans (tile_nb V c ⟨0, h⟩ r q)
    · intro b q
      rw [hA]
      dsimp only
      rw [out_A_8]
      refine (pay3_at _ _ _ b q).trans ?_
      rw [pay4_at, zero_add, acc_first V c 0 rfl]
      unfold tileSum
      rw [dif_pos (by omega : 0 < 32)]
      exact Finset.sum_congr rfl fun r _ => tile_nb V c ⟨0, h⟩ r q
  | succ n ih =>
    intro h
    have hn : n + 1 < 32 := lt_of_lt_of_eq h N_2
    by_cases h0 : (n + 1) % 16 = 0
    · have hA := outsAt2_A V c ⟨n + 1, h⟩ h0
      constructor
      · intro r q
        rw [hA]
        dsimp only
        rw [out_A_7]
        exact (pay2_at _ _ r q).trans (tile_nb V c ⟨n + 1, h⟩ r q)
      · intro b q
        rw [hA]
        dsimp only
        rw [out_A_8]
        refine (pay3_at _ _ _ b q).trans ?_
        rw [pay4_at, zero_add, acc_first V c (n + 1) h0]
        unfold tileSum
        rw [dif_pos hn]
        exact Finset.sum_congr rfl fun r _ => tile_nb V c ⟨n + 1, h⟩ r q
    · have hB := outsAt2_B V c ⟨n + 1, h⟩ h0
      constructor
      · intro r q
        rw [hB]
        dsimp only
        rw [out_B_7]
        exact (pay2_at _ _ r q).trans (tile_nb V c ⟨n + 1, h⟩ r q)
      · intro b q
        rw [hB]
        dsimp only
        rw [out_B_8]
        refine (pay3_at _ _ _ b q).trans ?_
        rw [acc_next V c (n + 1) h0]
        refine congrArg₂ (· + ·) ?_ ?_
        · exact (ih (Nat.lt_of_succ_lt h)).2 b q
        · unfold tileSum
          rw [dif_pos hn]
          exact Finset.sum_congr rfl fun r _ => tile_nb V c ⟨n + 1, h⟩ r q

/-! ## The first output array: the noisy binarization -/

/-- The first output as one function of the arrays the region finds. -/
def G7 (c : Dev nD) : S16384x1024.Idx → EReal := fun i => nb V c ⟨(i 0).val, idx2_lt0 i⟩ ⟨(i 1).val, idx2_lt1 i⟩

theorem G7_apply (c : Dev nD) (p : Fin 16384) (q : Fin 1024) : G7 V c (ix2 p q) = nb V c p q := rfl

/-- Entry (r, q) of the first output's block of point t is entry (512 t + r, q) of the array. -/
theorem emb7 (t : Fin cfg2.N) (r : Fin 512) (q : Fin 1024) :
    ((cfg2.win 7).blk t).view.emb (ix2 r q) = ix2 (⟨t.val * 512 + r.val, row_lt _ (t_lt t) r⟩ : Fin 16384) q := by
  obtain ⟨-, -, -, -, -, -, -, -, -, -, -, -, -, -, e70, e71, -, -⟩ := idx_facts t
  funext a; apply Fin.ext
  match a with
  | ⟨0, _⟩ => show win2_7.index t (0 : Fin 2) * 512 + 1 * r.val = t.val * 512 + r.val; rw [e70]; omega
  | ⟨1, _⟩ => show win2_7.index t (1 : Fin 2) * 1024 + 1 * q.val = q.val; rw [e71]; omega

/-- What point t writes back to the first output is block t of the noisy binarization. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  funext j
  obtain ⟨r, q, rfl⟩ : ∃ (r : Fin 512) (q : Fin 1024), j = ix2 r q := ⟨j 0, j 1, eq_ix2 j⟩
  rw [View.read_apply, emb7, G7_apply]
  exact (outsAt_eq V c t.val t.isLt).1 r q

/-- An index of the first output is in point t's block iff each coordinate is in the block's range. -/
theorem mem_blk7 (t : Fin cfg2.N) (i : S16384x1024.Idx) :
    i ∈ ((cfg2.win 7).blk t).view.set ↔ ∀ a : Fin 2, win2_7.index t a * S512x1024.size a ≤ (i a).val ∧ (i a).val < win2_7.index t a * S512x1024.size a + S512x1024.size a := by
  show i ∈ ((View.whole main_v36_0).slice (win2_7.rect t)).set ↔ _
  rw [View.set_slice_whole, Rect.mem_set_unit]
  exact Iff.rfl

/-- Every row p of the first output lies in the block of point p / 512. -/
theorem cover7 (i : S16384x1024.Idx) :
    ∃ t : Fin cfg2.N, (cfg2.win 7).flush t = true ∧ i ∈ ((cfg2.win 7).blk t).view.set := by
  have hi0 : (i 0).val < 16384 := idx2_lt0 i
  have hi1 : (i 1).val < 1024 := idx2_lt1 i
  have ht : (i 0).val / 512 < cfg2.N := lt_of_lt_of_eq (by omega : (i 0).val / 512 < 32) N_2.symm
  obtain ⟨-, -, -, -, -, -, -, -, -, -, -, -, -, -, e70, e71, -, -⟩ := idx_facts ⟨(i 0).val / 512, ht⟩
  refine ⟨⟨(i 0).val / 512, ht⟩, flush2_7 _, ?_⟩
  rw [mem_blk7]
  intro a
  match a with
  | ⟨0, _⟩ =>
    show win2_7.index ⟨(i 0).val / 512, ht⟩ (0 : Fin 2) * 512 ≤ (i 0).val ∧ (i 0).val < win2_7.index ⟨(i 0).val / 512, ht⟩ (0 : Fin 2) * 512 + 512
    rw [e70]
    show (i 0).val / 512 * 512 ≤ (i 0).val ∧ (i 0).val < (i 0).val / 512 * 512 + 512
    omega
  | ⟨1, _⟩ =>
    show win2_7.index ⟨(i 0).val / 512, ht⟩ (1 : Fin 2) * 1024 ≤ (i 1).val ∧ (i 1).val < win2_7.index ⟨(i 0).val / 512, ht⟩ (1 : Fin 2) * 1024 + 1024
    rw [e71]
    omega

/-- The first output array after the region is the noisy binarization of the arrays the region finds. -/
theorem final7 (c : Dev nD) : (dat2 V c).arrAt 7 cfg2.N = G7 V c :=
  (dat2 V c).arrAt_eq_of_cover 7 (G7 V c) (fun t _ => flushed7_eq V c t) cover7

/-- Entry (p, q) of the first output array after the region. -/
theorem out_nb (c : Dev nD) (p : Fin 16384) (q : Fin 1024) :
    ((dat2 V c).arrAt 7 cfg2.N : S16384x1024.Idx → EReal) (ix2 p q) = nb V c p q :=
  (congrFun (final7 V c) (ix2 p q)).trans (G7_apply V c p q)

/-! ## The second output array: the per-core column sums -/

/-- The second output as one function of the arrays the region finds: row a belongs to core a / 8, and holds the
    column sums of the noisy binarization over that core's sixteen blocks of 512 rows. -/
def G8 (c : Dev nD) : S16x1024.Idx → EReal := fun i =>
  ∑ i' : Fin 16, ∑ r : Fin 512,
    nb V c ⟨((i 0).val / 8 * 16 + i'.val) * 512 + r.val, by have := idx2_lt0 i; have := i'.isLt; have := r.isLt; omega⟩
      ⟨(i 1).val, idx2_lt1 i⟩

theorem G8_apply (c : Dev nD) (a : Fin 16) (q : Fin 1024) :
    G8 V c (ix2 a q) = ∑ i' : Fin 16, ∑ r : Fin 512,
      nb V c ⟨(a.val / 8 * 16 + i'.val) * 512 + r.val, by have := a.isLt; have := i'.isLt; have := r.isLt; omega⟩ q := rfl

/-- Row b of the accumulator's block of point t is row 8 (t / 16) + b of the array. -/
theorem emb8 (t : Fin cfg2.N) (b : Fin 8) (q : Fin 1024) :
    ((cfg2.win 8).blk t).view.emb (ix2 b q)
      = ix2 (⟨t.val / 16 * 8 + b.val, by have := t_lt t; have := b.isLt; omega⟩ : Fin 16) q := by
  obtain ⟨-, -, -, -, -, -, -, -, -, -, -, -, -, -, -, -, e80, e81⟩ := idx_facts t
  funext a; apply Fin.ext
  match a with
  | ⟨0, _⟩ => show win2_8.index t (0 : Fin 2) * 8 + 1 * b.val = t.val / 16 * 8 + b.val; rw [e80]; omega
  | ⟨1, _⟩ => show win2_8.index t (1 : Fin 2) * 1024 + 1 * q.val = q.val; rw [e81]; omega

/-- What a core's sixteenth point writes back to the second output is that core's block of the column sums. -/
theorem flushed8_eq (c : Dev nD) (t : Fin cfg2.N) (hf : (cfg2.win 8).flush t = true) :
    (dat2 V c).flushed 8 t = ((cfg2.win 8).blk t).view.read (Elt Ideal) (G8 V c) := by
  have h15 : t.val % 16 = 15 := (flush2_8 t).mp hf
  have hN := t_lt t
  show (cfg2.win 8).cut (grid2.coords t) ((dat2 V c).after 8 t) = _
  rw [after2_8]
  funext j
  obtain ⟨b, q, rfl⟩ : ∃ (b : Fin 8) (q : Fin 1024), j = ix2 b q := ⟨j 0, j 1, eq_ix2 j⟩
  rw [View.read_apply, emb8, G8_apply]
  refine ((outsAt_eq V c t.val t.isLt).2 b q).trans ?_
  rw [acc_last V c t.val hN h15 q]
  have e : (t.val / 16 * 8 + b.val) / 8 = t.val / 16 := by have := b.isLt; omega
  refine Finset.sum_congr rfl fun i _ => Finset.sum_congr rfl fun r _ => ?_
  refine congrArg (fun p => nb V c p q) (Fin.ext ?_)
  show (t.val / 16 * 16 + i.val) * 512 + r.val = ((t.val / 16 * 8 + b.val) / 8 * 16 + i.val) * 512 + r.val
  rw [e]

/-- An index of the second output is in point t's block iff each coordinate is in the block's range. -/
theorem mem_blk8 (t : Fin cfg2.N) (i : S16x1024.Idx) :
    i ∈ ((cfg2.win 8).blk t).view.set ↔ ∀ a : Fin 2, win2_8.index t a * S8x1024.size a ≤ (i a).val ∧ (i a).val < win2_8.index t a * S8x1024.size a + S8x1024.size a := by
  show i ∈ ((View.whole main_v36_1).slice (win2_8.rect t)).set ↔ _
  rw [View.set_slice_whole, Rect.mem_set_unit]
  exact Iff.rfl

/-- Row a of the second output lies in the block written back after the sixteenth point of core a / 8. -/
theorem cover8 (i : S16x1024.Idx) :
    ∃ t : Fin cfg2.N, (cfg2.win 8).flush t = true ∧ i ∈ ((cfg2.win 8).blk t).view.set := by
  have hi0 : (i 0).val < 16 := idx2_lt0 i
  have hi1 : (i 1).val < 1024 := idx2_lt1 i
  have ht : (i 0).val / 8 * 16 + 15 < cfg2.N := lt_of_lt_of_eq (by omega : (i 0).val / 8 * 16 + 15 < 32) N_2.symm
  obtain ⟨-, -, -, -, -, -, -, -, -, -, -, -, -, -, -, -, e80, e81⟩ := idx_facts ⟨(i 0).val / 8 * 16 + 15, ht⟩
  refine ⟨⟨(i 0).val / 8 * 16 + 15, ht⟩, (flush2_8 _).mpr (by show ((i 0).val / 8 * 16 + 15) % 16 = 15; omega), ?_⟩
  rw [mem_blk8]
  intro a
  match a with
  | ⟨0, _⟩ =>
    show win2_8.index ⟨(i 0).val / 8 * 16 + 15, ht⟩ (0 : Fin 2) * 8 ≤ (i 0).val ∧ (i 0).val < win2_8.index ⟨(i 0).val / 8 * 16 + 15, ht⟩ (0 : Fin 2) * 8 + 8
    rw [e80]
    show ((i 0).val / 8 * 16 + 15) / 16 * 8 ≤ (i 0).val ∧ (i 0).val < ((i 0).val / 8 * 16 + 15) / 16 * 8 + 8
    omega
  | ⟨1, _⟩ =>
    show win2_8.index ⟨(i 0).val / 8 * 16 + 15, ht⟩ (1 : Fin 2) * 1024 ≤ (i 1).val ∧ (i 1).val < win2_8.index ⟨(i 0).val / 8 * 16 + 15, ht⟩ (1 : Fin 2) * 1024 + 1024
    rw [e81]
    omega

/-- The second output array after the region: the per-core column sums of the noisy binarization. -/
theorem final8 (c : Dev nD) : (dat2 V c).arrAt 8 cfg2.N = G8 V c :=
  (dat2 V c).arrAt_eq_of_cover 8 (G8 V c) (fun t hf => flushed8_eq V c t hf) cover8

/-- Entry (a, q) of the second output array after the region: the sum, over the sixteen blocks of core a / 8 and the
    512 rows of a block, of the noisy binarization at column q. -/
theorem out_sum (c : Dev nD) (a : Fin 16) (q : Fin 1024) :
    ((dat2 V c).arrAt 8 cfg2.N : S16x1024.Idx → EReal) (ix2 a q)
      = ∑ i : Fin 16, ∑ r : Fin 512,
          nb V c ⟨(a.val / 8 * 16 + i.val) * 512 + r.val, by have := a.isLt; have := i.isLt; have := r.isLt; omega⟩ q :=
  (congrFun (final8 V c) (ix2 a q)).trans (G8_apply V c a q)

end Cert.BNN.R2

end
-- ==== Proof.Region3.lean ====
/-
  The last layer's output array, entry by entry.

  The last region walks the 16384 rows in 32 blocks of 512. On a block it normalizes each activation by its
  column's mean, variance, scale and shift, takes the sign, and multiplies the block of signs by the transpose of
  the 10×1024 weight matrix. Entry `(p, o)` of the output is therefore the sum over the 1024 columns `k` of the
  sign at `(p, k)` times the weight at `(o, k)`; row `p` is written by the block `p / 512`, and the 32 blocks
  cover every row. All arrays are the ones the region finds on entry.
-/
import proofs.«171548_j65360812310623_2_alg».proof.Proof.Gen.KernelIdeal.Frame
import proofs.«171548_j65360812310623_2_alg».proof.Proof.KPointwise
import Idealize.ShloMosaic.Lib.ValueIdx
import Idealize.ShloMosaic.Lib.Pipeline.Value
import Idealize.ShloMosaic.PureOps.Ideal.Laws
import Idealize.ShloMosaic.Lib.ValueLayout

noncomputable section

namespace Cert.BNN.R3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- A row vector broadcast down 512 rows, read at `(r, k)`, is the row's entry `k`. -/
theorem row_bcast (y : FVec Ideal S1x1024 .f32) (hb : S1x1024.Broadcasts S512x1024) (r : Fin 512) (k : Fin 1024) :
    broadcastTo S512x1024 y hb (ix2 r k) = y (ix2 (0 : Fin 1) k) := by
  refine broadcastTo_apply _ _ _ _ fun a => ?_
  match a with
  | ⟨0, _⟩ => rfl
  | ⟨1, _⟩ => rfl

/-- The product of a 512×1024 block with the transpose of a 10×1024 matrix into a zero accumulator, read at
    `(r, o)`: the sum over the shared column `k` of the products of the entries. -/
theorem matmul_at (L : FVec Ideal S512x1024 .bf16) (R : FVec Ideal S10x1024 .bf16) (r : Fin 512) (o : Fin 10) :
    matmul dot_S512x1024_S10x1024_S512x10_1_1_0_0_n_n none L R (constant S512x10 .f32 0x00000000#32) (ix2 r o)
      = ∑ k : Fin 1024, L (ix2 r k) * R (ix2 o k) := by
  show FloatOps.matmul _ none L R _ (ix2 r o) = _
  rw [Ideal.matmul_constant_zero_apply,
    ← Equiv.sum_comp (contrEquiv1 dot_S512x1024_S10x1024_S512x10_1_1_0_0_n_n 1024 rfl rfl).symm]
  refine Finset.sum_congr rfl fun k _ => ?_
  have c2 := contrEquiv1_symm_val dot_S512x1024_S10x1024_S512x10_1_1_0_0_n_n 1024 rfl rfl k
  have l2 : dot_S512x1024_S10x1024_S512x10_1_1_0_0_n_n.lhsIdx (ix2 r o) ((contrEquiv1 _ 1024 rfl rfl).symm k) = ix2 r k := by
    funext ax; apply Fin.ext
    match ax with
    | ⟨0, _⟩ => simp [DotDims.lhsIdx, dot_S512x1024_S10x1024_S512x10_1_1_0_0_n_n]; rfl
    | ⟨1, _⟩ => simp [DotDims.lhsIdx, dot_S512x1024_S10x1024_S512x10_1_1_0_0_n_n]; exact c2
  have r2 : dot_S512x1024_S10x1024_S512x10_1_1_0_0_n_n.rhsIdx (ix2 r o) ((contrEquiv1 _ 1024 rfl rfl).symm k) = ix2 o k := by
    funext ax; apply Fin.ext
    match ax with
    | ⟨0, _⟩ => simp [DotDims.rhsIdx, dot_S512x1024_S10x1024_S512x10_1_1_0_0_n_n]; rfl
    | ⟨1, _⟩ => simp [DotDims.rhsIdx, dot_S512x1024_S10x1024_S512x10_1_1_0_0_n_n]; exact c2
  rw [l2, r2]

/-- The body's payload at row `r`, column `o` of its block: the signs of the normalized activations of row `r`
    against row `o` of the last layer's weights. -/
theorem pay_apply (x0 : Vec Ideal S512x1024 .bf16) (x1 x2 x3 x4 : Vec Ideal S1x1024 .f32) (x5 : Vec Ideal S10x1024 .bf16)
    (r : Fin 512) (o : Fin 10) :
    k3_pay1 x0 x1 x2 x3 x4 x5 (ix2 r o)
      = ∑ k : Fin 1024, Ideal.sign (K.bnv (x0 (ix2 r k)) (x1 (ix2 (0 : Fin 1) k)) (x2 (ix2 (0 : Fin 1) k)) (x3 (ix2 (0 : Fin 1) k)) (x4 (ix2 (0 : Fin 1) k))) * x5 (ix2 o k) := by
  unfold k3_pay1
  simp only [shapeCast_self]
  refine (matmul_at _ _ r o).trans ?_
  refine Finset.sum_congr rfl fun k _ => ?_
  refine congrArg (· * x5 (ix2 o k)) ?_
  refine (Ideal.jnp_sign_eq_sign_f32 _).trans ?_
  refine congrArg Ideal.sign ?_
  unfold K.bnv
  refine congrArg₂ (· + ·) (congrArg₂ (· * ·) (congrArg₂ (· * ·) (congrArg₂ (· - ·) rfl ?_) ?_) ?_) ?_
  · exact row_bcast x1 _ r k
  · exact row_bcast (rsqrt (addf x2 (broadcast S1x1024 (FloatOps.ofBits FTy.f32 0x3727C5AC#32)))) _ r k
  · exact row_bcast x3 _ r k
  · exact row_bcast x4 _ r k

theorem hz : (![0, 0] : Fin 2 → Nat) = fun _ => 0 := funext fun a => by fin_cases a <;> rfl

/-- The sign of the normalized activation at row `p`, column `k` of the region's first input array. -/
def s (c : Dev nD) (p : Fin 16384) (k : Fin 1024) : EReal :=
  Ideal.sign (K.bnv ((V c (Pipeline.arrRef spec3 0) : S16384x1024.Idx → EReal) (ix2 p k))
    ((V c (Pipeline.arrRef spec3 1) : S1x1024.Idx → EReal) (ix2 (0 : Fin 1) k))
    ((V c (Pipeline.arrRef spec3 2) : S1x1024.Idx → EReal) (ix2 (0 : Fin 1) k))
    ((V c (Pipeline.arrRef spec3 3) : S1x1024.Idx → EReal) (ix2 (0 : Fin 1) k))
    ((V c (Pipeline.arrRef spec3 4) : S1x1024.Idx → EReal) (ix2 (0 : Fin 1) k)))

/-- The whole output array as one function of the region's input arrays: entry `(p, o)` is the sum over the
    columns `k` of the sign at `(p, k)` times the weight at `(o, k)`. -/
def G (c : Dev nD) : S16384x10.Idx → EReal := fun i =>
  ∑ k : Fin 1024, s V c ⟨(i 0).val, idx2_lt0 i⟩ k
    * (V c (Pipeline.arrRef spec3 5) : S10x1024.Idx → EReal) (ix2 (⟨(i 1).val, idx2_lt1 i⟩ : Fin 10) k)

/-- The grid has 32 points, one per block of 512 rows. -/
theorem t_lt (t : Fin cfg3.N) : t.val < 32 := by
  exact lt_of_lt_of_eq t.isLt N_3

/-- Row `r` of block `t` is a row of the array. -/
theorem row_lt (t : Fin cfg3.N) (r : Fin 512) : t.val * 512 + r.val < 16384 := by
  have := t_lt t; have := r.isLt; omega

/-- The printed index maps, decided over the grid: the activation block and the output block of point `t` are
    block row `t`; every other window stays at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The activation block at point `t` is rows `512 t … 512 t + 511` of the first input array. -/
theorem iblk0_apply (c : Dev nD) (t : Fin cfg3.N) (r : Fin 512) (k : Fin 1024) :
    (iblk3 V c 0 t : Vec Ideal S512x1024 .bf16) (ix2 r k)
      = (V c (Pipeline.arrRef spec3 0) : S16384x1024.Idx → EReal) (ix2 (⟨t.val * 512 + r.val, row_lt t r⟩ : Fin 16384) k) := by
  obtain ⟨e0, e1, -⟩ := idx_facts t
  unfold iblk3
  rw [View.read_apply]
  refine congrArg (V c (Pipeline.arrRef spec3 0) : S16384x1024.Idx → EReal) (funext fun a => Fin.ext ?_)
  match a with
  | ⟨0, _⟩ => show win3_0.index t (0 : Fin 2) * 512 + 1 * r.val = t.val * 512 + r.val; rw [e0]; omega
  | ⟨1, _⟩ => show win3_0.index t (1 : Fin 2) * 1024 + 1 * k.val = k.val; rw [e1]; omega

/-- Window 1's block at every point is the whole `[1, 1024]` array. -/
theorem iblk1_apply (c : Dev nD) (t : Fin cfg3.N) (k : Fin 1024) :
    (iblk3 V c 1 t : Vec Ideal S1x1024 .f32) (ix2 (0 : Fin 1) k)
      = (V c (Pipeline.arrRef spec3 1) : S1x1024.Idx → EReal) (ix2 (0 : Fin 1) k) := by
  have e := idx_facts t
  unfold iblk3
  rw [View.read_apply]
  refine congrArg (V c (Pipeline.arrRef spec3 1) : S1x1024.Idx → EReal) (funext fun a => Fin.ext ?_)
  match a with
  | ⟨0, _⟩ => show win3_1.index t (0 : Fin 2) * 1 + 1 * 0 = 0; rw [e.2.2.1]
  | ⟨1, _⟩ => show win3_1.index t (1 : Fin 2) * 1024 + 1 * k.val = k.val; rw [e.2.2.2.1]; omega

/-- Window 2's block at every point is the whole `[1, 1024]` array. -/
theorem iblk2_apply (c : Dev nD) (t : Fin cfg3.N) (k : Fin 1024) :
    (iblk3 V c 2 t : Vec Ideal S1x1024 .f32) (ix2 (0 : Fin 1) k)
      = (V c (Pipeline.arrRef spec3 2) : S1x1024.Idx → EReal) (ix2 (0 : Fin 1) k) := by
  have e := idx_facts t
  unfold iblk3
  rw [View.read_apply]
  refine congrArg (V c (Pipeline.arrRef spec3 2) : S1x1024.Idx → EReal) (funext fun a => Fin.ext ?_)
  match a with
  | ⟨0, _⟩ => show win3_2.index t (0 : Fin 2) * 1 + 1 * 0 = 0; rw [e.2.2.2.2.1]
  | ⟨1, _⟩ => show win3_2.index t (1 : Fin 2) * 1024 + 1 * k.val = k.val; rw [e.2.2.2.2.2.1]; omega

/-- Window 3's block at every point is the whole `[1, 1024]` array. -/
theorem iblk3_apply (c : Dev nD) (t : Fin cfg3.N) (k : Fin 1024) :
    (iblk3 V c 3 t : Vec Ideal S1x1024 .f32) (ix2 (0 : Fin 1) k)
      = (V c (Pipeline.arrRef spec3 3) : S1x1024.Idx → EReal) (ix2 (0 : Fin 1) k) := by
  have e := idx_facts t
  unfold iblk3
  rw [View.read_apply]
  refine congrArg (V c (Pipeline.arrRef spec3 3) : S1x1024.Idx → EReal) (funext fun a => Fin.ext ?_)
  match a with
  | ⟨0, _⟩ => show win3_3.index t (0 : Fin 2) * 1 + 1 * 0 = 0; rw [e.2.2.2.2.2.2.1]
  | ⟨1, _⟩ => show win3_3.index t (1 : Fin 2) * 1024 + 1 * k.val = k.val; rw [e.2.2.2.2.2.2.2.1]; omega

/-- Window 4's block at every point is the whole `[1, 1024]` array. -/
theorem iblk4_apply (c : Dev nD) (t : Fin cfg3.N) (k : Fin 1024) :
    (iblk3 V c 4 t : Vec Ideal S1x1024 .f32) (ix2 (0 : Fin 1) k)
      = (V c (Pipeline.arrRef spec3 4) : S1x1024.Idx → EReal) (ix2 (0 : Fin 1) k) := by
  have e := idx_facts t
  unfold iblk3
  rw [View.read_apply]
  refine congrArg (V c (Pipeline.arrRef spec3 4) : S1x1024.Idx → EReal) (funext fun a => Fin.ext ?_)
  match a with
  | ⟨0, _⟩ => show win3_4.index t (0 : Fin 2) * 1 + 1 * 0 = 0; rw [e.2.2.2.2.2.2.2.2.1]
  | ⟨1, _⟩ => show win3_4.index t (1 : Fin 2) * 1024 + 1 * k.val = k.val; rw [e.2.2.2.2.2.2.2.2.2.1]; omega

/-- The weight block at every point is the whole `[10, 1024]` array. -/
theorem iblk5_apply (c : Dev nD) (t : Fin cfg3.N) (o : Fin 10) (k : Fin 1024) :
    (iblk3 V c 5 t : Vec Ideal S10x1024 .bf16) (ix2 o k)
      = (V c (Pipeline.arrRef spec3 5) : S10x1024.Idx → EReal) (ix2 o k) := by
  have e := idx_facts t
  unfold iblk3
  rw [View.read_apply]
  refine congrArg (V c (Pipeline.arrRef spec3 5) : S10x1024.Idx → EReal) (funext fun a => Fin.ext ?_)
  match a with
  | ⟨0, _⟩ => show win3_5.index t (0 : Fin 2) * 10 + 1 * o.val = o.val; rw [e.2.2.2.2.2.2.2.2.2.2.1]; omega
  | ⟨1, _⟩ => show win3_5.index t (1 : Fin 2) * 1024 + 1 * k.val = k.val; rw [e.2.2.2.2.2.2.2.2.2.2.2.1]; omega

/-- Entry `(r, o)` of the output block of point `t` is entry `(512 t + r, o)` of the output array. -/
theorem emb6 (t : Fin cfg3.N) (r : Fin 512) (o : Fin 10) :
    ((cfg3.win 6).blk t).view.emb (ix2 r o) = ix2 (⟨t.val * 512 + r.val, row_lt t r⟩ : Fin 16384) o := by
  have e := idx_facts t
  funext a; apply Fin.ext
  match a with
  | ⟨0, _⟩ => show win3_6.index t (0 : Fin 2) * 512 + 1 * r.val = t.val * 512 + r.val; rw [e.2.2.2.2.2.2.2.2.2.2.2.2.1]; omega
  | ⟨1, _⟩ => show win3_6.index t (1 : Fin 2) * 10 + 1 * o.val = o.val; rw [e.2.2.2.2.2.2.2.2.2.2.2.2.2]; omega

/-- `G` at an index given by its coordinates. -/
theorem G_apply (c : Dev nD) (p : Fin 16384) (o : Fin 10) :
    G V c (ix2 p o) = ∑ k : Fin 1024, s V c p k * (V c (Pipeline.arrRef spec3 5) : S10x1024.Idx → EReal) (ix2 o k) := rfl

/-- What point `t` writes back is block `t` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S512x1024) hz, View.ld_unit_zero (S := S1x1024) hz, View.ld_unit_zero (S := S10x1024) hz]
  funext j
  obtain ⟨r, o, rfl⟩ : ∃ (r : Fin 512) (o : Fin 10), j = ix2 r o := ⟨j 0, j 1, eq_ix2 j⟩
  rw [View.read_apply, emb6]
  show k3_pay1 (iblk3 V c 0 t) (iblk3 V c 1 t) (iblk3 V c 2 t) (iblk3 V c 3 t) (iblk3 V c 4 t) (iblk3 V c 5 t) (ix2 r o) = _
  refine (pay_apply _ _ _ _ _ _ r o).trans ?_
  rw [G_apply]
  refine Finset.sum_congr rfl fun k _ => ?_
  rw [iblk0_apply, iblk1_apply, iblk2_apply, iblk3_apply, iblk4_apply, iblk5_apply]
  rfl

/-- An index of the output array is in point `t`'s block iff each coordinate is in the block's range. -/
theorem mem_blk (t : Fin cfg3.N) (i : S16384x10.Idx) :
    i ∈ ((cfg3.win 6).blk t).view.set ↔ ∀ a : Fin 2, win3_6.index t a * S512x10.size a ≤ (i a).val ∧ (i a).val < win3_6.index t a * S512x10.size a + S512x10.size a := by
  show i ∈ ((View.whole main_v45).slice (win3_6.rect t)).set ↔ _
  rw [View.set_slice_whole, Rect.mem_set_unit]
  exact Iff.rfl

/-- Every row `p` of the output array lies in the block of point `p / 512`. -/
theorem cover (i : S16384x10.Idx) :
    ∃ t : Fin cfg3.N, (cfg3.win 6).flush t = true ∧ i ∈ ((cfg3.win 6).blk t).view.set := by
  have hi0 : (i 0).val < 16384 := idx2_lt0 i
  have hi1 : (i 1).val < 10 := idx2_lt1 i
  have ht : (i 0).val / 512 < cfg3.N := lt_of_lt_of_eq (by omega : (i 0).val / 512 < 32) N_3.symm
  have e := idx_facts ⟨(i 0).val / 512, ht⟩
  refine ⟨⟨(i 0).val / 512, ht⟩, flush3_6 _, ?_⟩
  rw [mem_blk]
  intro a
  match a with
  | ⟨0, _⟩ =>
    show win3_6.index ⟨(i 0).val / 512, ht⟩ (0 : Fin 2) * 512 ≤ (i 0).val ∧ (i 0).val < win3_6.index ⟨(i 0).val / 512, ht⟩ (0 : Fin 2) * 512 + 512
    rw [e.2.2.2.2.2.2.2.2.2.2.2.2.1]
    show (i 0).val / 512 * 512 ≤ (i 0).val ∧ (i 0).val < (i 0).val / 512 * 512 + 512
    omega
  | ⟨1, _⟩ =>
    show win3_6.index ⟨(i 0).val / 512, ht⟩ (1 : Fin 2) * 10 ≤ (i 1).val ∧ (i 1).val < win3_6.index ⟨(i 0).val / 512, ht⟩ (1 : Fin 2) * 10 + 10
    rw [e.2.2.2.2.2.2.2.2.2.2.2.2.2]
    omega

/-- The output array after the region is `G` of the arrays the region finds. -/
theorem final (c : Dev nD) : (dat3 V c).arrAt 6 cfg3.N = G V c :=
  (dat3 V c).arrAt_eq_of_cover 6 (G V c) (fun t _ => flushed_eq V c t) cover

/-- Entry `(p, o)` of the output array after the region: the sum over the columns `k` of the sign of the
    normalized activation at `(p, k)` times the weight at `(o, k)`. -/
theorem out (c : Dev nD) (p : Fin 16384) (o : Fin 10) :
    ((dat3 V c).arrAt 6 cfg3.N : S16384x10.Idx → EReal) (ix2 p o)
      = ∑ k : Fin 1024, s V c p k * (V c (Pipeline.arrRef spec3 5) : S10x1024.Idx → EReal) (ix2 o k) :=
  (congrFun (final V c) (ix2 p o)).trans (G_apply V c p o)

end Cert.BNN.R3

end
-- ==== Proof.Link.lean ====
/-
  The statistics as the kernel accumulates them.

  The kernel keeps, per core, a running column total over that core's sixteen blocks of 512 rows; the array it
  leaves has sixteen rows, rows 0–7 holding core 0's totals and rows 8–15 core 1's.  Row 0 plus row 8 is therefore the
  column's sum over all 16384 rows, and dividing by 16384 gives the mean.  The variance comes from the same totals of
  the squares (first layer) or from the entries being ±1 (second and third layer).
-/
import proofs.«171548_j65360812310623_2_alg».proof.Proof.Net

noncomputable section

namespace Cert.BNN.Net

open Idealize.ShloMosaic Idealize.ShloMosaic.ValueIdx Cert.RealValued

/-- Row `a` of a per-core accumulator of the columns of `H`: the total over the sixteen blocks of core `a / 8`. -/
def acc (H : Mat) (a : Fin 16) (q : Fin 1024) : EReal :=
  ∑ i : Fin 16, ∑ r : Fin 512, H ⟨((a.val / 8) * 16 + i.val) * 512 + r.val, by omega⟩ q

/-- Rows 0 and 8 of the accumulator add up to the column's sum over all rows. -/
theorem acc_total (H : Mat) (q : Fin 1024) : acc H 0 q + acc H 8 q = ∑ p, H p q :=
  two_cores (fun p => H p q)

theorem acc_mean (H : Mat) (q : Fin 1024) : Ideal.div (acc H 0 q + acc H 8 q) D = mean H q := by
  rw [acc_total]; rfl

/-- First layer: the variance from the accumulated squares, for a column of real entries. -/
theorem acc_var_real (H : Mat) (q : Fin 1024) (hr : ∀ p, IsReal (H p q)) :
    Ideal.div (acc (fun p q => H p q * H p q) 0 q + acc (fun p q => H p q * H p q) 8 q) D
        - Ideal.div (acc H 0 q + acc H 8 q) D * Ideal.div (acc H 0 q + acc H 8 q) D = var H q := by
  rw [acc_total, acc_mean]
  exact var_of_real H q hr

/-- Later layers: the variance as one minus the squared mean, for a column of entries ±1. -/
theorem acc_var_pm1 (H : Mat) (q : Fin 1024) (hpm : ∀ p, H p q = ((1 : ℝ) : EReal) ∨ H p q = ((-1 : ℝ) : EReal)) :
    Ideal.ofBits .f32 0x3F800000#32
        - Ideal.div (acc H 0 q + acc H 8 q) D * Ideal.div (acc H 0 q + acc H 8 q) D = var H q := by
  rw [acc_mean]
  exact var_of_pm1 H q hpm

theorem flip_pm1 (HP : Mat) (u : Arr2 16384 1024) (p : Fin 16384) (q : Fin 1024) :
    flip HP u p q = ((1 : ℝ) : EReal) ∨ flip HP u p q = ((-1 : ℝ) : EReal) := noisy_pm1 _ _

theorem h1_real (x : Arr2 16384 784) (W1 : Arr2 1024 784) (hx : ∀ i, IsReal (x i)) (p : Fin 16384) (q : Fin 1024) :
    IsReal (h1 x W1 p q) := isReal_lin _ _ (fun p j => hx _) p q

end Cert.BNN.Net

end
-- ==== Proof.Transfer.lean ====
/-
  Each kernel region's result, restated over the network's functions.

  A region's value was read off at its entry contents as sums and pointwise functions of its input arrays.  Here the
  inputs are assumed to hold the network's quantities — a layer's pre-activations or flipped signs, that column's mean
  and variance, the scale and shift rows, the signs of the weights, the uniform numbers — and the region's outputs are
  then the next quantities of the network: the flipped signs of the next layer together with their per-core column
  totals, or, for the last region, the output itself.
-/
import proofs.«171548_j65360812310623_2_alg».proof.Proof.Region0
import proofs.«171548_j65360812310623_2_alg».proof.Proof.Region1Value
import proofs.«171548_j65360812310623_2_alg».proof.Proof.Region2Value
import proofs.«171548_j65360812310623_2_alg».proof.Proof.Region3
import proofs.«171548_j65360812310623_2_alg».proof.Proof.Link

noncomputable section

namespace Cert.BNN.Transfer
open Idealize.ShloMosaic Idealize.ShloMosaic.TcCoe Idealize.ShloMosaic.ValueIdx Idealize.SL.Sem Cert.KernelIdeal Cert.KernelIdeal.Gen Cert.BNN.Net
variable (V : (c : Dev nD) → (b : Ref sig .tc) → Buf (Elt Ideal) ((c : Thread nD τ).loc b)) (c : Dev nD)

theorem r0_h1 (x : Arr2 16384 784) (W1 : Arr2 1024 784) (hX : ∀ i, R0.Xa V c i = x i) (hW : ∀ i, R0.Wa V c i = Ideal.sign (W1 i))
    (p : Fin 16384) (q : Fin 1024) : R0.h1 V c p q = Net.h1 x W1 p q := by
  unfold R0.h1 Net.h1 Net.lin
  exact Finset.sum_congr rfl fun j _ => by rw [hX, hW]

theorem r0_sum (x : Arr2 16384 784) (W1 : Arr2 1024 784) (hX : ∀ i, R0.Xa V c i = x i) (hW : ∀ i, R0.Wa V c i = Ideal.sign (W1 i))
    (a : Fin 16) (q : Fin 1024) : Eq (α := EReal) ((dat0 V c).arrAt 3 cfg0.N (ix2 a q)) (Net.acc (Net.h1 x W1) a q) := by
  refine Eq.trans (α := EReal) (R0.out_sum V c a q) ?_; unfold Net.acc
  exact Finset.sum_congr rfl fun i _ => Finset.sum_congr rfl fun r _ => r0_h1 V c x W1 hX hW _ _

theorem r0_sumsq (x : Arr2 16384 784) (W1 : Arr2 1024 784) (hX : ∀ i, R0.Xa V c i = x i) (hW : ∀ i, R0.Wa V c i = Ideal.sign (W1 i))
    (a : Fin 16) (q : Fin 1024) :
    Eq (α := EReal) ((dat0 V c).arrAt 4 cfg0.N (ix2 a q)) (Net.acc (fun p q => Net.h1 x W1 p q * Net.h1 x W1 p q) a q) := by
  refine Eq.trans (α := EReal) (R0.out_sumsq V c a q) ?_; unfold Net.acc
  exact Finset.sum_congr rfl fun i _ => Finset.sum_congr rfl fun r _ => by rw [r0_h1 V c x W1 hX hW]

theorem r3_out (H : Mat) (g b : Arr1 1024) (W4 : Arr2 10 1024)
    (h0 : ∀ p k, (V c (Pipeline.arrRef spec3 0) : S16384x1024.Idx → EReal) (ix2 p k) = H p k)
    (h1 : ∀ k, (V c (Pipeline.arrRef spec3 1) : S1x1024.Idx → EReal) (ix2 (0 : Fin 1) k) = Net.mean H k)
    (h2 : ∀ k, (V c (Pipeline.arrRef spec3 2) : S1x1024.Idx → EReal) (ix2 (0 : Fin 1) k) = Net.var H k)
    (h3 : ∀ k, (V c (Pipeline.arrRef spec3 3) : S1x1024.Idx → EReal) (ix2 (0 : Fin 1) k) = g (ix1 k))
    (h4 : ∀ k, (V c (Pipeline.arrRef spec3 4) : S1x1024.Idx → EReal) (ix2 (0 : Fin 1) k) = b (ix1 k))
    (h5 : ∀ i, (V c (Pipeline.arrRef spec3 5) : S10x1024.Idx → EReal) i = Ideal.sign (W4 i))
    (p : Fin 16384) (o : Fin 10) :
    Eq (α := EReal) (((dat3 V c).arrAt 6 cfg3.N : S16384x10.Idx → EReal) (ix2 p o)) (Net.lin (Net.act H g b) W4 p o) := by
  refine Eq.trans (α := EReal) (R3.out V c p o) ?_; unfold Net.lin Net.act R3.s
  exact Finset.sum_congr rfl fun k _ => by rw [h0, h1, h2, h3, h4, h5]

theorem r1_nb (H : Mat) (g b : Arr1 1024) (W : Arr2 1024 1024) (u : Arr2 16384 1024)
    (h0 : ∀ p k, (V c (Pipeline.arrRef spec1 0) : S16384x1024.Idx → EReal) (ix2 p k) = H p k)
    (h1 : ∀ k, (V c (Pipeline.arrRef spec1 1) : S1x1024.Idx → EReal) (ix2 (0 : Fin 1) k) = Net.mean H k)
    (h2 : ∀ k, (V c (Pipeline.arrRef spec1 2) : S1x1024.Idx → EReal) (ix2 (0 : Fin 1) k) = Net.var H k)
    (h3 : ∀ k, (V c (Pipeline.arrRef spec1 3) : S1x1024.Idx → EReal) (ix2 (0 : Fin 1) k) = g (ix1 k))
    (h4 : ∀ k, (V c (Pipeline.arrRef spec1 4) : S1x1024.Idx → EReal) (ix2 (0 : Fin 1) k) = b (ix1 k))
    (h5 : ∀ i, (V c (Pipeline.arrRef spec1 5) : S1024x1024.Idx → EReal) i = Ideal.sign (W i))
    (h6 : ∀ i, (V c (Pipeline.arrRef spec1 6) : S16384x1024.Idx → EReal) i = u i)
    (p : Fin 16384) (q : Fin 1024) :
    R1.nb V c p q = Net.flip (Net.lin (Net.act H g b) W) u p q := by
  unfold R1.nb Net.flip R1.hpre Net.lin Net.act R1.s R1.A0 R1.A1 R1.A2 R1.A3 R1.A4 R1.A5 R1.A6
  rw [h6]
  congr 1
  exact Finset.sum_congr rfl fun k _ => by rw [h0, h1, h2, h3, h4, h5]

theorem r1_out_nb (H : Mat) (g b : Arr1 1024) (W : Arr2 1024 1024) (u : Arr2 16384 1024)
    (h0 : ∀ p k, (V c (Pipeline.arrRef spec1 0) : S16384x1024.Idx → EReal) (ix2 p k) = H p k)
    (h1 : ∀ k, (V c (Pipeline.arrRef spec1 1) : S1x1024.Idx → EReal) (ix2 (0 : Fin 1) k) = Net.mean H k)
    (h2 : ∀ k, (V c (Pipeline.arrRef spec1 2) : S1x1024.Idx → EReal) (ix2 (0 : Fin 1) k) = Net.var H k)
    (h3 : ∀ k, (V c (Pipeline.arrRef spec1 3) : S1x1024.Idx → EReal) (ix2 (0 : Fin 1) k) = g (ix1 k))
    (h4 : ∀ k, (V c (Pipeline.arrRef spec1 4) : S1x1024.Idx → EReal) (ix2 (0 : Fin 1) k) = b (ix1 k))
    (h5 : ∀ i, (V c (Pipeline.arrRef spec1 5) : S1024x1024.Idx → EReal) i = Ideal.sign (W i))
    (h6 : ∀ i, (V c (Pipeline.arrRef spec1 6) : S16384x1024.Idx → EReal) i = u i)
    (p : Fin 16384) (q : Fin 1024) :
    Eq (α := EReal) (((dat1 V c).arrAt 7 cfg1.N : S16384x1024.Idx → EReal) (ix2 p q)) (Net.flip (Net.lin (Net.act H g b) W) u p q) :=
  Eq.trans (α := EReal) (R1.out_nb V c p q) (r1_nb V c H g b W u h0 h1 h2 h3 h4 h5 h6 p q)

theorem r1_out_sum (H : Mat) (g b : Arr1 1024) (W : Arr2 1024 1024) (u : Arr2 16384 1024)
    (h0 : ∀ p k, (V c (Pipeline.arrRef spec1 0) : S16384x1024.Idx → EReal) (ix2 p k) = H p k)
    (h1 : ∀ k, (V c (Pipeline.arrRef spec1 1) : S1x1024.Idx → EReal) (ix2 (0 : Fin 1) k) = Net.mean H k)
    (h2 : ∀ k, (V c (Pipeline.arrRef spec1 2) : S1x1024.Idx → EReal) (ix2 (0 : Fin 1) k) = Net.var H k)
    (h3 : ∀ k, (V c (Pipeline.arrRef spec1 3) : S1x1024.Idx → EReal) (ix2 (0 : Fin 1) k) = g (ix1 k))
    (h4 : ∀ k, (V c (Pipeline.arrRef spec1 4) : S1x1024.Idx → EReal) (ix2 (0 : Fin 1) k) = b (ix1 k))
    (h5 : ∀ i, (V c (Pipeline.arrRef spec1 5) : S1024x1024.Idx → EReal) i = Ideal.sign (W i))
    (h6 : ∀ i, (V c (Pipeline.arrRef spec1 6) : S16384x1024.Idx → EReal) i = u i)
    (a : Fin 16) (q : Fin 1024) :
    Eq (α := EReal) (((dat1 V c).arrAt 8 cfg1.N : S16x1024.Idx → EReal) (ix2 a q)) (Net.acc (Net.flip (Net.lin (Net.act H g b) W) u) a q) := by
  refine Eq.trans (α := EReal) (R1.out_sum V c a q) ?_; unfold Net.acc
  exact Finset.sum_congr rfl fun i _ => Finset.sum_congr rfl fun r _ => r1_nb V c H g b W u h0 h1 h2 h3 h4 h5 h6 _ _

theorem r2_nb (H : Mat) (g b : Arr1 1024) (W : Arr2 1024 1024) (u : Arr2 16384 1024)
    (h0 : ∀ p k, (V c (Pipeline.arrRef spec2 0) : S16384x1024.Idx → EReal) (ix2 p k) = H p k)
    (h1 : ∀ k, (V c (Pipeline.arrRef spec2 1) : S1x1024.Idx → EReal) (ix2 (0 : Fin 1) k) = Net.mean H k)
    (h2 : ∀ k, (V c (Pipeline.arrRef spec2 2) : S1x1024.Idx → EReal) (ix2 (0 : Fin 1) k) = Net.var H k)
    (h3 : ∀ k, (V c (Pipeline.arrRef spec2 3) : S1x1024.Idx → EReal) (ix2 (0 : Fin 1) k) = g (ix1 k))
    (h4 : ∀ k, (V c (Pipeline.arrRef spec2 4) : S1x1024.Idx → EReal) (ix2 (0 : Fin 1) k) = b (ix1 k))
    (h5 : ∀ i, (V c (Pipeline.arrRef spec2 5) : S1024x1024.Idx → EReal) i = Ideal.sign (W i))
    (h6 : ∀ i, (V c (Pipeline.arrRef spec2 6) : S16384x1024.Idx → EReal) i = u i)
    (p : Fin 16384) (q : Fin 1024) :
    R2.nb V c p q = Net.flip (Net.lin (Net.act H g b) W) u p q := by
  unfold R2.nb Net.flip R2.hpre Net.lin Net.act R2.s
  rw [h6]
  congr 1
  exact Finset.sum_congr rfl fun k _ => by rw [h0, h1, h2, h3, h4, h5]

theorem r2_out_nb (H : Mat) (g b : Arr1 1024) (W : Arr2 1024 1024) (u : Arr2 16384 1024)
    (h0 : ∀ p k, (V c (Pipeline.arrRef spec2 0) : S16384x1024.Idx → EReal) (ix2 p k) = H p k)
    (h1 : ∀ k, (V c (Pipeline.arrRef spec2 1) : S1x1024.Idx → EReal) (ix2 (0 : Fin 1) k) = Net.mean H k)
    (h2 : ∀ k, (V c (Pipeline.arrRef spec2 2) : S1x1024.Idx → EReal) (ix2 (0 : Fin 1) k) = Net.var H k)
    (h3 : ∀ k, (V c (Pipeline.arrRef spec2 3) : S1x1024.Idx → EReal) (ix2 (0 : Fin 1) k) = g (ix1 k))
    (h4 : ∀ k, (V c (Pipeline.arrRef spec2 4) : S1x1024.Idx → EReal) (ix2 (0 : Fin 1) k) = b (ix1 k))
    (h5 : ∀ i, (V c (Pipeline.arrRef spec2 5) : S1024x1024.Idx → EReal) i = Ideal.sign (W i))
    (h6 : ∀ i, (V c (Pipeline.arrRef spec2 6) : S16384x1024.Idx → EReal) i = u i)
    (p : Fin 16384) (q : Fin 1024) :
    Eq (α := EReal) (((dat2 V c).arrAt 7 cfg2.N : S16384x1024.Idx → EReal) (ix2 p q)) (Net.flip (Net.lin (Net.act H g b) W) u p q) :=
  Eq.trans (α := EReal) (R2.out_nb V c p q) (r2_nb V c H g b W u h0 h1 h2 h3 h4 h5 h6 p q)

theorem r2_out_sum (H : Mat) (g b : Arr1 1024) (W : Arr2 1024 1024) (u : Arr2 16384 1024)
    (h0 : ∀ p k, (V c (Pipeline.arrRef spec2 0) : S16384x1024.Idx → EReal) (ix2 p k) = H p k)
    (h1 : ∀ k, (V c (Pipeline.arrRef spec2 1) : S1x1024.Idx → EReal) (ix2 (0 : Fin 1) k) = Net.mean H k)
    (h2 : ∀ k, (V c (Pipeline.arrRef spec2 2) : S1x1024.Idx → EReal) (ix2 (0 : Fin 1) k) = Net.var H k)
    (h3 : ∀ k, (V c (Pipeline.arrRef spec2 3) : S1x1024.Idx → EReal) (ix2 (0 : Fin 1) k) = g (ix1 k))
    (h4 : ∀ k, (V c (Pipeline.arrRef spec2 4) : S1x1024.Idx → EReal) (ix2 (0 : Fin 1) k) = b (ix1 k))
    (h5 : ∀ i, (V c (Pipeline.arrRef spec2 5) : S1024x1024.Idx → EReal) i = Ideal.sign (W i))
    (h6 : ∀ i, (V c (Pipeline.arrRef spec2 6) : S16384x1024.Idx → EReal) i = u i)
    (a : Fin 16) (q : Fin 1024) :
    Eq (α := EReal) (((dat2 V c).arrAt 8 cfg2.N : S16x1024.Idx → EReal) (ix2 a q)) (Net.acc (Net.flip (Net.lin (Net.act H g b) W) u) a q) := by
  refine Eq.trans (α := EReal) (R2.out_sum V c a q) ?_; unfold Net.acc
  exact Finset.sum_congr rfl fun i _ => Finset.sum_congr rfl fun r _ => r2_nb V c H g b W u h0 h1 h2 h3 h4 h5 h6 _ _

end Cert.BNN.Transfer

end
-- ==== Proof.FoldTable.lean ====
/- Which buffer each window of the four regions stages, and the result buffer's contents after the run: the fourth
   region's output window is the result buffer, so the last fold value there is what that region's write-backs leave. -/
import proofs.«171548_j65360812310623_2_alg».proof.Proof.Gen.KernelIdeal.Frame
import Idealize.ShloMosaic.PureOps.Ideal

noncomputable section

namespace Cert.BNN.Chain

open Idealize.ShloMosaic Idealize.ShloMosaic.TcCoe
open Cert.KernelIdeal Cert.KernelIdeal.Gen

/-! Region 0: window `w` stages the buffer on the right. -/
theorem arrRef0_0 : Pipeline.arrRef spec0 0 = main_arg0 := rfl
theorem arrRef0_1 : Pipeline.arrRef spec0 1 = main_v7 := rfl
theorem arrRef0_2 : Pipeline.arrRef spec0 2 = main_v14_0 := rfl
theorem arrRef0_3 : Pipeline.arrRef spec0 3 = main_v14_1 := rfl
theorem arrRef0_4 : Pipeline.arrRef spec0 4 = main_v14_2 := rfl

/-! Region 1: window `w` stages the buffer on the right. -/
theorem arrRef1_0 : Pipeline.arrRef spec1 0 = main_v14_0 := rfl
theorem arrRef1_1 : Pipeline.arrRef spec1 1 = main_v22 := rfl
theorem arrRef1_2 : Pipeline.arrRef spec1 2 = main_v26 := rfl
theorem arrRef1_3 : Pipeline.arrRef spec1 3 = main_v0 := rfl
theorem arrRef1_4 : Pipeline.arrRef spec1 4 = main_v1 := rfl
theorem arrRef1_5 : Pipeline.arrRef spec1 5 = main_v9 := rfl
theorem arrRef1_6 : Pipeline.arrRef spec1 6 = main_arg1 := rfl
theorem arrRef1_7 : Pipeline.arrRef spec1 7 = main_v27_0 := rfl
theorem arrRef1_8 : Pipeline.arrRef spec1 8 = main_v27_1 := rfl

/-! Region 2: window `w` stages the buffer on the right. -/
theorem arrRef2_0 : Pipeline.arrRef spec2 0 = main_v27_0 := rfl
theorem arrRef2_1 : Pipeline.arrRef spec2 1 = main_v32 := rfl
theorem arrRef2_2 : Pipeline.arrRef spec2 2 = main_v35 := rfl
theorem arrRef2_3 : Pipeline.arrRef spec2 3 = main_v2 := rfl
theorem arrRef2_4 : Pipeline.arrRef spec2 4 = main_v3 := rfl
theorem arrRef2_5 : Pipeline.arrRef spec2 5 = main_v11 := rfl
theorem arrRef2_6 : Pipeline.arrRef spec2 6 = main_arg2 := rfl
theorem arrRef2_7 : Pipeline.arrRef spec2 7 = main_v36_0 := rfl
theorem arrRef2_8 : Pipeline.arrRef spec2 8 = main_v36_1 := rfl

/-! Region 3: window `w` stages the buffer on the right. -/
theorem arrRef3_0 : Pipeline.arrRef spec3 0 = main_v36_0 := rfl
theorem arrRef3_1 : Pipeline.arrRef spec3 1 = main_v41 := rfl
theorem arrRef3_2 : Pipeline.arrRef spec3 2 = main_v44 := rfl
theorem arrRef3_3 : Pipeline.arrRef spec3 3 = main_v4 := rfl
theorem arrRef3_4 : Pipeline.arrRef spec3 4 = main_v5 := rfl
theorem arrRef3_5 : Pipeline.arrRef spec3 5 = main_v13 := rfl
theorem arrRef3_6 : Pipeline.arrRef spec3 6 = main_v45 := rfl

variable (m : (ℓ : Loc nD τ sig) → Buf (Elt Ideal) ℓ) (ρ : Dev nD → PrngReg)

/-- The result buffer after the run holds the fourth region's output array as its write-backs leave it. -/
theorem W8_result (c : Dev nD) : W8 m ρ c (Proc.devRef .tc main_v45) = (dat3 (V7 m ρ) c).arrAt 6 cfg3.N :=
  W8_arr m ρ c 6

end Cert.BNN.Chain

end
-- ==== Proof.FoldBase.lean ====
/- The fold through @main read at a buffer that a stretch of host operations does not write and that is no array of
   a region: such a buffer holds, at a later boundary, what it held at an earlier one. -/
import proofs.«171548_j65360812310623_2_alg».proof.Proof.Gen.KernelIdeal.Frame
import Idealize.ShloMosaic.PureOps.Ideal
import Idealize.ShloMosaic.Lib.StableHlo.Run

noncomputable section

namespace Cert.BNN.Chain

open Idealize.ShloMosaic Idealize.ShloMosaic.TcCoe
open Cert.KernelIdeal Cert.KernelIdeal.Gen

/-- The buffers the host operations before region 0 write: each operation's result. -/
abbrev wr0 : List (Ref sig .tc) := [main_v0, main_v1, main_v2, main_v3, main_v4, main_v5, main_v6, main_v7, main_v8, main_v9, main_v10, main_v11, main_v12, main_v13]

theorem hostOps0_writes : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes,
    StableHlo.reshape_writes]
  repeat' apply And.intro
  all_goals exact Finset.singleton_subset_iff.mpr (List.mem_toFinset.mpr (List.mem_map_of_mem (by decide)))

/-- A buffer none of those operations writes is, after them, as before. -/
theorem after0_skip (X : Valuation τ sig (Elt Ideal)) (b : Ref sig .tc) (hb : b ∉ wr0) :
    StableHlo.after hostOps0 X (Proc.devRef .tc b) = X (Proc.devRef .tc b) :=
  StableHlo.after_of_writes_sub hostOps0 X hostOps0_writes hb

/-- The buffers the host operations before region 1 write: each operation's result. -/
abbrev wr1 : List (Ref sig .tc) := [main_v15, main_v16, main_v17, main_v18, main_v19, main_v20, main_cst, main_v21, main_v22, main_cst_0, main_v23, main_v24, main_v25, main_v26]

theorem hostOps1_writes : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes,
    StableHlo.reshape_writes]
  repeat' apply And.intro
  all_goals exact Finset.singleton_subset_iff.mpr (List.mem_toFinset.mpr (List.mem_map_of_mem (by decide)))

/-- A buffer none of those operations writes is, after them, as before. -/
theorem after1_skip (X : Valuation τ sig (Elt Ideal)) (b : Ref sig .tc) (hb : b ∉ wr1) :
    StableHlo.after hostOps1 X (Proc.devRef .tc b) = X (Proc.devRef .tc b) :=
  StableHlo.after_of_writes_sub hostOps1 X hostOps1_writes hb

/-- The buffers the host operations before region 2 write: each operation's result. -/
abbrev wr2 : List (Ref sig .tc) := [main_v28, main_v29, main_v30, main_cst_1, main_v31, main_v32, main_v33, main_cst_2, main_v34, main_v35]

theorem hostOps2_writes : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes,
    StableHlo.reshape_writes]
  repeat' apply And.intro
  all_goals exact Finset.singleton_subset_iff.mpr (List.mem_toFinset.mpr (List.mem_map_of_mem (by decide)))

/-- A buffer none of those operations writes is, after them, as before. -/
theorem after2_skip (X : Valuation τ sig (Elt Ideal)) (b : Ref sig .tc) (hb : b ∉ wr2) :
    StableHlo.after hostOps2 X (Proc.devRef .tc b) = X (Proc.devRef .tc b) :=
  StableHlo.after_of_writes_sub hostOps2 X hostOps2_writes hb

/-- The buffers the host operations before region 3 write: each operation's result. -/
abbrev wr3 : List (Ref sig .tc) := [main_v37, main_v38, main_v39, main_cst_3, main_v40, main_v41, main_v42, main_cst_4, main_v43, main_v44]

theorem hostOps3_writes : (hostOps3 : List (HloOp τ sig (Elt Ideal))).Forall fun op =>
    op.writes ⊆ (wr3.map (Proc.devRef (τ := τ) .tc)).toFinset := by
  simp only [hostOps3, List.Forall, StableHlo.nullary_writes, StableHlo.unary_writes, StableHlo.binary_writes,
    StableHlo.reshape_writes]
  repeat' apply And.intro
  all_goals exact Finset.singleton_subset_iff.mpr (List.mem_toFinset.mpr (List.mem_map_of_mem (by decide)))

/-- A buffer none of those operations writes is, after them, as before. -/
theorem after3_skip (X : Valuation τ sig (Elt Ideal)) (b : Ref sig .tc) (hb : b ∉ wr3) :
    StableHlo.after hostOps3 X (Proc.devRef .tc b) = X (Proc.devRef .tc b) :=
  StableHlo.after_of_writes_sub hostOps3 X hostOps3_writes hb

variable (m : (ℓ : Loc nD τ sig) → Buf (Elt Ideal) ℓ) (ρ : Dev nD → PrngReg)

/-- At region 0's entry a buffer the first stretch does not write is as launched. -/
theorem W1_eq_launch (c : Dev nD) (b : Ref sig .tc) (h0 : b ∉ wr0) :
    W1 m ρ c (Proc.devRef .tc b) = m ((c.tc : Thread nD τ).loc b) :=
  after0_skip (W0 m ρ c) b h0

/-- From region 1's entry back to region 0's: not written by the second stretch, no array of region 0. -/
theorem W3_eq_W1 (c : Dev nD) (b : Ref sig .tc) (h1 : b ∉ wr1) (h0 : ∀ w, Pipeline.arrRef spec0 w ≠ b) :
    W3 m ρ c (Proc.devRef .tc b) = W1 m ρ c (Proc.devRef .tc b) :=
  (after1_skip (W2 m ρ c) b h1).trans (W2_of_ne m ρ c b h0)

/-- From region 2's entry back to region 1's: not written by the third stretch, no array of region 1. -/
theorem W5_eq_W3 (c : Dev nD) (b : Ref sig .tc) (h2 : b ∉ wr2) (h1 : ∀ w, Pipeline.arrRef spec1 w ≠ b) :
    W5 m ρ c (Proc.devRef .tc b) = W3 m ρ c (Proc.devRef .tc b) :=
  (after2_skip (W4 m ρ c) b h2).trans (W4_of_ne m ρ c b h1)

/-- From region 3's entry back to region 2's: not written by the fourth stretch, no array of region 2. -/
theorem W7_eq_W5 (c : Dev nD) (b : Ref sig .tc) (h3 : b ∉ wr3) (h2 : ∀ w, Pipeline.arrRef spec2 w ≠ b) :
    W7 m ρ c (Proc.devRef .tc b) = W5 m ρ c (Proc.devRef .tc b) :=
  (after3_skip (W6 m ρ c) b h3).trans (W6_of_ne m ρ c b h2)

end Cert.BNN.Chain

end
-- ==== Proof.FoldHost.lean ====
/- The four stretches of host operations of @main, each read over an ARBITRARY valuation of the buffers it starts
   from: the sign-and-convert of a weight matrix, the reshape of a scale or shift vector to a row, and the mean and
   variance rows computed from a region's per-core column sums (rows 0 and 8 of a [16, 1024] array added, divided
   by the batch size 16384; the variance either from the sums of squares or as one minus the mean squared). -/
import proofs.«171548_j65360812310623_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run
import Idealize.ShloMosaic.Lib.ValueLayout

noncomputable section

namespace Cert.BNN.Chain

open Idealize.ShloMosaic Idealize.ShloMosaic.TcCoe Idealize.ShloMosaic.ValueIdx
open Cert.KernelIdeal Cert.KernelIdeal.Gen

variable (X : Valuation τ sig (Elt Ideal))

/-! ## The first stretch: reshapes of the scale and shift vectors, sign-and-convert of the weights -/

/-- `main_v7` is the sign of `main_arg3`, its format changed. -/
theorem host0_v7 : StableHlo.after hostOps0 X (Proc.devRef .tc main_v7)
    = (truncf .bf16 · bitsLt_bf16_f32) (Host.sign (F := Ideal) (X (Proc.devRef .tc main_arg3))) := by
  dsimp only [hostOps0]; after_results
theorem host0_v7_apply (i : S1024x784.Idx) : StableHlo.after hostOps0 X (Proc.devRef .tc main_v7) i
    = Ideal.sign (X (Proc.devRef .tc main_arg3) i) :=
  congrFun (host0_v7 X) i

/-- `main_v9` is the sign of `main_arg4`, its format changed. -/
theorem host0_v9 : StableHlo.after hostOps0 X (Proc.devRef .tc main_v9)
    = (truncf .bf16 · bitsLt_bf16_f32) (Host.sign (F := Ideal) (X (Proc.devRef .tc main_arg4))) := by
  dsimp only [hostOps0]; after_results
theorem host0_v9_apply (i : S1024x1024.Idx) : StableHlo.after hostOps0 X (Proc.devRef .tc main_v9) i
    = Ideal.sign (X (Proc.devRef .tc main_arg4) i) :=
  congrFun (host0_v9 X) i

/-- `main_v11` is the sign of `main_arg5`, its format changed. -/
theorem host0_v11 : StableHlo.after hostOps0 X (Proc.devRef .tc main_v11)
    = (truncf .bf16 · bitsLt_bf16_f32) (Host.sign (F := Ideal) (X (Proc.devRef .tc main_arg5))) := by
  dsimp only [hostOps0]; after_results
theorem host0_v11_apply (i : S1024x1024.Idx) : StableHlo.after hostOps0 X (Proc.devRef .tc main_v11) i
    = Ideal.sign (X (Proc.devRef .tc main_arg5) i) :=
  congrFun (host0_v11 X) i

/-- `main_v13` is the sign of `main_arg6`, its format changed. -/
theorem host0_v13 : StableHlo.after hostOps0 X (Proc.devRef .tc main_v13)
    = (truncf .bf16 · bitsLt_bf16_f32) (Host.sign (F := Ideal) (X (Proc.devRef .tc main_arg6))) := by
  dsimp only [hostOps0]; after_results
theorem host0_v13_apply (i : S10x1024.Idx) : StableHlo.after hostOps0 X (Proc.devRef .tc main_v13) i
    = Ideal.sign (X (Proc.devRef .tc main_arg6) i) :=
  congrFun (host0_v13 X) i

/-- `main_v0` is `main_arg7` as a row: entry `(0, q)` is entry `q`. -/
theorem host0_v0_apply (q : Fin 1024) : StableHlo.after hostOps0 X (Proc.devRef .tc main_v0) (ix2 (0 : Fin 1) q)
    = X (Proc.devRef .tc main_arg7) (ix1 q) := by
  dsimp only [hostOps0]; after_results
  exact shapeCast_a_1a_apply (X (Proc.devRef .tc main_arg7)) shapeCasts_S1024_S1x1024 (0 : Fin 1) q

/-- `main_v1` is `main_arg8` as a row: entry `(0, q)` is entry `q`. -/
theorem host0_v1_apply (q : Fin 1024) : StableHlo.after hostOps0 X (Proc.devRef .tc main_v1) (ix2 (0 : Fin 1) q)
    = X (Proc.devRef .tc main_arg8) (ix1 q) := by
  dsimp only [hostOps0]; after_results
  exact shapeCast_a_1a_apply (X (Proc.devRef .tc main_arg8)) shapeCasts_S1024_S1x1024 (0 : Fin 1) q

/-- `main_v2` is `main_arg9` as a row: entry `(0, q)` is entry `q`. -/
theorem host0_v2_apply (q : Fin 1024) : StableHlo.after hostOps0 X (Proc.devRef .tc main_v2) (ix2 (0 : Fin 1) q)
    = X (Proc.devRef .tc main_arg9) (ix1 q) := by
  dsimp only [hostOps0]; after_results
  exact shapeCast_a_1a_apply (X (Proc.devRef .tc main_arg9)) shapeCasts_S1024_S1x1024 (0 : Fin 1) q

/-- `main_v3` is `main_arg10` as a row: entry `(0, q)` is entry `q`. -/
theorem host0_v3_apply (q : Fin 1024) : StableHlo.after hostOps0 X (Proc.devRef .tc main_v3) (ix2 (0 : Fin 1) q)
    = X (Proc.devRef .tc main_arg10) (ix1 q) := by
  dsimp only [hostOps0]; after_results
  exact shapeCast_a_1a_apply (X (Proc.devRef .tc main_arg10)) shapeCasts_S1024_S1x1024 (0 : Fin 1) q

/-- `main_v4` is `main_arg11` as a row: entry `(0, q)` is entry `q`. -/
theorem host0_v4_apply (q : Fin 1024) : StableHlo.after hostOps0 X (Proc.devRef .tc main_v4) (ix2 (0 : Fin 1) q)
    = X (Proc.devRef .tc main_arg11) (ix1 q) := by
  dsimp only [hostOps0]; after_results
  exact shapeCast_a_1a_apply (X (Proc.devRef .tc main_arg11)) shapeCasts_S1024_S1x1024 (0 : Fin 1) q

/-- `main_v5` is `main_arg12` as a row: entry `(0, q)` is entry `q`. -/
theorem host0_v5_apply (q : Fin 1024) : StableHlo.after hostOps0 X (Proc.devRef .tc main_v5) (ix2 (0 : Fin 1) q)
    = X (Proc.devRef .tc main_arg12) (ix1 q) := by
  dsimp only [hostOps0]; after_results
  exact shapeCast_a_1a_apply (X (Proc.devRef .tc main_arg12)) shapeCasts_S1024_S1x1024 (0 : Fin 1) q

/-! ## The second stretch: the first layer's mean and variance from the sums and the sums of squares -/

/-- The mean row: rows 0 and 8 of the column sums added, over 16384. -/
theorem host1_v22_apply (S : S16x1024.Idx → EReal) (hS : X (Proc.devRef .tc main_v14_1) = S) (q : Fin 1024) :
    StableHlo.after hostOps1 X (Proc.devRef .tc main_v22) (ix2 (0 : Fin 1) q) = Ideal.div (S (ix2 (0 : Fin 16) q) + S (ix2 (8 : Fin 16) q)) (Ideal.ofBits .f32 0x46800000#32) := by
  subst hS
  dsimp only [hostOps1]; after_results
  exact congrArg₂ Ideal.div (congrArg₂ (fun a b : EReal => a + b)
      (slice2_axis0_apply 0 (X (Proc.devRef .tc main_v14_1)) slices_S16x1024_S1x1024_0_0 (0 : Fin 1) q (0 : Fin 16) rfl)
      (slice2_axis0_apply 8 (X (Proc.devRef .tc main_v14_1)) slices_S16x1024_S1x1024_8_0 (0 : Fin 1) q (8 : Fin 16) rfl)) rfl

/-- The variance row: the mean of the squares minus the square of the mean. -/
theorem host1_v26_apply (S SS : S16x1024.Idx → EReal) (hS : X (Proc.devRef .tc main_v14_1) = S) (hSS : X (Proc.devRef .tc main_v14_2) = SS)
    (q : Fin 1024) :
    StableHlo.after hostOps1 X (Proc.devRef .tc main_v26) (ix2 (0 : Fin 1) q)
      = Ideal.div (SS (ix2 (0 : Fin 16) q) + SS (ix2 (8 : Fin 16) q)) (Ideal.ofBits .f32 0x46800000#32)
        - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) := by
  subst hS; subst hSS
  dsimp only [hostOps1]; after_results
  have hm := congrArg₂ Ideal.div (congrArg₂ (fun a b : EReal => a + b)
      (slice2_axis0_apply 0 (X (Proc.devRef .tc main_v14_1)) slices_S16x1024_S1x1024_0_0 (0 : Fin 1) q (0 : Fin 16) rfl)
      (slice2_axis0_apply 8 (X (Proc.devRef .tc main_v14_1)) slices_S16x1024_S1x1024_8_0 (0 : Fin 1) q (8 : Fin 16) rfl)) (rfl : (Ideal.ofBits .f32 0x46800000#32) = _)
  exact congrArg₂ (fun a b : EReal => a - b) (congrArg₂ Ideal.div (congrArg₂ (fun a b : EReal => a + b)
      (slice2_axis0_apply 0 (X (Proc.devRef .tc main_v14_2)) slices_S16x1024_S1x1024_0_0 (0 : Fin 1) q (0 : Fin 16) rfl)
      (slice2_axis0_apply 8 (X (Proc.devRef .tc main_v14_2)) slices_S16x1024_S1x1024_8_0 (0 : Fin 1) q (8 : Fin 16) rfl)) rfl) (congrArg₂ (fun a b : EReal => a * b) hm hm)

/-! ## The third stretch: a binarized layer's mean from its column sums, its variance one minus the mean squared -/

/-- The mean row: rows 0 and 8 of the column sums added, over 16384. -/
theorem host2_v32_apply (S : S16x1024.Idx → EReal) (hS : X (Proc.devRef .tc main_v27_1) = S) (q : Fin 1024) :
    StableHlo.after hostOps2 X (Proc.devRef .tc main_v32) (ix2 (0 : Fin 1) q) = Ideal.div (S (ix2 (0 : Fin 16) q) + S (ix2 (8 : Fin 16) q)) (Ideal.ofBits .f32 0x46800000#32) := by
  subst hS
  dsimp only [hostOps2]; after_results
  exact congrArg₂ Ideal.div (congrArg₂ (fun a b : EReal => a + b)
      (slice2_axis0_apply 0 (X (Proc.devRef .tc main_v27_1)) slices_S16x1024_S1x1024_0_0 (0 : Fin 1) q (0 : Fin 16) rfl)
      (slice2_axis0_apply 8 (X (Proc.devRef .tc main_v27_1)) slices_S16x1024_S1x1024_8_0 (0 : Fin 1) q (8 : Fin 16) rfl)) rfl

/-- The variance row: one minus the square of the mean. -/
theorem host2_v35_apply (S : S16x1024.Idx → EReal) (hS : X (Proc.devRef .tc main_v27_1) = S) (q : Fin 1024) :
    StableHlo.after hostOps2 X (Proc.devRef .tc main_v35) (ix2 (0 : Fin 1) q)
      = Ideal.ofBits .f32 0x3F800000#32 - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) := by
  subst hS
  dsimp only [hostOps2]; after_results
  have hm := congrArg₂ Ideal.div (congrArg₂ (fun a b : EReal => a + b)
      (slice2_axis0_apply 0 (X (Proc.devRef .tc main_v27_1)) slices_S16x1024_S1x1024_0_0 (0 : Fin 1) q (0 : Fin 16) rfl)
      (slice2_axis0_apply 8 (X (Proc.devRef .tc main_v27_1)) slices_S16x1024_S1x1024_8_0 (0 : Fin 1) q (8 : Fin 16) rfl)) (rfl : (Ideal.ofBits .f32 0x46800000#32) = _)
  exact congrArg₂ (fun a b : EReal => a - b) rfl (congrArg₂ (fun a b : EReal => a * b) hm hm)

/-! ## The fourth stretch: a binarized layer's mean from its column sums, its variance one minus the mean squared -/

/-- The mean row: rows 0 and 8 of the column sums added, over 16384. -/
theorem host3_v41_apply (S : S16x1024.Idx → EReal) (hS : X (Proc.devRef .tc main_v36_1) = S) (q : Fin 1024) :
    StableHlo.after hostOps3 X (Proc.devRef .tc main_v41) (ix2 (0 : Fin 1) q) = Ideal.div (S (ix2 (0 : Fin 16) q) + S (ix2 (8 : Fin 16) q)) (Ideal.ofBits .f32 0x46800000#32) := by
  subst hS
  dsimp only [hostOps3]; after_results
  exact congrArg₂ Ideal.div (congrArg₂ (fun a b : EReal => a + b)
      (slice2_axis0_apply 0 (X (Proc.devRef .tc main_v36_1)) slices_S16x1024_S1x1024_0_0 (0 : Fin 1) q (0 : Fin 16) rfl)
      (slice2_axis0_apply 8 (X (Proc.devRef .tc main_v36_1)) slices_S16x1024_S1x1024_8_0 (0 : Fin 1) q (8 : Fin 16) rfl)) rfl

/-- The variance row: one minus the square of the mean. -/
theorem host3_v44_apply (S : S16x1024.Idx → EReal) (hS : X (Proc.devRef .tc main_v36_1) = S) (q : Fin 1024) :
    StableHlo.after hostOps3 X (Proc.devRef .tc main_v44) (ix2 (0 : Fin 1) q)
      = Ideal.ofBits .f32 0x3F800000#32 - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) := by
  subst hS
  dsimp only [hostOps3]; after_results
  have hm := congrArg₂ Ideal.div (congrArg₂ (fun a b : EReal => a + b)
      (slice2_axis0_apply 0 (X (Proc.devRef .tc main_v36_1)) slices_S16x1024_S1x1024_0_0 (0 : Fin 1) q (0 : Fin 16) rfl)
      (slice2_axis0_apply 8 (X (Proc.devRef .tc main_v36_1)) slices_S16x1024_S1x1024_8_0 (0 : Fin 1) q (8 : Fin 16) rfl)) (rfl : (Ideal.ofBits .f32 0x46800000#32) = _)
  exact congrArg₂ (fun a b : EReal => a - b) rfl (congrArg₂ (fun a b : EReal => a * b) hm hm)

end Cert.BNN.Chain

end
-- ==== Proof.Fold0.lean ====
/- Region 0's inputs as it finds them: the batch as launched, the first weight matrix's sign. -/
import proofs.«171548_j65360812310623_2_alg».proof.Proof.FoldBase
import proofs.«171548_j65360812310623_2_alg».proof.Proof.FoldHost

noncomputable section

namespace Cert.BNN.Chain

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

theorem V1_arg0 (c : Dev nD) : V1 m ρ c main_arg0 = m ((c.tc : Thread nD τ).loc main_arg0) :=
  W1_eq_launch m ρ c main_arg0 (by decide)

theorem V1_v7 (c : Dev nD) : V1 m ρ c main_v7 = (truncf .bf16 · bitsLt_bf16_f32) (Host.sign (F := Ideal) (m ((c.tc : Thread nD τ).loc main_arg3))) :=
  host0_v7 (W0 m ρ c)

theorem V1_v7_apply (c : Dev nD) (i : S1024x784.Idx) : V1 m ρ c main_v7 i = Ideal.sign (m ((c.tc : Thread nD τ).loc main_arg3) i) :=
  host0_v7_apply (W0 m ρ c) i

end Cert.BNN.Chain

end
-- ==== Proof.Fold1.lean ====
/- Region 1's inputs as it finds them: region 0's three output arrays as its write-backs leave them, the first
   layer's mean and variance rows computed from the column sums, the scale and shift rows, the second weight
   matrix's sign, the first uniform array as launched. -/
import proofs.«171548_j65360812310623_2_alg».proof.Proof.FoldBase
import proofs.«171548_j65360812310623_2_alg».proof.Proof.FoldHost

noncomputable section

namespace Cert.BNN.Chain

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

theorem V3_v14_0 (c : Dev nD) : V3 m ρ c main_v14_0 = (dat0 (V1 m ρ) c).arrAt 2 cfg0.N :=
  (after1_skip (W2 m ρ c) main_v14_0 (by decide)).trans (W2_arr m ρ c 2)

theorem V3_v14_1 (c : Dev nD) : V3 m ρ c main_v14_1 = (dat0 (V1 m ρ) c).arrAt 3 cfg0.N :=
  (after1_skip (W2 m ρ c) main_v14_1 (by decide)).trans (W2_arr m ρ c 3)

theorem V3_v14_2 (c : Dev nD) : V3 m ρ c main_v14_2 = (dat0 (V1 m ρ) c).arrAt 4 cfg0.N :=
  (after1_skip (W2 m ρ c) main_v14_2 (by decide)).trans (W2_arr m ρ c 4)

theorem V3_v22_apply (c : Dev nD) (S : S16x1024.Idx → EReal) (hS : (dat0 (V1 m ρ) c).arrAt 3 cfg0.N = S) (q : Fin 1024) :
    V3 m ρ c main_v22 (ix2 (0 : Fin 1) q) = Ideal.div (S (ix2 (0 : Fin 16) q) + S (ix2 (8 : Fin 16) q)) (Ideal.ofBits .f32 0x46800000#32) :=
  host1_v22_apply (W2 m ρ c) S ((W2_arr m ρ c 3).trans hS) q

theorem V3_v26_apply (c : Dev nD) (S SS : S16x1024.Idx → EReal) (hS : (dat0 (V1 m ρ) c).arrAt 3 cfg0.N = S)
    (hSS : (dat0 (V1 m ρ) c).arrAt 4 cfg0.N = SS) (q : Fin 1024) :
    V3 m ρ c main_v26 (ix2 (0 : Fin 1) q)
      = Ideal.div (SS (ix2 (0 : Fin 16) q) + SS (ix2 (8 : Fin 16) q)) (Ideal.ofBits .f32 0x46800000#32)
        - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) :=
  host1_v26_apply (W2 m ρ c) S SS ((W2_arr m ρ c 3).trans hS) ((W2_arr m ρ c 4).trans hSS) q

theorem V3_v0_apply (c : Dev nD) (q : Fin 1024) : V3 m ρ c main_v0 (ix2 (0 : Fin 1) q) = m ((c.tc : Thread nD τ).loc main_arg7) (ix1 q) :=
  (congrFun (W3_eq_W1 m ρ c main_v0 (by decide) (by decide)) (ix2 (0 : Fin 1) q)).trans (host0_v0_apply (W0 m ρ c) q)

theorem V3_v1_apply (c : Dev nD) (q : Fin 1024) : V3 m ρ c main_v1 (ix2 (0 : Fin 1) q) = m ((c.tc : Thread nD τ).loc main_arg8) (ix1 q) :=
  (congrFun (W3_eq_W1 m ρ c main_v1 (by decide) (by decide)) (ix2 (0 : Fin 1) q)).trans (host0_v1_apply (W0 m ρ c) q)

theorem V3_v9_apply (c : Dev nD) (i : S1024x1024.Idx) : V3 m ρ c main_v9 i = Ideal.sign (m ((c.tc : Thread nD τ).loc main_arg4) i) :=
  (congrFun (W3_eq_W1 m ρ c main_v9 (by decide) (by decide)) i).trans (host0_v9_apply (W0 m ρ c) i)

theorem V3_arg1 (c : Dev nD) : V3 m ρ c main_arg1 = m ((c.tc : Thread nD τ).loc main_arg1) :=
  (W3_eq_W1 m ρ c main_arg1 (by decide) (by decide)).trans (W1_eq_launch m ρ c main_arg1 (by decide))

end Cert.BNN.Chain

end
-- ==== Proof.Fold2.lean ====
/- Region 2's inputs as it finds them: region 1's two output arrays as its write-backs leave them, the second
   layer's mean and variance rows, the scale and shift rows, the third weight matrix's sign, the second uniform
   array as launched. -/
import proofs.«171548_j65360812310623_2_alg».proof.Proof.FoldBase
import proofs.«171548_j65360812310623_2_alg».proof.Proof.FoldHost

noncomputable section

namespace Cert.BNN.Chain

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

theorem V5_v27_0 (c : Dev nD) : V5 m ρ c main_v27_0 = (dat1 (V3 m ρ) c).arrAt 7 cfg1.N :=
  (after2_skip (W4 m ρ c) main_v27_0 (by decide)).trans (W4_arr m ρ c 7)

theorem V5_v27_1 (c : Dev nD) : V5 m ρ c main_v27_1 = (dat1 (V3 m ρ) c).arrAt 8 cfg1.N :=
  (after2_skip (W4 m ρ c) main_v27_1 (by decide)).trans (W4_arr m ρ c 8)

theorem V5_v32_apply (c : Dev nD) (S : S16x1024.Idx → EReal) (hS : (dat1 (V3 m ρ) c).arrAt 8 cfg1.N = S) (q : Fin 1024) :
    V5 m ρ c main_v32 (ix2 (0 : Fin 1) q) = Ideal.div (S (ix2 (0 : Fin 16) q) + S (ix2 (8 : Fin 16) q)) (Ideal.ofBits .f32 0x46800000#32) :=
  host2_v32_apply (W4 m ρ c) S ((W4_arr m ρ c 8).trans hS) q

theorem V5_v35_apply (c : Dev nD) (S : S16x1024.Idx → EReal) (hS : (dat1 (V3 m ρ) c).arrAt 8 cfg1.N = S) (q : Fin 1024) :
    V5 m ρ c main_v35 (ix2 (0 : Fin 1) q)
      = Ideal.ofBits .f32 0x3F800000#32 - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) :=
  host2_v35_apply (W4 m ρ c) S ((W4_arr m ρ c 8).trans hS) q

theorem V5_v2_apply (c : Dev nD) (q : Fin 1024) : V5 m ρ c main_v2 (ix2 (0 : Fin 1) q) = m ((c.tc : Thread nD τ).loc main_arg9) (ix1 q) :=
  (congrFun ((W5_eq_W3 m ρ c main_v2 (by decide) (by decide)).trans (W3_eq_W1 m ρ c main_v2 (by decide) (by decide))) (ix2 (0 : Fin 1) q)).trans (host0_v2_apply (W0 m ρ c) q)

theorem V5_v3_apply (c : Dev nD) (q : Fin 1024) : V5 m ρ c main_v3 (ix2 (0 : Fin 1) q) = m ((c.tc : Thread nD τ).loc main_arg10) (ix1 q) :=
  (congrFun ((W5_eq_W3 m ρ c main_v3 (by decide) (by decide)).trans (W3_eq_W1 m ρ c main_v3 (by decide) (by decide))) (ix2 (0 : Fin 1) q)).trans (host0_v3_apply (W0 m ρ c) q)

theorem V5_v11_apply (c : Dev nD) (i : S1024x1024.Idx) : V5 m ρ c main_v11 i = Ideal.sign (m ((c.tc : Thread nD τ).loc main_arg5) i) :=
  (congrFun ((W5_eq_W3 m ρ c main_v11 (by decide) (by decide)).trans (W3_eq_W1 m ρ c main_v11 (by decide) (by decide))) i).trans (host0_v11_apply (W0 m ρ c) i)

theorem V5_arg2 (c : Dev nD) : V5 m ρ c main_arg2 = m ((c.tc : Thread nD τ).loc main_arg2) :=
  ((W5_eq_W3 m ρ c main_arg2 (by decide) (by decide)).trans (W3_eq_W1 m ρ c main_arg2 (by decide) (by decide))).trans (W1_eq_launch m ρ c main_arg2 (by decide))

end Cert.BNN.Chain

end
-- ==== Proof.Fold3.lean ====
/- Region 3's inputs as it finds them: region 2's two output arrays as its write-backs leave them, the third
   layer's mean and variance rows, the scale and shift rows, the last weight matrix's sign. -/
import proofs.«171548_j65360812310623_2_alg».proof.Proof.FoldBase
import proofs.«171548_j65360812310623_2_alg».proof.Proof.FoldHost

noncomputable section

namespace Cert.BNN.Chain

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

theorem V7_v36_0 (c : Dev nD) : V7 m ρ c main_v36_0 = (dat2 (V5 m ρ) c).arrAt 7 cfg2.N :=
  (after3_skip (W6 m ρ c) main_v36_0 (by decide)).trans (W6_arr m ρ c 7)

theorem V7_v36_1 (c : Dev nD) : V7 m ρ c main_v36_1 = (dat2 (V5 m ρ) c).arrAt 8 cfg2.N :=
  (after3_skip (W6 m ρ c) main_v36_1 (by decide)).trans (W6_arr m ρ c 8)

theorem V7_v41_apply (c : Dev nD) (S : S16x1024.Idx → EReal) (hS : (dat2 (V5 m ρ) c).arrAt 8 cfg2.N = S) (q : Fin 1024) :
    V7 m ρ c main_v41 (ix2 (0 : Fin 1) q) = Ideal.div (S (ix2 (0 : Fin 16) q) + S (ix2 (8 : Fin 16) q)) (Ideal.ofBits .f32 0x46800000#32) :=
  host3_v41_apply (W6 m ρ c) S ((W6_arr m ρ c 8).trans hS) q

theorem V7_v44_apply (c : Dev nD) (S : S16x1024.Idx → EReal) (hS : (dat2 (V5 m ρ) c).arrAt 8 cfg2.N = S) (q : Fin 1024) :
    V7 m ρ c main_v44 (ix2 (0 : Fin 1) q)
      = Ideal.ofBits .f32 0x3F800000#32 - Ideal.div (S (ix2 (0 : Fin 16) q) + S (ix2 (8 : Fin 16) q)) (Ideal.ofBits .f32 0x46800000#32) * Ideal.div (S (ix2 (0 : Fin 16) q) + S (ix2 (8 : Fin 16) q)) (Ideal.ofBits .f32 0x46800000#32) :=
  host3_v44_apply (W6 m ρ c) S ((W6_arr m ρ c 8).trans hS) q

theorem V7_v4_apply (c : Dev nD) (q : Fin 1024) : V7 m ρ c main_v4 (ix2 (0 : Fin 1) q) = m ((c.tc : Thread nD τ).loc main_arg11) (ix1 q) :=
  (congrFun (((W7_eq_W5 m ρ c main_v4 (by decide) (by decide)).trans (W5_eq_W3 m ρ c main_v4 (by decide) (by decide))).trans (W3_eq_W1 m ρ c main_v4 (by decide) (by decide))) (ix2 (0 : Fin 1) q)).trans (host0_v4_apply (W0 m ρ c) q)

theorem V7_v5_apply (c : Dev nD) (q : Fin 1024) : V7 m ρ c main_v5 (ix2 (0 : Fin 1) q) = m ((c.tc : Thread nD τ).loc main_arg12) (ix1 q) :=
  (congrFun (((W7_eq_W5 m ρ c main_v5 (by decide) (by decide)).trans (W5_eq_W3 m ρ c main_v5 (by decide) (by decide))).trans (W3_eq_W1 m ρ c main_v5 (by decide) (by decide))) (ix2 (0 : Fin 1) q)).trans (host0_v5_apply (W0 m ρ c) q)

theorem V7_v13_apply (c : Dev nD) (i : S10x1024.Idx) : V7 m ρ c main_v13 i = Ideal.sign (m ((c.tc : Thread nD τ).loc main_arg6) i) :=
  (congrFun (((W7_eq_W5 m ρ c main_v13 (by decide) (by decide)).trans (W5_eq_W3 m ρ c main_v13 (by decide) (by decide))).trans (W3_eq_W1 m ρ c main_v13 (by decide) (by decide))) i).trans (host0_v13_apply (W0 m ρ c) i)

end Cert.BNN.Chain

end
-- ==== Proof.KValue.lean ====
/-
  The kernel program's result is the network's output.

  The kernel program is four regions with a few host operations between them.  Region 0 leaves the first layer's
  pre-activations and, per core, the column totals of them and of their squares; the host operations turn rows 0 and 8
  of those totals into the column means and variances.  Regions 1 and 2 each normalize with those statistics, take
  signs, multiply by the next weights' signs, flip signs at random, and leave the flipped signs with their per-core
  column totals; the host turns the totals into the next mean and, the entries being ±1, the variance as one minus the
  squared mean.  Region 3 normalizes once more and multiplies by the last weights' signs.  Reading each region's
  inputs where the run left them and using the two forms of the variance, the result array holds the network's output
  at every entry — provided the data matrix has real entries, which the first layer's variance needs.
-/
import proofs.«171548_j65360812310623_2_alg».proof.Proof.Transfer
import proofs.«171548_j65360812310623_2_alg».proof.Proof.FoldTable
import proofs.«171548_j65360812310623_2_alg».proof.Proof.Fold0
import proofs.«171548_j65360812310623_2_alg».proof.Proof.Fold1
import proofs.«171548_j65360812310623_2_alg».proof.Proof.Fold2
import proofs.«171548_j65360812310623_2_alg».proof.Proof.Fold3

noncomputable section

namespace Cert.BNN.KValue
open Idealize.ShloMosaic Idealize.ShloMosaic.TcCoe Idealize.ShloMosaic.ValueIdx Idealize.SL.Sem Cert.KernelIdeal Cert.KernelIdeal.Gen
open Cert.BNN.Net Cert.BNN.Transfer Cert.BNN.Chain Cert.RealValued
variable (m : (ℓ : Loc nD τ sig) → Buf (Elt Ideal) ℓ) (ρ : Dev nD → PrngReg) (c : Dev nD)

/-- The thirteen inputs on core `c`, as arrays of extended reals. -/
abbrev ax : Arr2 16384 784 := m ((c.tc : Thread nD τ).loc main_arg0)
abbrev au2 : Arr2 16384 1024 := m ((c.tc : Thread nD τ).loc main_arg1)
abbrev au3 : Arr2 16384 1024 := m ((c.tc : Thread nD τ).loc main_arg2)
abbrev aW1 : Arr2 1024 784 := m ((c.tc : Thread nD τ).loc main_arg3)
abbrev aW2 : Arr2 1024 1024 := m ((c.tc : Thread nD τ).loc main_arg4)
abbrev aW3 : Arr2 1024 1024 := m ((c.tc : Thread nD τ).loc main_arg5)
abbrev aW4 : Arr2 10 1024 := m ((c.tc : Thread nD τ).loc main_arg6)
abbrev ag1 : Arr1 1024 := m ((c.tc : Thread nD τ).loc main_arg7)
abbrev ab1 : Arr1 1024 := m ((c.tc : Thread nD τ).loc main_arg8)
abbrev ag2 : Arr1 1024 := m ((c.tc : Thread nD τ).loc main_arg9)
abbrev ab2 : Arr1 1024 := m ((c.tc : Thread nD τ).loc main_arg10)
abbrev ag3 : Arr1 1024 := m ((c.tc : Thread nD τ).loc main_arg11)
abbrev ab3 : Arr1 1024 := m ((c.tc : Thread nD τ).loc main_arg12)

/-! ### Region 0 at its entry contents -/

theorem hX0 (i) : R0.Xa (V1 m ρ) c i = ax m c i := congrFun (V1_arg0 m ρ c) i
theorem hW0 (i) : R0.Wa (V1 m ρ) c i = Ideal.sign (aW1 m c i) := V1_v7_apply m ρ c i

theorem k_h1 (p : Fin 16384) (q : Fin 1024) :
    Eq (α := EReal) ((V3 m ρ c (Pipeline.arrRef spec1 0) : S16384x1024.Idx → EReal) (ix2 p q)) (Net.h1 (ax m c) (aW1 m c) p q) :=
  Eq.trans (α := EReal) (congrFun (V3_v14_0 m ρ c) (ix2 p q))
    (Eq.trans (α := EReal) (R0.out_h1 (V1 m ρ) c p q) (r0_h1 (V1 m ρ) c _ _ (hX0 m ρ c) (hW0 m ρ c) p q))

theorem k_mean1 (k : Fin 1024) :
    Eq (α := EReal) ((V3 m ρ c (Pipeline.arrRef spec1 1) : S1x1024.Idx → EReal) (ix2 (0 : Fin 1) k)) (Net.mean (Net.h1 (ax m c) (aW1 m c)) k) :=
  Eq.trans (α := EReal) (V3_v22_apply m ρ c (fun i => (dat0 (V1 m ρ) c).arrAt 3 cfg0.N i) rfl k)
    (Eq.trans (α := EReal)
      (congrArg₂ (fun a b : EReal => Ideal.div (a + b) (Ideal.ofBits .f32 0x46800000#32))
        (r0_sum (V1 m ρ) c _ _ (hX0 m ρ c) (hW0 m ρ c) 0 k) (r0_sum (V1 m ρ) c _ _ (hX0 m ρ c) (hW0 m ρ c) 8 k))
      (Net.acc_mean _ k))

theorem k_var1 (hx : ∀ i, IsReal (ax m c i)) (k : Fin 1024) :
    Eq (α := EReal) ((V3 m ρ c (Pipeline.arrRef spec1 2) : S1x1024.Idx → EReal) (ix2 (0 : Fin 1) k)) (Net.var (Net.h1 (ax m c) (aW1 m c)) k) :=
  Eq.trans (α := EReal) (V3_v26_apply m ρ c (fun i => (dat0 (V1 m ρ) c).arrAt 3 cfg0.N i) (fun i => (dat0 (V1 m ρ) c).arrAt 4 cfg0.N i) rfl rfl k)
    (Eq.trans (α := EReal)
      (congrArg₂ (fun a b : EReal => a - b * b)
        (congrArg₂ (fun a b : EReal => Ideal.div (a + b) (Ideal.ofBits .f32 0x46800000#32))
          (r0_sumsq (V1 m ρ) c _ _ (hX0 m ρ c) (hW0 m ρ c) 0 k) (r0_sumsq (V1 m ρ) c _ _ (hX0 m ρ c) (hW0 m ρ c) 8 k))
        (congrArg₂ (fun a b : EReal => Ideal.div (a + b) (Ideal.ofBits .f32 0x46800000#32))
          (r0_sum (V1 m ρ) c _ _ (hX0 m ρ c) (hW0 m ρ c) 0 k) (r0_sum (V1 m ρ) c _ _ (hX0 m ρ c) (hW0 m ρ c) 8 k)))
      (Net.acc_var_real _ k (fun p => Net.h1_real _ _ hx p k)))

/-! ### The scale and shift rows, the weights' signs and the uniform numbers, where each region reads them -/

theorem k1_h3 (k : Fin 1024) : Eq (α := EReal) ((V3 m ρ c (Pipeline.arrRef spec1 3) : S1x1024.Idx → EReal) (ix2 (0 : Fin 1) k)) (ag1 m c (ix1 k)) := V3_v0_apply m ρ c k
theorem k1_h4 (k : Fin 1024) : Eq (α := EReal) ((V3 m ρ c (Pipeline.arrRef spec1 4) : S1x1024.Idx → EReal) (ix2 (0 : Fin 1) k)) (ab1 m c (ix1 k)) := V3_v1_apply m ρ c k
theorem k1_h5 (i) : Eq (α := EReal) ((V3 m ρ c (Pipeline.arrRef spec1 5) : S1024x1024.Idx → EReal) i) (Ideal.sign (aW2 m c i)) := V3_v9_apply m ρ c i
theorem k1_h6 (i) : Eq (α := EReal) ((V3 m ρ c (Pipeline.arrRef spec1 6) : S16384x1024.Idx → EReal) i) (au2 m c i) := congrFun (V3_arg1 m ρ c) i
theorem k2_h3 (k : Fin 1024) : Eq (α := EReal) ((V5 m ρ c (Pipeline.arrRef spec2 3) : S1x1024.Idx → EReal) (ix2 (0 : Fin 1) k)) (ag2 m c (ix1 k)) := V5_v2_apply m ρ c k
theorem k2_h4 (k : Fin 1024) : Eq (α := EReal) ((V5 m ρ c (Pipeline.arrRef spec2 4) : S1x1024.Idx → EReal) (ix2 (0 : Fin 1) k)) (ab2 m c (ix1 k)) := V5_v3_apply m ρ c k
theorem k2_h5 (i) : Eq (α := EReal) ((V5 m ρ c (Pipeline.arrRef spec2 5) : S1024x1024.Idx → EReal) i) (Ideal.sign (aW3 m c i)) := V5_v11_apply m ρ c i
theorem k2_h6 (i) : Eq (α := EReal) ((V5 m ρ c (Pipeline.arrRef spec2 6) : S16384x1024.Idx → EReal) i) (au3 m c i) := congrFun (V5_arg2 m ρ c) i
theorem k3_h3 (k : Fin 1024) : Eq (α := EReal) ((V7 m ρ c (Pipeline.arrRef spec3 3) : S1x1024.Idx → EReal) (ix2 (0 : Fin 1) k)) (ag3 m c (ix1 k)) := V7_v4_apply m ρ c k
theorem k3_h4 (k : Fin 1024) : Eq (α := EReal) ((V7 m ρ c (Pipeline.arrRef spec3 4) : S1x1024.Idx → EReal) (ix2 (0 : Fin 1) k)) (ab3 m c (ix1 k)) := V7_v5_apply m ρ c k
theorem k3_h5 (i) : Eq (α := EReal) ((V7 m ρ c (Pipeline.arrRef spec3 5) : S10x1024.Idx → EReal) i) (Ideal.sign (aW4 m c i)) := V7_v13_apply m ρ c i

/-! ### From the first layer's statistics to the output -/

section chain
variable (hx : ∀ i, IsReal (ax m c i))
include hx

/-- Region 1 leaves the second layer's flipped signs. -/
theorem k_nb2 (p : Fin 16384) (q : Fin 1024) :
    Eq (α := EReal) ((V5 m ρ c (Pipeline.arrRef spec2 0) : S16384x1024.Idx → EReal) (ix2 p q))
      (Net.nb2 (ax m c) (au2 m c) (aW1 m c) (aW2 m c) (ag1 m c) (ab1 m c) p q) :=
  Eq.trans (α := EReal) (congrFun (V5_v27_0 m ρ c) (ix2 p q))
    (r1_out_nb (V3 m ρ) c _ _ _ _ _ (k_h1 m ρ c) (k_mean1 m ρ c) (k_var1 m ρ c hx) (k1_h3 m ρ c) (k1_h4 m ρ c) (k1_h5 m ρ c) (k1_h6 m ρ c) p q)

theorem k_acc2 (a : Fin 16) (q : Fin 1024) :
    Eq (α := EReal) (((dat1 (V3 m ρ) c).arrAt 8 cfg1.N : S16x1024.Idx → EReal) (ix2 a q))
      (Net.acc (Net.nb2 (ax m c) (au2 m c) (aW1 m c) (aW2 m c) (ag1 m c) (ab1 m c)) a q) :=
  r1_out_sum (V3 m ρ) c _ _ _ _ _ (k_h1 m ρ c) (k_mean1 m ρ c) (k_var1 m ρ c hx) (k1_h3 m ρ c) (k1_h4 m ρ c) (k1_h5 m ρ c) (k1_h6 m ρ c) a q

theorem k_mean2 (k : Fin 1024) :
    Eq (α := EReal) ((V5 m ρ c (Pipeline.arrRef spec2 1) : S1x1024.Idx → EReal) (ix2 (0 : Fin 1) k))
      (Net.mean (Net.nb2 (ax m c) (au2 m c) (aW1 m c) (aW2 m c) (ag1 m c) (ab1 m c)) k) :=
  Eq.trans (α := EReal) (V5_v32_apply m ρ c (fun i => (dat1 (V3 m ρ) c).arrAt 8 cfg1.N i) rfl k)
    (Eq.trans (α := EReal)
      (congrArg₂ (fun a b : EReal => Ideal.div (a + b) (Ideal.ofBits .f32 0x46800000#32)) (k_acc2 m ρ c hx 0 k) (k_acc2 m ρ c hx 8 k))
      (Net.acc_mean _ k))

theorem k_var2 (k : Fin 1024) :
    Eq (α := EReal) ((V5 m ρ c (Pipeline.arrRef spec2 2) : S1x1024.Idx → EReal) (ix2 (0 : Fin 1) k))
      (Net.var (Net.nb2 (ax m c) (au2 m c) (aW1 m c) (aW2 m c) (ag1 m c) (ab1 m c)) k) :=
  Eq.trans (α := EReal) (V5_v35_apply m ρ c (fun i => (dat1 (V3 m ρ) c).arrAt 8 cfg1.N i) rfl k)
    (Eq.trans (α := EReal)
      (congrArg (fun a : EReal => Ideal.ofBits .f32 0x3F800000#32 - a * a)
        (congrArg₂ (fun a b : EReal => Ideal.div (a + b) (Ideal.ofBits .f32 0x46800000#32)) (k_acc2 m ρ c hx 0 k) (k_acc2 m ρ c hx 8 k)))
      (Net.acc_var_pm1 _ k (fun p => Net.flip_pm1 _ _ p k)))

/-- Region 2 leaves the third layer's flipped signs. -/
theorem k_nb3 (p : Fin 16384) (q : Fin 1024) :
    Eq (α := EReal) ((V7 m ρ c (Pipeline.arrRef spec3 0) : S16384x1024.Idx → EReal) (ix2 p q))
      (Net.nb3 (ax m c) (au2 m c) (au3 m c) (aW1 m c) (aW2 m c) (aW3 m c) (ag1 m c) (ab1 m c) (ag2 m c) (ab2 m c) p q) :=
  Eq.trans (α := EReal) (congrFun (V7_v36_0 m ρ c) (ix2 p q))
    (r2_out_nb (V5 m ρ) c _ _ _ _ _ (k_nb2 m ρ c hx) (k_mean2 m ρ c hx) (k_var2 m ρ c hx) (k2_h3 m ρ c) (k2_h4 m ρ c) (k2_h5 m ρ c) (k2_h6 m ρ c) p q)

theorem k_acc3 (a : Fin 16) (q : Fin 1024) :
    Eq (α := EReal) (((dat2 (V5 m ρ) c).arrAt 8 cfg2.N : S16x1024.Idx → EReal) (ix2 a q))
      (Net.acc (Net.nb3 (ax m c) (au2 m c) (au3 m c) (aW1 m c) (aW2 m c) (aW3 m c) (ag1 m c) (ab1 m c) (ag2 m c) (ab2 m c)) a q) :=
  r2_out_sum (V5 m ρ) c _ _ _ _ _ (k_nb2 m ρ c hx) (k_mean2 m ρ c hx) (k_var2 m ρ c hx) (k2_h3 m ρ c) (k2_h4 m ρ c) (k2_h5 m ρ c) (k2_h6 m ρ c) a q

theorem k_mean3 (k : Fin 1024) :
    Eq (α := EReal) ((V7 m ρ c (Pipeline.arrRef spec3 1) : S1x1024.Idx → EReal) (ix2 (0 : Fin 1) k))
      (Net.mean (Net.nb3 (ax m c) (au2 m c) (au3 m c) (aW1 m c) (aW2 m c) (aW3 m c) (ag1 m c) (ab1 m c) (ag2 m c) (ab2 m c)) k) :=
  Eq.trans (α := EReal) (V7_v41_apply m ρ c (fun i => (dat2 (V5 m ρ) c).arrAt 8 cfg2.N i) rfl k)
    (Eq.trans (α := EReal)
      (congrArg₂ (fun a b : EReal => Ideal.div (a + b) (Ideal.ofBits .f32 0x46800000#32)) (k_acc3 m ρ c hx 0 k) (k_acc3 m ρ c hx 8 k))
      (Net.acc_mean _ k))

theorem k_var3 (k : Fin 1024) :
    Eq (α := EReal) ((V7 m ρ c (Pipeline.arrRef spec3 2) : S1x1024.Idx → EReal) (ix2 (0 : Fin 1) k))
      (Net.var (Net.nb3 (ax m c) (au2 m c) (au3 m c) (aW1 m c) (aW2 m c) (aW3 m c) (ag1 m c) (ab1 m c) (ag2 m c) (ab2 m c)) k) :=
  Eq.trans (α := EReal) (V7_v44_apply m ρ c (fun i => (dat2 (V5 m ρ) c).arrAt 8 cfg2.N i) rfl k)
    (Eq.trans (α := EReal)
      (congrArg (fun a : EReal => Ideal.ofBits .f32 0x3F800000#32 - a * a)
        (congrArg₂ (fun a b : EReal => Ideal.div (a + b) (Ideal.ofBits .f32 0x46800000#32)) (k_acc3 m ρ c hx 0 k) (k_acc3 m ρ c hx 8 k)))
      (Net.acc_var_pm1 _ k (fun p => Net.flip_pm1 _ _ p k)))

/-- The kernel program's result, entry by entry, is the network's output of its inputs. -/
theorem kernel_value (p : Fin 16384) (o : Fin 10) :
    Eq (α := EReal) ((W8 m ρ c (Proc.devRef .tc main_v45) : S16384x10.Idx → EReal) (ix2 p o))
      (Net.out (ax m c) (au2 m c) (au3 m c) (aW1 m c) (aW2 m c) (aW3 m c) (aW4 m c) (ag1 m c) (ab1 m c) (ag2 m c) (ab2 m c) (ag3 m c) (ab3 m c) p o) :=
  Eq.trans (α := EReal) (congrFun (W8_result m ρ c) (ix2 p o))
    (r3_out (V7 m ρ) c _ _ _ _ (k_nb3 m ρ c hx) (k_mean3 m ρ c hx) (k_var3 m ρ c hx) (k3_h3 m ρ c) (k3_h4 m ρ c) (k3_h5 m ρ c) p o)

end chain

end Cert.BNN.KValue

end
-- ==== Proof.Claims.lean ====
/-
  The five claims, assembled.

  Three frames: each program runs to the end without a fault and leaves its thirteen argument arrays as launched;
  for the two kernel programs this is the generated frame, for the reference it is its run with the result named,
  the result's conjunct dropped.  The idealization is sanctioned site by site: three reads of a sign bit of a
  [512, 1024] single-precision vector, one in each layer after the first.  And over the extended reals the
  idealized kernel and the idealized reference, started from memories that agree on the arguments, end with the
  same [16384, 10] array: entry (p, o) of either is the four-layer network's output at (p, o) as one function of the
  arguments.  The kernel's side of that needs the first argument's entries to be real numbers (to trade the mean of
  the squares minus the squared mean for the variance), which is what the precondition says.
-/
import proofs.«171548_j65360812310623_2_alg».proof.Defs
import proofs.«171548_j65360812310623_2_alg».proof.Proof.Gen.Kernel
import proofs.«171548_j65360812310623_2_alg».proof.Proof.Gen.Kernel.Frame
import proofs.«171548_j65360812310623_2_alg».proof.Proof.Gen.KernelIdeal
import proofs.«171548_j65360812310623_2_alg».proof.Proof.Gen.KernelIdeal.Frame
import proofs.«171548_j65360812310623_2_alg».proof.Proof.Gen.ReferenceIdeal
import proofs.«171548_j65360812310623_2_alg».proof.Proof.Gen.Pre_finite_inputs
import proofs.«171548_j65360812310623_2_alg».proof.Proof.KRun
import proofs.«171548_j65360812310623_2_alg».proof.Proof.RefTerm
import proofs.«171548_j65360812310623_2_alg».proof.Proof.RefRead
import proofs.«171548_j65360812310623_2_alg».proof.Proof.Net
import proofs.«171548_j65360812310623_2_alg».proof.Proof.Finite
import proofs.«171548_j65360812310623_2_alg».proof.Proof.LibRealValued
import proofs.«171548_j65360812310623_2_alg».proof.Proof.RefRun
import proofs.«171548_j65360812310623_2_alg».proof.Proof.KValue
import Idealize.ShloMosaic.Lib.ValueIdx
import Idealize.ShloMosaic.PureOps.IdealRules

noncomputable section

namespace Cert.Proof.BNNClaims

open Idealize.ShloMosaic Idealize.ShloMosaic.TcCoe Idealize.SL.Sem Idealize.ShloMosaic.ValueIdx

/-- The kernel as printed runs, and its argument arrays end as launched. -/
theorem frame_k : Cert.frame_Kernel := fun m ρ _ => Cert.Kernel.Gen.frame m ρ

/-- The idealized kernel runs, and its argument arrays end as launched. -/
theorem frame_ki : Cert.frame_KernelIdeal := fun m ρ _ => Cert.KernelIdeal.Gen.frame m ρ

/-- The idealized reference runs, and its argument arrays end as launched: its run with the result named,
    the result's conjunct dropped. -/
theorem frame_ri : Cert.frame_ReferenceIdeal := fun m ρ _ =>
  (θ_run Cert.ReferenceIdeal.defs _ _).mono (fun _ h c => (h c).2) (Cert.ReferenceIdeal.RefValue.run m ρ)

/-- The three rewritten sites, one per layer after the first: each reads the sign bit of a `[512, 1024]` f32
    vector, and the rule's statement at that shape and format covers it. -/
theorem preserves : Cert.preserves_Kernel_KernelIdeal :=
  ⟨IdealRules.sign_bit.statement Cert.KernelIdeal.S512x1024 .f32,
   IdealRules.sign_bit.statement Cert.KernelIdeal.S512x1024 .f32,
   IdealRules.sign_bit.statement Cert.KernelIdeal.S512x1024 .f32⟩

/-- Over the extended reals, from memories that agree on the thirteen arguments, both programs end with the same
    `[16384, 10]` array: entry `(p, o)` of either is the network's output at `(p, o)` as a function of the
    arguments. The first argument's entries are real numbers by the precondition, which the kernel's side needs
    to trade the mean of squares for the variance. -/
theorem algebraic : Cert.algebraic_KernelIdeal_ReferenceIdeal := by
  intro m ρ m' ρ' hpre hagree
  refine ⟨fun c => Cert.KernelIdeal.Gen.W8 m ρ c (Proc.devRef .tc Cert.KernelIdeal.main_v45), Cert.BNN.Chain.run_result m ρ, ?_⟩
  refine (θ_run Cert.ReferenceIdeal.defs _ _).mono (fun _ h c => ⟨(h c).1.trans ?_, (h c).2⟩)
    (Cert.ReferenceIdeal.RefValue.run m' ρ')
  have hx : ∀ i, Cert.RealValued.IsReal (Cert.BNN.KValue.ax m c i) := fun i =>
    Cert.BNN.Finite.x_real _ _ _ _ _ _ _ _ _ _ _ _ _ (hpre c) i
  obtain ⟨a0, a1, a2, a3, a4, a5, a6, a7, a8, a9, a10, a11, a12⟩ := hagree c
  rw [a0, a1, a2, a3, a4, a5, a6, a7, a8, a9, a10, a11, a12]
  funext i
  obtain ⟨p, o, rfl⟩ : ∃ (p : Fin 16384) (o : Fin 10), i = ix2 p o := ⟨i 0, i 1, eq_ix2 i⟩
  refine Eq.trans (α := EReal) (Cert.BNN.Ref.refOut_apply _ _ _ _ _ _ _ _ _ _ _ _ _ p o) ?_
  exact (Cert.BNN.KValue.kernel_value m ρ c hx p o).symm

end Cert.Proof.BNNClaims

end
-- ==== Proof.lean ====
/-
  A four-layer network with binarized weights, computed two ways, is one function of its inputs over the extended reals.

  The kernel program runs four chained regions over blocks of 512 of the 16384 rows: the first layer's products with
  the weights' signs together with per-core column totals of them and of their squares; then, twice, a normalization
  by the column's mean and variance, a sign, the next layer's products, a random sign flip, and per-core column totals
  of the flipped signs; then a last normalization, sign and product.  The reference program computes the same layers
  on whole arrays, taking each variance as the mean of the squared deviations.  The kernel takes it as the mean of the
  squares minus the squared mean in the first layer and as one minus the squared mean afterwards, where the entries are
  +1 or −1.  These agree over the real numbers, so the first layer's column entries must be real: they are finite
  sums of signed entries of the data matrix, which the precondition makes finite.  Everything else is the same
  arithmetic on both sides, sums being regrouped freely since addition of extended reals is commutative and
  associative.  The sign the kernel reads off a float's sign bit is, in its idealized form, −1 below zero and +1
  otherwise, used only where the argument is not zero: the three rewrites of that form are what `preserves` states.
-/
import proofs.«171548_j65360812310623_2_alg».proof.Defs
import proofs.«171548_j65360812310623_2_alg».proof.Proof.Gen.Kernel
import proofs.«171548_j65360812310623_2_alg».proof.Proof.Gen.Kernel.Skeleton
import proofs.«171548_j65360812310623_2_alg».proof.Proof.Gen.Kernel.Launch
import proofs.«171548_j65360812310623_2_alg».proof.Proof.Gen.Kernel.Points
import proofs.«171548_j65360812310623_2_alg».proof.Proof.Gen.Kernel.Frame
import proofs.«171548_j65360812310623_2_alg».proof.Proof.Gen.KernelIdeal
import proofs.«171548_j65360812310623_2_alg».proof.Proof.Gen.KernelIdeal.Skeleton
import proofs.«171548_j65360812310623_2_alg».proof.Proof.Gen.KernelIdeal.Launch
import proofs.«171548_j65360812310623_2_alg».proof.Proof.Gen.KernelIdeal.Points
import proofs.«171548_j65360812310623_2_alg».proof.Proof.Gen.KernelIdeal.Frame
import proofs.«171548_j65360812310623_2_alg».proof.Proof.Gen.ReferenceIdeal
import proofs.«171548_j65360812310623_2_alg».proof.Proof.Gen.Pre_finite_inputs
import proofs.«171548_j65360812310623_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    BNNClaims.frame_k, BNNClaims.frame_ki, BNNClaims.frame_ri, BNNClaims.preserves, BNNClaims.algebraic⟩

end Cert.Proof

end
